-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_v271) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x720x1280 : Shape := ⟨4, ![8, 3, 720, 1280]⟩
abbrev S8x2x720x1280 : Shape := ⟨4, ![8, 2, 720, 1280]⟩
abbrev S_ : Shape := ⟨0, ![]⟩

class Facts : Prop where
  bcast_S_S8x3x720x1280 : S_.BroadcastsInDim S8x3x720x1280 (![] : Fin 0 → Fin S8x3x720x1280.rank)
  reducesTo_S8x3x720x1280_S_d0_1_2_3 : S8x3x720x1280.ReducesTo [0, 1, 2, 3] S_
  h_S_ : 0 < S_.numel
  bcast_S_S8x2x720x1280 : S_.BroadcastsInDim S8x2x720x1280 (![] : Fin 0 → Fin S8x2x720x1280.rank)
  reducesTo_S8x2x720x1280_S_d0_1_2_3 : S8x2x720x1280.ReducesTo [0, 1, 2, 3] S_

variable [Facts]

def fn {F : FTy → Type} [FloatOps F] (main_arg0 : FVec F S8x3x720x1280 .f32) (main_arg1 : FVec F S8x2x720x1280 .f32) : IVec S_ 1 :=
  let main_v0 : FVec F S8x3x720x1280 .f32 := Host.absf main_arg0
  let main_cst : FVec F S_ .f32 := constant S_ .f32 0x7F800000#32
  let main_v1 : FVec F S8x3x720x1280 .f32 := broadcastInDim S8x3x720x1280 ![] bcast_S_S8x3x720x1280 main_cst
  let main_v2 : IVec S8x3x720x1280 1 := cmpf .olt main_v0 main_v1
  let main_c : IVec S_ 1 := constantI S_ 1 1#1
  let main_v3 : IVec S_ 1 := (fun x v => Host.reduce IntOp.andi x v reducesTo_S8x3x720x1280_S_d0_1_2_3 h_S_) main_v2 main_c
  let main_v4 : FVec F S8x2x720x1280 .f32 := Host.absf main_arg1
  let main_cst_0 : FVec F S_ .f32 := constant S_ .f32 0x7F800000#32
  let main_v5 : FVec F S8x2x720x1280 .f32 := broadcastInDim S8x2x720x1280 ![] bcast_S_S8x2x720x1280 main_cst_0
  let main_v6 : IVec S8x2x720x1280 1 := cmpf .olt main_v4 main_v5
  let main_c_1 : IVec S_ 1 := constantI S_ 1 1#1
  let main_v7 : IVec S_ 1 := (fun x v => Host.reduce IntOp.andi x v reducesTo_S8x2x720x1280_S_d0_1_2_3 h_S_) main_v6 main_c_1
  let main_v8 : IVec S_ 1 := andi main_v3 main_v7
  main_v8
-- ==== Kernel.lean ====
abbrev S8x3x720x1280 : Shape := ⟨4, ![8, 3, 720, 1280]⟩
abbrev S8x2x720x1280 : Shape := ⟨4, ![8, 2, 720, 1280]⟩
abbrev S4x4x8x720x1280 : Shape := ⟨5, ![4, 4, 8, 720, 1280]⟩
abbrev S4x8x720x1280 : Shape := ⟨4, ![4, 8, 720, 1280]⟩
abbrev S1x3x80x1280 : Shape := ⟨4, ![1, 3, 80, 1280]⟩
abbrev S1x2x80x1280 : Shape := ⟨4, ![1, 2, 80, 1280]⟩
abbrev S4x4x1x80x1280 : Shape := ⟨5, ![4, 4, 1, 80, 1280]⟩
abbrev S4x1x80x1280 : Shape := ⟨4, ![4, 1, 80, 1280]⟩
abbrev S80x1280 : Shape := ⟨2, ![80, 1280]⟩
abbrev S1x1x80x1280 : Shape := ⟨4, ![1, 1, 80, 1280]⟩
abbrev S3x80x1280 : Shape := ⟨3, ![3, 80, 1280]⟩
abbrev S1x80x1280 : Shape := ⟨3, ![1, 80, 1280]⟩
abbrev S1x3x1x80x1280 : Shape := ⟨5, ![1, 3, 1, 80, 1280]⟩
abbrev S1x1x1x80x1280 : Shape := ⟨5, ![1, 1, 1, 80, 1280]⟩
abbrev S29491200 : Shape := ⟨1, ![29491200]⟩
abbrev S4x29491200 : Shape := ⟨2, ![4, 29491200]⟩
abbrev S_ : Shape := ⟨0, ![]⟩
abbrev S4x7372800 : Shape := ⟨2, ![4, 7372800]⟩
abbrev S29491200x1 : Shape := ⟨2, ![29491200, 1]⟩
abbrev S3x7372800 : Shape := ⟨2, ![3, 7372800]⟩
abbrev S3x8x720x1280 : Shape := ⟨4, ![3, 8, 720, 1280]⟩
abbrev S1x7372800 : Shape := ⟨2, ![1, 7372800]⟩
abbrev S7372800 : Shape := ⟨1, ![7372800]⟩
abbrev S8x1x720x1280 : Shape := ⟨4, ![8, 1, 720, 1280]⟩

abbrev nBuf : Space → Nat
  | .hbm => 25
  | .vmem => 8
  | .smem => 0
  | _ => 0

abbrev bufTy : (tb : Table) → Fin (tcTables nBuf tb) → BufTy
  | .hbm, ⟨0, _⟩ => ⟨S8x3x720x1280, .f32⟩
  | .hbm, ⟨1, _⟩ => ⟨S8x2x720x1280, .f32⟩
  | .hbm, ⟨2, _⟩ => ⟨S4x4x8x720x1280, .f32⟩
  | .hbm, ⟨3, _⟩ => ⟨S4x8x720x1280, .i32⟩
  | .hbm, ⟨4, _⟩ => ⟨S29491200, .i32⟩
  | .hbm, ⟨5, _⟩ => ⟨S4x4x8x720x1280, .f32⟩
  | .hbm, ⟨6, _⟩ => ⟨S4x29491200, .f32⟩
  | .hbm, ⟨7, _⟩ => ⟨S_, .f32⟩
  | .hbm, ⟨8, _⟩ => ⟨S4x7372800, .f32⟩
  | .hbm, ⟨9, _⟩ => ⟨S_, .i32⟩
  | .hbm, ⟨10, _⟩ => ⟨S29491200, .i32⟩
  | .hbm, ⟨11, _⟩ => ⟨S29491200, .i1⟩
  | .hbm, ⟨12, _⟩ => ⟨S_, .i32⟩
  | .hbm, ⟨13, _⟩ => ⟨S29491200, .i32⟩
  | .hbm, ⟨14, _⟩ => ⟨S29491200, .i32⟩
  | .hbm, ⟨15, _⟩ => ⟨S29491200, .i32⟩
  | .hbm, ⟨16, _⟩ => ⟨S29491200x1, .i32⟩
  | .hbm, ⟨17, _⟩ => ⟨S4x7372800, .f32⟩
  | .hbm, ⟨18, _⟩ => ⟨S3x7372800, .f32⟩
  | .hbm, ⟨19, _⟩ => ⟨S3x8x720x1280, .f32⟩
  | .hbm, ⟨20, _⟩ => ⟨S8x3x720x1280, .f32⟩
  | .hbm, ⟨21, _⟩ => ⟨S1x7372800, .f32⟩
  | .hbm, ⟨22, _⟩ => ⟨S7372800, .f32⟩
  | .hbm, ⟨23, _⟩ => ⟨S8x1x720x1280, .f32⟩
  | .hbm, ⟨24, _⟩ => ⟨S8x3x720x1280, .f32⟩
  | .local _ .vmem, ⟨0, _⟩ => ⟨S1x3x80x1280, .f32⟩
  | .local _ .vmem, ⟨1, _⟩ => ⟨S1x3x80x1280, .f32⟩
  | .local _ .vmem, ⟨2, _⟩ => ⟨S1x2x80x1280, .f32⟩
  | .local _ .vmem, ⟨3, _⟩ => ⟨S1x2x80x1280, .f32⟩
  | .local _ .vmem, ⟨4, _⟩ => ⟨S4x4x1x80x1280, .f32⟩
  | .local _ .vmem, ⟨5, _⟩ => ⟨S4x4x1x80x1280, .f32⟩
  | .local _ .vmem, ⟨6, _⟩ => ⟨S4x1x80x1280, .i32⟩
  | .local _ .vmem, ⟨7, _⟩ => ⟨S4x1x80x1280, .i32⟩
  | _, _ => ⟨S8x3x720x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 9], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x3x80x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x80x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x4x1x80x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x80x1280 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  iota_S80x1280_d0_w32 : S80x1280.Iotas .tc 32 [0]
  iota_S80x1280_d1_w32 : S80x1280.Iotas .tc 32 [1]
  inb_S1x2x80x1280_S1x1x80x1280_0_0_0_0 : ∀ a, (![0, 0, 0, 0] : Fin 4 → Nat) a + S1x1x80x1280.size a ≤ S1x2x80x1280.size a
  h_S1x1x80x1280 : 0 < S1x1x80x1280.numel
  shapeCasts_S1x1x80x1280_S80x1280 : S1x1x80x1280.ShapeCasts S80x1280
  inb_S1x2x80x1280_S1x1x80x1280_0_1_0_0 : ∀ a, (![0, 1, 0, 0] : Fin 4 → Nat) a + S1x1x80x1280.size a ≤ S1x2x80x1280.size a
  inb_S1x3x80x1280_S1x3x80x1280_0_0_0_0 : ∀ a, (![0, 0, 0, 0] : Fin 4 → Nat) a + S1x3x80x1280.size a ≤ S1x3x80x1280.size a
  h_S1x3x80x1280 : 0 < S1x3x80x1280.numel
  shapeCasts_S1x3x80x1280_S3x80x1280 : S1x3x80x1280.ShapeCasts S3x80x1280
  shapeCasts_S80x1280_S1x80x1280 : S80x1280.ShapeCasts S1x80x1280
  broadcasts_S1x80x1280_S3x80x1280 : S1x80x1280.Broadcasts S3x80x1280
  inb_S4x4x1x80x1280_S1x3x1x80x1280_0_0_0_0_0 : ∀ a, (![0, 0, 0, 0, 0] : Fin 5 → Nat) a + S1x3x1x80x1280.size a ≤ S4x4x1x80x1280.size a
  h_S1x3x1x80x1280 : 0 < S1x3x1x80x1280.numel
  shapeCasts_S1x3x1x80x1280_S3x80x1280 : S1x3x1x80x1280.ShapeCasts S3x80x1280
  shapeCasts_S3x80x1280_S1x3x1x80x1280 : S3x80x1280.ShapeCasts S1x3x1x80x1280
  inb_S4x4x1x80x1280_S1x1x1x80x1280_0_3_0_0_0 : ∀ a, (![0, 3, 0, 0, 0] : Fin 5 → Nat) a + S1x1x1x80x1280.size a ≤ S4x4x1x80x1280.size a
  h_S1x1x1x80x1280 : 0 < S1x1x1x80x1280.numel
  shapeCasts_S1x1x1x80x1280_S1x80x1280 : S1x1x1x80x1280.ShapeCasts S1x80x1280
  shapeCasts_S1x80x1280_S1x1x1x80x1280 : S1x80x1280.ShapeCasts S1x1x1x80x1280
  inb_S4x4x1x80x1280_S1x3x1x80x1280_1_0_0_0_0 : ∀ a, (![1, 0, 0, 0, 0] : Fin 5 → Nat) a + S1x3x1x80x1280.size a ≤ S4x4x1x80x1280.size a
  inb_S4x4x1x80x1280_S1x1x1x80x1280_1_3_0_0_0 : ∀ a, (![1, 3, 0, 0, 0] : Fin 5 → Nat) a + S1x1x1x80x1280.size a ≤ S4x4x1x80x1280.size a
  inb_S4x4x1x80x1280_S1x3x1x80x1280_2_0_0_0_0 : ∀ a, (![2, 0, 0, 0, 0] : Fin 5 → Nat) a + S1x3x1x80x1280.size a ≤ S4x4x1x80x1280.size a
  inb_S4x4x1x80x1280_S1x1x1x80x1280_2_3_0_0_0 : ∀ a, (![2, 3, 0, 0, 0] : Fin 5 → Nat) a + S1x1x1x80x1280.size a ≤ S4x4x1x80x1280.size a
  inb_S4x4x1x80x1280_S1x3x1x80x1280_3_0_0_0_0 : ∀ a, (![3, 0, 0, 0, 0] : Fin 5 → Nat) a + S1x3x1x80x1280.size a ≤ S4x4x1x80x1280.size a
  inb_S4x4x1x80x1280_S1x1x1x80x1280_3_3_0_0_0 : ∀ a, (![3, 3, 0, 0, 0] : Fin 5 → Nat) a + S1x1x1x80x1280.size a ≤ S4x4x1x80x1280.size a
  inb_S4x1x80x1280_S1x1x80x1280_0_0_0_0 : ∀ a, (![0, 0, 0, 0] : Fin 4 → Nat) a + S1x1x80x1280.size a ≤ S4x1x80x1280.size a
  shapeCasts_S80x1280_S1x1x80x1280 : S80x1280.ShapeCasts S1x1x80x1280
  inb_S4x1x80x1280_S1x1x80x1280_1_0_0_0 : ∀ a, (![1, 0, 0, 0] : Fin 4 → Nat) a + S1x1x80x1280.size a ≤ S4x1x80x1280.size a
  inb_S4x1x80x1280_S1x1x80x1280_2_0_0_0 : ∀ a, (![2, 0, 0, 0] : Fin 4 → Nat) a + S1x1x80x1280.size a ≤ S4x1x80x1280.size a
  inb_S4x1x80x1280_S1x1x80x1280_3_0_0_0 : ∀ a, (![3, 0, 0, 0] : Fin 4 → Nat) a + S1x1x80x1280.size a ≤ S4x1x80x1280.size a
  shapeCasts_S4x8x720x1280_S29491200 : S4x8x720x1280.ShapeCasts S29491200
  transposes_S4x4x8x720x1280_S4x4x8x720x1280_1_0_2_3_4 : S4x4x8x720x1280.Transposes [1, 0, 2, 3, 4] S4x4x8x720x1280
  shapeCasts_S4x4x8x720x1280_S4x29491200 : S4x4x8x720x1280.ShapeCasts S4x29491200
  bcast_S_S4x7372800 : S_.BroadcastsInDim S4x7372800 (![] : Fin 0 → Fin S4x7372800.rank)
  bcast_S_S29491200 : S_.BroadcastsInDim S29491200 (![] : Fin 0 → Fin S29491200.rank)
  bcast_S29491200_S29491200x1_0 : S29491200.BroadcastsInDim S29491200x1 (![0] : Fin 1 → Fin S29491200x1.rank)
  slices_S4x7372800_S3x7372800_0_0 : S4x7372800.Slices ![0, 0] S3x7372800
  shapeCasts_S3x7372800_S3x8x720x1280 : S3x7372800.ShapeCasts S3x8x720x1280
  transposes_S3x8x720x1280_S8x3x720x1280_1_0_2_3 : S3x8x720x1280.Transposes [1, 0, 2, 3] S8x3x720x1280
  slices_S4x7372800_S1x7372800_3_0 : S4x7372800.Slices ![3, 0] S1x7372800
  shapeCasts_S1x7372800_S7372800 : S1x7372800.ShapeCasts S7372800
  shapeCasts_S7372800_S8x1x720x1280 : S7372800.ShapeCasts S8x1x720x1280
  bcast_S8x1x720x1280_S8x3x720x1280_0_1_2_3 : S8x1x720x1280.BroadcastsInDim S8x3x720x1280 (![0, 1, 2, 3] : Fin 4 → Fin S8x3x720x1280.rank)
  scatter_S4x7372800_S29491200x1_S4x29491200_0_1_1_1_wf : ScatterDims.WF S4x7372800 S29491200x1 S4x29491200 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x80x1280.size a ≤ S8x3x720x1280.size a
  hwx0_0 : ∀ i : grid0.Coords, EltTy.bits .f32 = 32 ∨ (Rect.block (s := S8x3x720x1280) S1x3x80x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x80x1280.size a ≤ S8x2x720x1280.size a
  hwx0_1 : ∀ i : grid0.Coords, EltTy.bits .f32 = 32 ∨ (Rect.block (s := S8x2x720x1280) S1x2x80x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4x1x80x1280.size a ≤ S4x4x8x720x1280.size a
  hwx0_2 : ∀ i : grid0.Coords, EltTy.bits .f32 = 32 ∨ (Rect.block (s := S4x4x8x720x1280) S4x4x1x80x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x80x1280.size a ≤ S4x8x720x1280.size a
  hwx0_3 : ∀ i : grid0.Coords, EltTy.bits .i32 = 32 ∨ (Rect.block (s := S4x8x720x1280) S4x1x80x1280.size (cc0_transform_3 i) (hinb0_3 i)).WholeWords (EltTy.packing .i32)

variable [Facts₀]

def scatter_S4x7372800_S29491200x1_S4x29491200_0_1_1_1 : ScatterDims S4x7372800 S29491200x1 S4x29491200 where
  updateWindowDims := [0]
  insertedWindowDims := [1]
  scatterDimsToOperandDims := [1]
  indexVectorDim := 1
  wf := scatter_S4x7372800_S29491200x1_S4x29491200_0_1_1_1_wf

abbrev win0_0 : Pipeline.Window sig grid0 :=
  Pipeline.Window.ofSpec (Memref.whole main_arg0) S1x3x80x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x80x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4x4x1x80x1280.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4x1x80x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x3x720x1280 : Shape := ⟨4, ![8, 3, 720, 1280]⟩
abbrev S8x2x720x1280 : Shape := ⟨4, ![8, 2, 720, 1280]⟩
abbrev S8x1x720x1280 : Shape := ⟨4, ![8, 1, 720, 1280]⟩
abbrev S8x720x1280 : Shape := ⟨3, ![8, 720, 1280]⟩
abbrev S_ : Shape := ⟨0, ![]⟩
abbrev S720 : Shape := ⟨1, ![720]⟩
abbrev S720x1 : Shape := ⟨2, ![720, 1]⟩
abbrev S1x720x1 : Shape := ⟨3, ![1, 720, 1]⟩
abbrev S1280 : Shape := ⟨1, ![1280]⟩
abbrev S1x1280 : Shape := ⟨2, ![1, 1280]⟩
abbrev S1x1x1280 : Shape := ⟨3, ![1, 1, 1280]⟩
abbrev S8 : Shape := ⟨1, ![8]⟩
abbrev S8x1x1 : Shape := ⟨3, ![8, 1, 1]⟩
abbrev S7372800 : Shape := ⟨1, ![7372800]⟩
abbrev S3x8x720x1280 : Shape := ⟨4, ![3, 8, 720, 1280]⟩
abbrev S3x7372800 : Shape := ⟨2, ![3, 7372800]⟩
abbrev S7372800x1 : Shape := ⟨2, ![7372800, 1]⟩

abbrev nBuf : Space → Nat
  | .hbm => 348
  | .vmem => 0
  | .smem => 0
  | _ => 0

abbrev hbmTy0_0 (i : Nat) : BufTy := match i % 128 with
  | 0 => ⟨S8x3x720x1280, .f32⟩
  | 1 => ⟨S8x2x720x1280, .f32⟩
  | 2 => ⟨S8x1x720x1280, .f32⟩
  | 3 => ⟨S8x720x1280, .f32⟩
  | 4 => ⟨S8x1x720x1280, .f32⟩
  | 5 => ⟨S8x720x1280, .f32⟩
  | 6 => ⟨S8x720x1280, .f32⟩
  | 7 => ⟨S_, .f32⟩
  | 8 => ⟨S8x720x1280, .f32⟩
  | 9 => ⟨S8x720x1280, .f32⟩
  | 10 => ⟨S8x720x1280, .f32⟩
  | 11 => ⟨S_, .f32⟩
  | 12 => ⟨S8x720x1280, .f32⟩
  | 13 => ⟨S8x720x1280, .f32⟩
  | 14 => ⟨S8x720x1280, .f32⟩
  | 15 => ⟨S8x720x1280, .f32⟩
  | 16 => ⟨S8x720x1280, .f32⟩
  | 17 => ⟨S8x720x1280, .f32⟩
  | 18 => ⟨S8x720x1280, .f32⟩
  | 19 => ⟨S8x720x1280, .f32⟩
  | 20 => ⟨S8x720x1280, .f32⟩
  | 21 => ⟨S8x720x1280, .f32⟩
  | 22 => ⟨S8x720x1280, .f32⟩
  | 23 => ⟨S8x720x1280, .f32⟩
  | 24 => ⟨S8x720x1280, .f32⟩
  | 25 => ⟨S8x720x1280, .f32⟩
  | 26 => ⟨S8x720x1280, .i32⟩
  | 27 => ⟨S720, .i32⟩
  | 28 => ⟨S720x1, .i32⟩
  | 29 => ⟨S1x720x1, .i32⟩
  | 30 => ⟨S8x720x1280, .i32⟩
  | 31 => ⟨S8x720x1280, .i32⟩
  | 32 => ⟨S8x720x1280, .i32⟩
  | 33 => ⟨S1280, .i32⟩
  | 34 => ⟨S1x1280, .i32⟩
  | 35 => ⟨S1x1x1280, .i32⟩
  | 36 => ⟨S8x720x1280, .i32⟩
  | 37 => ⟨S8x720x1280, .i32⟩
  | 38 => ⟨S_, .i32⟩
  | 39 => ⟨S8x720x1280, .i32⟩
  | 40 => ⟨S8x720x1280, .i1⟩
  | 41 => ⟨S_, .i32⟩
  | 42 => ⟨S8x720x1280, .i32⟩
  | 43 => ⟨S8x720x1280, .i1⟩
  | 44 => ⟨S8x720x1280, .i1⟩
  | 45 => ⟨S_, .i32⟩
  | 46 => ⟨S8x720x1280, .i32⟩
  | 47 => ⟨S8x720x1280, .i1⟩
  | 48 => ⟨S8x720x1280, .i1⟩
  | 49 => ⟨S_, .i32⟩
  | 50 => ⟨S8x720x1280, .i32⟩
  | 51 => ⟨S8x720x1280, .i1⟩
  | 52 => ⟨S8x720x1280, .i1⟩
  | 53 => ⟨S_, .f32⟩
  | 54 => ⟨S_, .f32⟩
  | 55 => ⟨S8x720x1280, .f32⟩
  | 56 => ⟨S8x720x1280, .f32⟩
  | 57 => ⟨S_, .i32⟩
  | 58 => ⟨S8x720x1280, .i32⟩
  | 59 => ⟨S8x720x1280, .i32⟩
  | 60 => ⟨S8x720x1280, .i32⟩
  | 61 => ⟨S_, .i32⟩
  | 62 => ⟨S_, .i32⟩
  | 63 => ⟨S8x720x1280, .i32⟩
  | 64 => ⟨S8x720x1280, .i32⟩
  | 65 => ⟨S8, .i32⟩
  | 66 => ⟨S_, .i32⟩
  | 67 => ⟨S8, .i32⟩
  | 68 => ⟨S8, .i32⟩
  | 69 => ⟨S8x1x1, .i32⟩
  | 70 => ⟨S8x720x1280, .i32⟩
  | 71 => ⟨S8x720x1280, .i32⟩
  | 72 => ⟨S7372800, .i32⟩
  | 73 => ⟨S8x1x720x1280, .f32⟩
  | 74 => ⟨S8x3x720x1280, .f32⟩
  | 75 => ⟨S8x3x720x1280, .f32⟩
  | 76 => ⟨S3x8x720x1280, .f32⟩
  | 77 => ⟨S3x7372800, .f32⟩
  | 78 => ⟨S_, .f32⟩
  | 79 => ⟨S3x7372800, .f32⟩
  | 80 => ⟨S_, .i32⟩
  | 81 => ⟨S7372800, .i32⟩
  | 82 => ⟨S7372800, .i1⟩
  | 83 => ⟨S_, .i32⟩
  | 84 => ⟨S7372800, .i32⟩
  | 85 => ⟨S7372800, .i32⟩
  | 86 => ⟨S7372800, .i32⟩
  | 87 => ⟨S7372800x1, .i32⟩
  | 88 => ⟨S3x7372800, .f32⟩
  | 89 => ⟨S_, .f32⟩
  | 90 => ⟨S7372800, .f32⟩
  | 91 => ⟨S7372800, .f32⟩
  | 92 => ⟨S_, .i32⟩
  | 93 => ⟨S7372800, .i32⟩
  | 94 => ⟨S7372800, .i1⟩
  | 95 => ⟨S_, .i32⟩
  | 96 => ⟨S7372800, .i32⟩
  | 97 => ⟨S7372800, .i32⟩
  | 98 => ⟨S7372800, .i32⟩
  | 99 => ⟨S7372800x1, .i32⟩
  | 100 => ⟨S7372800, .f32⟩
  | 101 => ⟨S3x8x720x1280, .f32⟩
  | 102 => ⟨S8x3x720x1280, .f32⟩
  | 103 => ⟨S8x1x720x1280, .f32⟩
  | 104 => ⟨S8x3x720x1280, .f32⟩
  | 105 => ⟨S8x720x1280, .i32⟩
  | 106 => ⟨S720, .i32⟩
  | 107 => ⟨S720x1, .i32⟩
  | 108 => ⟨S1x720x1, .i32⟩
  | 109 => ⟨S8x720x1280, .i32⟩
  | 110 => ⟨S8x720x1280, .i32⟩
  | 111 => ⟨S8x720x1280, .i32⟩
  | 112 => ⟨S1280, .i32⟩
  | 113 => ⟨S1x1280, .i32⟩
  | 114 => ⟨S1x1x1280, .i32⟩
  | 115 => ⟨S8x720x1280, .i32⟩
  | 116 => ⟨S8x720x1280, .i32⟩
  | 117 => ⟨S_, .i32⟩
  | 118 => ⟨S8x720x1280, .i32⟩
  | 119 => ⟨S8x720x1280, .i1⟩
  | 120 => ⟨S_, .i32⟩
  | 121 => ⟨S8x720x1280, .i32⟩
  | 122 => ⟨S8x720x1280, .i1⟩
  | 123 => ⟨S8x720x1280, .i1⟩
  | 124 => ⟨S_, .i32⟩
  | 125 => ⟨S8x720x1280, .i32⟩
  | 126 => ⟨S8x720x1280, .i1⟩
  | 127 => ⟨S8x720x1280, .i1⟩
  | _ => ⟨S8x3x720x1280, .f32⟩

abbrev hbmTy0_1 (i : Nat) : BufTy := match i % 128 with
  | 0 => ⟨S_, .i32⟩
  | 1 => ⟨S8x720x1280, .i32⟩
  | 2 => ⟨S8x720x1280, .i1⟩
  | 3 => ⟨S8x720x1280, .i1⟩
  | 4 => ⟨S_, .f32⟩
  | 5 => ⟨S_, .f32⟩
  | 6 => ⟨S8x720x1280, .f32⟩
  | 7 => ⟨S8x720x1280, .f32⟩
  | 8 => ⟨S_, .i32⟩
  | 9 => ⟨S8x720x1280, .i32⟩
  | 10 => ⟨S8x720x1280, .i32⟩
  | 11 => ⟨S8x720x1280, .i32⟩
  | 12 => ⟨S_, .i32⟩
  | 13 => ⟨S_, .i32⟩
  | 14 => ⟨S8x720x1280, .i32⟩
  | 15 => ⟨S8x720x1280, .i32⟩
  | 16 => ⟨S8, .i32⟩
  | 17 => ⟨S_, .i32⟩
  | 18 => ⟨S8, .i32⟩
  | 19 => ⟨S8, .i32⟩
  | 20 => ⟨S8x1x1, .i32⟩
  | 21 => ⟨S8x720x1280, .i32⟩
  | 22 => ⟨S8x720x1280, .i32⟩
  | 23 => ⟨S7372800, .i32⟩
  | 24 => ⟨S8x1x720x1280, .f32⟩
  | 25 => ⟨S8x3x720x1280, .f32⟩
  | 26 => ⟨S8x3x720x1280, .f32⟩
  | 27 => ⟨S3x8x720x1280, .f32⟩
  | 28 => ⟨S3x7372800, .f32⟩
  | 29 => ⟨S_, .f32⟩
  | 30 => ⟨S3x7372800, .f32⟩
  | 31 => ⟨S_, .i32⟩
  | 32 => ⟨S7372800, .i32⟩
  | 33 => ⟨S7372800, .i1⟩
  | 34 => ⟨S_, .i32⟩
  | 35 => ⟨S7372800, .i32⟩
  | 36 => ⟨S7372800, .i32⟩
  | 37 => ⟨S7372800, .i32⟩
  | 38 => ⟨S7372800x1, .i32⟩
  | 39 => ⟨S3x7372800, .f32⟩
  | 40 => ⟨S_, .f32⟩
  | 41 => ⟨S7372800, .f32⟩
  | 42 => ⟨S7372800, .f32⟩
  | 43 => ⟨S_, .i32⟩
  | 44 => ⟨S7372800, .i32⟩
  | 45 => ⟨S7372800, .i1⟩
  | 46 => ⟨S_, .i32⟩
  | 47 => ⟨S7372800, .i32⟩
  | 48 => ⟨S7372800, .i32⟩
  | 49 => ⟨S7372800, .i32⟩
  | 50 => ⟨S7372800x1, .i32⟩
  | 51 => ⟨S7372800, .f32⟩
  | 52 => ⟨S3x8x720x1280, .f32⟩
  | 53 => ⟨S8x3x720x1280, .f32⟩
  | 54 => ⟨S8x1x720x1280, .f32⟩
  | 55 => ⟨S8x3x720x1280, .f32⟩
  | 56 => ⟨S8x720x1280, .i32⟩
  | 57 => ⟨S720, .i32⟩
  | 58 => ⟨S720x1, .i32⟩
  | 59 => ⟨S1x720x1, .i32⟩
  | 60 => ⟨S8x720x1280, .i32⟩
  | 61 => ⟨S8x720x1280, .i32⟩
  | 62 => ⟨S8x720x1280, .i32⟩
  | 63 => ⟨S1280, .i32⟩
  | 64 => ⟨S1x1280, .i32⟩
  | 65 => ⟨S1x1x1280, .i32⟩
  | 66 => ⟨S8x720x1280, .i32⟩
  | 67 => ⟨S8x720x1280, .i32⟩
  | 68 => ⟨S_, .i32⟩
  | 69 => ⟨S8x720x1280, .i32⟩
  | 70 => ⟨S8x720x1280, .i1⟩
  | 71 => ⟨S_, .i32⟩
  | 72 => ⟨S8x720x1280, .i32⟩
  | 73 => ⟨S8x720x1280, .i1⟩
  | 74 => ⟨S8x720x1280, .i1⟩
  | 75 => ⟨S_, .i32⟩
  | 76 => ⟨S8x720x1280, .i32⟩
  | 77 => ⟨S8x720x1280, .i1⟩
  | 78 => ⟨S8x720x1280, .i1⟩
  | 79 => ⟨S_, .i32⟩
  | 80 => ⟨S8x720x1280, .i32⟩
  | 81 => ⟨S8x720x1280, .i1⟩
  | 82 => ⟨S8x720x1280, .i1⟩
  | 83 => ⟨S_, .f32⟩
  | 84 => ⟨S_, .f32⟩
  | 85 => ⟨S8x720x1280, .f32⟩
  | 86 => ⟨S8x720x1280, .f32⟩
  | 87 => ⟨S_, .i32⟩
  | 88 => ⟨S8x720x1280, .i32⟩
  | 89 => ⟨S8x720x1280, .i32⟩
  | 90 => ⟨S8x720x1280, .i32⟩
  | 91 => ⟨S_, .i32⟩
  | 92 => ⟨S_, .i32⟩
  | 93 => ⟨S8x720x1280, .i32⟩
  | 94 => ⟨S8x720x1280, .i32⟩
  | 95 => ⟨S8, .i32⟩
  | 96 => ⟨S_, .i32⟩
  | 97 => ⟨S8, .i32⟩
  | 98 => ⟨S8, .i32⟩
  | 99 => ⟨S8x1x1, .i32⟩
  | 100 => ⟨S8x720x1280, .i32⟩
  | 101 => ⟨S8x720x1280, .i32⟩
  | 102 => ⟨S7372800, .i32⟩
  | 103 => ⟨S8x1x720x1280, .f32⟩
  | 104 => ⟨S8x3x720x1280, .f32⟩
  | 105 => ⟨S8x3x720x1280, .f32⟩
  | 106 => ⟨S3x8x720x1280, .f32⟩
  | 107 => ⟨S3x7372800, .f32⟩
  | 108 => ⟨S_, .f32⟩
  | 109 => ⟨S3x7372800, .f32⟩
  | 110 => ⟨S_, .i32⟩
  | 111 => ⟨S7372800, .i32⟩
  | 112 => ⟨S7372800, .i1⟩
  | 113 => ⟨S_, .i32⟩
  | 114 => ⟨S7372800, .i32⟩
  | 115 => ⟨S7372800, .i32⟩
  | 116 => ⟨S7372800, .i32⟩
  | 117 => ⟨S7372800x1, .i32⟩
  | 118 => ⟨S3x7372800, .f32⟩
  | 119 => ⟨S_, .f32⟩
  | 120 => ⟨S7372800, .f32⟩
  | 121 => ⟨S7372800, .f32⟩
  | 122 => ⟨S_, .i32⟩
  | 123 => ⟨S7372800, .i32⟩
  | 124 => ⟨S7372800, .i1⟩
  | 125 => ⟨S_, .i32⟩
  | 126 => ⟨S7372800, .i32⟩
  | 127 => ⟨S7372800, .i32⟩
  | _ => ⟨S8x3x720x1280, .f32⟩

abbrev hbmTy0_2 (i : Nat) : BufTy := match i % 128 with
  | 0 => ⟨S7372800, .i32⟩
  | 1 => ⟨S7372800x1, .i32⟩
  | 2 => ⟨S7372800, .f32⟩
  | 3 => ⟨S3x8x720x1280, .f32⟩
  | 4 => ⟨S8x3x720x1280, .f32⟩
  | 5 => ⟨S8x1x720x1280, .f32⟩
  | 6 => ⟨S8x3x720x1280, .f32⟩
  | 7 => ⟨S8x720x1280, .i32⟩
  | 8 => ⟨S720, .i32⟩
  | 9 => ⟨S720x1, .i32⟩
  | 10 => ⟨S1x720x1, .i32⟩
  | 11 => ⟨S8x720x1280, .i32⟩
  | 12 => ⟨S8x720x1280, .i32⟩
  | 13 => ⟨S8x720x1280, .i32⟩
  | 14 => ⟨S1280, .i32⟩
  | 15 => ⟨S1x1280, .i32⟩
  | 16 => ⟨S1x1x1280, .i32⟩
  | 17 => ⟨S8x720x1280, .i32⟩
  | 18 => ⟨S8x720x1280, .i32⟩
  | 19 => ⟨S_, .i32⟩
  | 20 => ⟨S8x720x1280, .i32⟩
  | 21 => ⟨S8x720x1280, .i1⟩
  | 22 => ⟨S_, .i32⟩
  | 23 => ⟨S8x720x1280, .i32⟩
  | 24 => ⟨S8x720x1280, .i1⟩
  | 25 => ⟨S8x720x1280, .i1⟩
  | 26 => ⟨S_, .i32⟩
  | 27 => ⟨S8x720x1280, .i32⟩
  | 28 => ⟨S8x720x1280, .i1⟩
  | 29 => ⟨S8x720x1280, .i1⟩
  | 30 => ⟨S_, .i32⟩
  | 31 => ⟨S8x720x1280, .i32⟩
  | 32 => ⟨S8x720x1280, .i1⟩
  | 33 => ⟨S8x720x1280, .i1⟩
  | 34 => ⟨S_, .f32⟩
  | 35 => ⟨S_, .f32⟩
  | 36 => ⟨S8x720x1280, .f32⟩
  | 37 => ⟨S8x720x1280, .f32⟩
  | 38 => ⟨S_, .i32⟩
  | 39 => ⟨S8x720x1280, .i32⟩
  | 40 => ⟨S8x720x1280, .i32⟩
  | 41 => ⟨S8x720x1280, .i32⟩
  | 42 => ⟨S_, .i32⟩
  | 43 => ⟨S_, .i32⟩
  | 44 => ⟨S8x720x1280, .i32⟩
  | 45 => ⟨S8x720x1280, .i32⟩
  | 46 => ⟨S8, .i32⟩
  | 47 => ⟨S_, .i32⟩
  | 48 => ⟨S8, .i32⟩
  | 49 => ⟨S8, .i32⟩
  | 50 => ⟨S8x1x1, .i32⟩
  | 51 => ⟨S8x720x1280, .i32⟩
  | 52 => ⟨S8x720x1280, .i32⟩
  | 53 => ⟨S7372800, .i32⟩
  | 54 => ⟨S8x1x720x1280, .f32⟩
  | 55 => ⟨S8x3x720x1280, .f32⟩
  | 56 => ⟨S8x3x720x1280, .f32⟩
  | 57 => ⟨S3x8x720x1280, .f32⟩
  | 58 => ⟨S3x7372800, .f32⟩
  | 59 => ⟨S_, .f32⟩
  | 60 => ⟨S3x7372800, .f32⟩
  | 61 => ⟨S_, .i32⟩
  | 62 => ⟨S7372800, .i32⟩
  | 63 => ⟨S7372800, .i1⟩
  | 64 => ⟨S_, .i32⟩
  | 65 => ⟨S7372800, .i32⟩
  | 66 => ⟨S7372800, .i32⟩
  | 67 => ⟨S7372800, .i32⟩
  | 68 => ⟨S7372800x1, .i32⟩
  | 69 => ⟨S3x7372800, .f32⟩
  | 70 => ⟨S_, .f32⟩
  | 71 => ⟨S7372800, .f32⟩
  | 72 => ⟨S7372800, .f32⟩
  | 73 => ⟨S_, .i32⟩
  | 74 => ⟨S7372800, .i32⟩
  | 75 => ⟨S7372800, .i1⟩
  | 76 => ⟨S_, .i32⟩
  | 77 => ⟨S7372800, .i32⟩
  | 78 => ⟨S7372800, .i32⟩
  | 79 => ⟨S7372800, .i32⟩
  | 80 => ⟨S7372800x1, .i32⟩
  | 81 => ⟨S7372800, .f32⟩
  | 82 => ⟨S3x8x720x1280, .f32⟩
  | 83 => ⟨S8x3x720x1280, .f32⟩
  | 84 => ⟨S8x1x720x1280, .f32⟩
  | 85 => ⟨S8x3x720x1280, .f32⟩
  | 86 => ⟨S8x3x720x1280, .f32⟩
  | 87 => ⟨S8x3x720x1280, .f32⟩
  | 88 => ⟨S8x3x720x1280, .f32⟩
  | 89 => ⟨S8x3x720x1280, .f32⟩
  | 90 => ⟨S8x3x720x1280, .f32⟩
  | 91 => ⟨S8x3x720x1280, .f32⟩
  | _ => ⟨S8x3x720x1280, .f32⟩

abbrev hbmTy (i : Nat) : BufTy := match i / 128 with
  | 0 => hbmTy0_0 i
  | 1 => hbmTy0_1 i
  | 2 => hbmTy0_2 i
  | _ => ⟨S8x3x720x1280, .f32⟩

abbrev bufTy : (tb : Table) → Fin (tcTables nBuf tb) → BufTy
  | .hbm, ⟨i, _⟩ => hbmTy i
  | _, _ => ⟨S8x3x720x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_c : Ref sig .tc := ⟨.hbm, 38, rfl⟩
abbrev main_v34 : Ref sig .tc := ⟨.hbm, 39, rfl⟩
abbrev main_v35 : Ref sig .tc := ⟨.hbm, 40, rfl⟩
abbrev main_c_1 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c_2 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c_3 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_call0_v0 : Ref sig .tc := ⟨.hbm, 54, rfl⟩
abbrev main_call0_v1 : Ref sig .tc := ⟨.hbm, 55, rfl⟩
abbrev main_v45 : Ref sig .tc := ⟨.hbm, 56, rfl⟩
abbrev main_c_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_6 : Ref sig .tc := ⟨.hbm, 61, rfl⟩
abbrev main_call1_v0 : Ref sig .tc := ⟨.hbm, 62, rfl⟩
abbrev main_call1_v1 : Ref sig .tc := ⟨.hbm, 63, rfl⟩
abbrev main_v49 : Ref sig .tc := ⟨.hbm, 64, rfl⟩
abbrev main_v50 : Ref sig .tc := ⟨.hbm, 65, rfl⟩
abbrev main_c_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_v62 : Ref sig .tc := ⟨.hbm, 79, rfl⟩
abbrev main_c_9 : Ref sig .tc := ⟨.hbm, 80, rfl⟩
abbrev main_v63 : Ref sig .tc := ⟨.hbm, 81, rfl⟩
abbrev main_v64 : Ref sig .tc := ⟨.hbm, 82, rfl⟩
abbrev main_c_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_c_12 : Ref sig .tc := ⟨.hbm, 92, rfl⟩
abbrev main_v72 : Ref sig .tc := ⟨.hbm, 93, rfl⟩
abbrev main_v73 : Ref sig .tc := ⟨.hbm, 94, rfl⟩
abbrev main_c_13 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_c_14 : Ref sig .tc := ⟨.hbm, 117, rfl⟩
abbrev main_v95 : Ref sig .tc := ⟨.hbm, 118, rfl⟩
abbrev main_v96 : Ref sig .tc := ⟨.hbm, 119, rfl⟩
abbrev main_c_15 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_c_16 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_c_17 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_18 : Ref sig .tc := ⟨.hbm, 132, rfl⟩
abbrev main_call2_v0 : Ref sig .tc := ⟨.hbm, 133, rfl⟩
abbrev main_call2_v1 : Ref sig .tc := ⟨.hbm, 134, rfl⟩
abbrev main_v106 : Ref sig .tc := ⟨.hbm, 135, rfl⟩
abbrev main_c_19 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_c_20 : Ref sig .tc := ⟨.hbm, 140, rfl⟩
abbrev main_call3_v0 : Ref sig .tc := ⟨.hbm, 141, rfl⟩
abbrev main_call3_v1 : Ref sig .tc := ⟨.hbm, 142, rfl⟩
abbrev main_v110 : Ref sig .tc := ⟨.hbm, 143, rfl⟩
abbrev main_v111 : Ref sig .tc := ⟨.hbm, 144, rfl⟩
abbrev main_c_21 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_22 : Ref sig .tc := ⟨.hbm, 157, rfl⟩
abbrev main_v123 : Ref sig .tc := ⟨.hbm, 158, rfl⟩
abbrev main_c_23 : Ref sig .tc := ⟨.hbm, 159, rfl⟩
abbrev main_v124 : Ref sig .tc := ⟨.hbm, 160, rfl⟩
abbrev main_v125 : Ref sig .tc := ⟨.hbm, 161, rfl⟩
abbrev main_c_24 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_25 : Ref sig .tc := ⟨.hbm, 168, rfl⟩
abbrev main_v131 : Ref sig .tc := ⟨.hbm, 169, rfl⟩
abbrev main_v132 : Ref sig .tc := ⟨.hbm, 170, rfl⟩
abbrev main_c_26 : Ref sig .tc := ⟨.hbm, 171, rfl⟩
abbrev main_v133 : Ref sig .tc := ⟨.hbm, 172, rfl⟩
abbrev main_v134 : Ref sig .tc := ⟨.hbm, 173, rfl⟩
abbrev main_c_27 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_c_28 : Ref sig .tc := ⟨.hbm, 196, rfl⟩
abbrev main_v156 : Ref sig .tc := ⟨.hbm, 197, rfl⟩
abbrev main_v157 : Ref sig .tc := ⟨.hbm, 198, rfl⟩
abbrev main_c_29 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_c_30 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_c_31 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_cst_32 : Ref sig .tc := ⟨.hbm, 211, rfl⟩
abbrev main_call4_v0 : Ref sig .tc := ⟨.hbm, 212, rfl⟩
abbrev main_call4_v1 : Ref sig .tc := ⟨.hbm, 213, rfl⟩
abbrev main_v167 : Ref sig .tc := ⟨.hbm, 214, rfl⟩
abbrev main_c_33 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_c_34 : Ref sig .tc := ⟨.hbm, 219, rfl⟩
abbrev main_call5_v0 : Ref sig .tc := ⟨.hbm, 220, rfl⟩
abbrev main_call5_v1 : Ref sig .tc := ⟨.hbm, 221, rfl⟩
abbrev main_v171 : Ref sig .tc := ⟨.hbm, 222, rfl⟩
abbrev main_v172 : Ref sig .tc := ⟨.hbm, 223, rfl⟩
abbrev main_c_35 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_cst_36 : Ref sig .tc := ⟨.hbm, 236, rfl⟩
abbrev main_v184 : Ref sig .tc := ⟨.hbm, 237, rfl⟩
abbrev main_c_37 : Ref sig .tc := ⟨.hbm, 238, rfl⟩
abbrev main_v185 : Ref sig .tc := ⟨.hbm, 239, rfl⟩
abbrev main_v186 : Ref sig .tc := ⟨.hbm, 240, rfl⟩
abbrev main_c_38 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_cst_39 : Ref sig .tc := ⟨.hbm, 247, rfl⟩
abbrev main_v192 : Ref sig .tc := ⟨.hbm, 248, rfl⟩
abbrev main_v193 : Ref sig .tc := ⟨.hbm, 249, rfl⟩
abbrev main_c_40 : Ref sig .tc := ⟨.hbm, 250, rfl⟩
abbrev main_v194 : Ref sig .tc := ⟨.hbm, 251, rfl⟩
abbrev main_v195 : Ref sig .tc := ⟨.hbm, 252, rfl⟩
abbrev main_c_41 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_c_42 : Ref sig .tc := ⟨.hbm, 275, rfl⟩
abbrev main_v217 : Ref sig .tc := ⟨.hbm, 276, rfl⟩
abbrev main_v218 : Ref sig .tc := ⟨.hbm, 277, rfl⟩
abbrev main_c_43 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_c_44 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_c_45 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_cst_46 : Ref sig .tc := ⟨.hbm, 290, rfl⟩
abbrev main_call6_v0 : Ref sig .tc := ⟨.hbm, 291, rfl⟩
abbrev main_call6_v1 : Ref sig .tc := ⟨.hbm, 292, rfl⟩
abbrev main_v228 : Ref sig .tc := ⟨.hbm, 293, rfl⟩
abbrev main_c_47 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_c_48 : Ref sig .tc := ⟨.hbm, 298, rfl⟩
abbrev main_call7_v0 : Ref sig .tc := ⟨.hbm, 299, rfl⟩
abbrev main_call7_v1 : Ref sig .tc := ⟨.hbm, 300, rfl⟩
abbrev main_v232 : Ref sig .tc := ⟨.hbm, 301, rfl⟩
abbrev main_v233 : Ref sig .tc := ⟨.hbm, 302, rfl⟩
abbrev main_c_49 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_cst_50 : Ref sig .tc := ⟨.hbm, 315, rfl⟩
abbrev main_v245 : Ref sig .tc := ⟨.hbm, 316, rfl⟩
abbrev main_c_51 : Ref sig .tc := ⟨.hbm, 317, rfl⟩
abbrev main_v246 : Ref sig .tc := ⟨.hbm, 318, rfl⟩
abbrev main_v247 : Ref sig .tc := ⟨.hbm, 319, rfl⟩
abbrev main_c_52 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_cst_53 : Ref sig .tc := ⟨.hbm, 326, rfl⟩
abbrev main_v253 : Ref sig .tc := ⟨.hbm, 327, rfl⟩
abbrev main_v254 : Ref sig .tc := ⟨.hbm, 328, rfl⟩
abbrev main_c_54 : Ref sig .tc := ⟨.hbm, 329, rfl⟩
abbrev main_v255 : Ref sig .tc := ⟨.hbm, 330, rfl⟩
abbrev main_v256 : Ref sig .tc := ⟨.hbm, 331, rfl⟩
abbrev main_c_55 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩

abbrev nD : Nat := 1
abbrev τ : Topo := Topo.v7x

variable {F : FTy → Type} [FloatOps F]

class Facts₀ : Prop where
  slices_S8x2x720x1280_S8x1x720x1280_0_0_0_0 : S8x2x720x1280.Slices ![0, 0, 0, 0] S8x1x720x1280
  shapeCasts_S8x1x720x1280_S8x720x1280 : S8x1x720x1280.ShapeCasts S8x720x1280
  slices_S8x2x720x1280_S8x1x720x1280_0_1_0_0 : S8x2x720x1280.Slices ![0, 1, 0, 0] S8x1x720x1280
  bcast_S_S8x720x1280 : S_.BroadcastsInDim S8x720x1280 (![] : Fin 0 → Fin S8x720x1280.rank)
  bcast_S720_S720x1_0 : S720.BroadcastsInDim S720x1 (![0] : Fin 1 → Fin S720x1.rank)
  bcast_S720x1_S1x720x1_1_2 : S720x1.BroadcastsInDim S1x720x1 (![1, 2] : Fin 2 → Fin S1x720x1.rank)
  bcast_S1x720x1_S8x720x1280_0_1_2 : S1x720x1.BroadcastsInDim S8x720x1280 (![0, 1, 2] : Fin 3 → Fin S8x720x1280.rank)
  bcast_S1280_S1x1280_1 : S1280.BroadcastsInDim S1x1280 (![1] : Fin 1 → Fin S1x1280.rank)
  bcast_S1x1280_S1x1x1280_1_2 : S1x1280.BroadcastsInDim S1x1x1280 (![1, 2] : Fin 2 → Fin S1x1x1280.rank)
  bcast_S1x1x1280_S8x720x1280_0_1_2 : S1x1x1280.BroadcastsInDim S8x720x1280 (![0, 1, 2] : Fin 3 → Fin S8x720x1280.rank)
  bcast_S_S8 : S_.BroadcastsInDim S8 (![] : Fin 0 → Fin S8.rank)
  bcast_S8_S8x1x1_0 : S8.BroadcastsInDim S8x1x1 (![0] : Fin 1 → Fin S8x1x1.rank)
  bcast_S8x1x1_S8x720x1280_0_1_2 : S8x1x1.BroadcastsInDim S8x720x1280 (![0, 1, 2] : Fin 3 → Fin S8x720x1280.rank)
  shapeCasts_S8x720x1280_S7372800 : S8x720x1280.ShapeCasts S7372800
  bcast_S8x720x1280_S8x1x720x1280_0_2_3 : S8x720x1280.BroadcastsInDim S8x1x720x1280 (![0, 2, 3] : Fin 3 → Fin S8x1x720x1280.rank)
  bcast_S8x1x720x1280_S8x3x720x1280_0_1_2_3 : S8x1x720x1280.BroadcastsInDim S8x3x720x1280 (![0, 1, 2, 3] : Fin 4 → Fin S8x3x720x1280.rank)
  transposes_S8x3x720x1280_S3x8x720x1280_1_0_2_3 : S8x3x720x1280.Transposes [1, 0, 2, 3] S3x8x720x1280
  shapeCasts_S3x8x720x1280_S3x7372800 : S3x8x720x1280.ShapeCasts S3x7372800
  bcast_S_S3x7372800 : S_.BroadcastsInDim S3x7372800 (![] : Fin 0 → Fin S3x7372800.rank)
  bcast_S_S7372800 : S_.BroadcastsInDim S7372800 (![] : Fin 0 → Fin S7372800.rank)
  bcast_S7372800_S7372800x1_0 : S7372800.BroadcastsInDim S7372800x1 (![0] : Fin 1 → Fin S7372800x1.rank)
  shapeCasts_S3x7372800_S3x8x720x1280 : S3x7372800.ShapeCasts S3x8x720x1280
  transposes_S3x8x720x1280_S8x3x720x1280_1_0_2_3 : S3x8x720x1280.Transposes [1, 0, 2, 3] S8x3x720x1280
  shapeCasts_S7372800_S8x1x720x1280 : S7372800.ShapeCasts S8x1x720x1280
  scatter_S3x7372800_S7372800x1_S3x7372800_0_1_1_1_wf : ScatterDims.WF S3x7372800 S7372800x1 S3x7372800 [0] [1] [1] 1
  scatter_S7372800_S7372800x1_S7372800_n_0_0_1_wf : ScatterDims.WF S7372800 S7372800x1 S7372800 [] [0] [0] 1

variable [Facts₀]

def scatter_S3x7372800_S7372800x1_S3x7372800_0_1_1_1 : ScatterDims S3x7372800 S7372800x1 S3x7372800 where
  updateWindowDims := [0]
  insertedWindowDims := [1]
  scatterDimsToOperandDims := [1]
  indexVectorDim := 1
  wf := scatter_S3x7372800_S7372800x1_S3x7372800_0_1_1_1_wf
def scatter_S7372800_S7372800x1_S7372800_n_0_0_1 : ScatterDims S7372800 S7372800x1 S7372800 where
  updateWindowDims := []
  insertedWindowDims := [0]
  scatterDimsToOperandDims := [0]
  indexVectorDim := 1
  wf := scatter_S7372800_S7372800x1_S7372800_n_0_0_1_wf

class Facts : Prop extends Facts₀ where

variable [Facts]
-- ==== Proof.Spec.lean ====
/-
  Forward bilinear warp, stated once.

  A pixel (n, h, w) of the flow field carries a shift x along the height axis (channel 1) and a shift y along the width
  axis (channel 0).  With fx = floor x and fy = floor y, the pixel splats onto the four integer corners
  (fx, fy), (fx, fy + 1), (fx + 1, fy), (fx + 1, fy + 1) of its displaced position (h + x, w + y), with the bilinear
  weights (fx + 1 - x)(fy + 1 - y), (fx + 1 - x)(y - fy), (x - fx)(fy + 1 - y), (x - fx)(y - fy).  A corner outside the
  720 x 1280 image gets weight zero and target 0; the target of a corner inside is its row-major position in the
  image, offset by the batch's 720 * 1280 block.  The result at a pixel p is the sum, over the four corners and over
  all source pixels whose corner lands on p, of weight times image value (first result), and of the weight alone
  (second result).

  The corner coordinates are 32-bit words.  The word of fx + 1 can be formed in two ways: by converting fx and adding
  one as a word ("word successor"), or by adding one as a number and converting ("converted successor").  Both are
  defined here; that they give the same weights and targets is proved in the module on corner words.
-/
import Idealize.ShloMosaic.PureOps.Ideal
import Idealize.ShloMosaic.Lib.ValueIdx

noncomputable section

namespace Cert.Warp

open Idealize.ShloMosaic Idealize.ShloMosaic.ValueIdx

/-- The shape of the image and of both results. -/
abbrev SImg : Shape := ⟨4, ![8, 3, 720, 1280]⟩
/-- The shape of the flow field. -/
abbrev SFlo : Shape := ⟨4, ![8, 2, 720, 1280]⟩

/-- The number one as the single-precision word both programs spell. -/
abbrev one : EReal := Ideal.ofBits .f32 0x3F800000#32

/-- The test that a corner (ix, iy) lies inside the image: 0 ≤ ix < 720 and 0 ≤ iy < 1280, as signed words. -/
def inside (ix iy : BitVec 32) : BitVec 1 :=
  IntOp.andi (IntOp.andi (IntOp.andi (IntOp.cmpi .sge ix 0#32) (IntOp.cmpi .slt ix 720#32)) (IntOp.cmpi .sge iy 0#32))
    (IntOp.cmpi .slt iy 1280#32)

/-- A corner's weight: the bilinear weight inside the image, zero outside. -/
def cornerW (ix iy : BitVec 32) (wt : EReal) : EReal := Scalar.select (inside ix iy) wt (0 : EReal)

/-- A corner's target: its row-major position inside the image (zero outside), plus the batch offset. -/
def cornerT (ix iy off : BitVec 32) : BitVec 32 :=
  IntOp.addi (Scalar.select (inside ix iy) (IntOp.addi (IntOp.muli ix 1280#32) iy) 0#32) off

/-- A negative target word wraps around the flat result once (the usual reading of a negative array index). -/
def wrapNeg (v : BitVec 32) : BitVec 32 := Scalar.select (IntOp.cmpi .slt v 0#32) (IntOp.addi v 7372800#32) v

/-- The weight of the corner with coordinate words xa (rows) and ya (columns), seen from pixel row h and column w. -/
def splatW (xa ya : BitVec 32) (h : Fin 720) (w : Fin 1280) (wt : EReal) : EReal :=
  cornerW (IntOp.addi xa (BitVec.ofNat 32 h.val)) (IntOp.addi ya (BitVec.ofNat 32 w.val)) wt

/-- The target of that corner, for a pixel of batch n. -/
def splatT (xa ya : BitVec 32) (n : Fin 8) (h : Fin 720) (w : Fin 1280) : BitVec 32 :=
  cornerT (IntOp.addi xa (BitVec.ofNat 32 h.val)) (IntOp.addi ya (BitVec.ofNat 32 w.val))
    (IntOp.muli (BitVec.ofNat 32 n.val) 921600#32)

section Pixel
variable (flo : SFlo.Idx → EReal) (n : Fin 8) (h : Fin 720) (w : Fin 1280)

/-- The shift along the height axis and along the width axis at a pixel, and their floors. -/
def xv : EReal := flo (ix4 n (1 : Fin 2) h w)
def yv : EReal := flo (ix4 n (0 : Fin 2) h w)
def fx : EReal := Ideal.liftRound Int.floor (xv flo n h w)
def fy : EReal := Ideal.liftRound Int.floor (yv flo n h w)

/-- The four bilinear weights, corners in the order (fx, fy), (fx, fy+1), (fx+1, fy), (fx+1, fy+1). -/
def wt (k : Fin 4) : EReal :=
  match k with
  | ⟨0, _⟩ => ((fx flo n h w + one) - xv flo n h w) * ((fy flo n h w + one) - yv flo n h w)
  | ⟨1, _⟩ => ((fx flo n h w + one) - xv flo n h w) * (yv flo n h w - fy flo n h w)
  | ⟨2, _⟩ => (xv flo n h w - fx flo n h w) * ((fy flo n h w + one) - yv flo n h w)
  | ⟨3, _⟩ => (xv flo n h w - fx flo n h w) * (yv flo n h w - fy flo n h w)

/-- The words of fx and fy. -/
def x1 : BitVec 32 := Ideal.fptosi 32 (fx flo n h w)
def y1 : BitVec 32 := Ideal.fptosi 32 (fy flo n h w)

/-- Word successor: convert, then add one as a word. -/
def xaS (k : Fin 4) : BitVec 32 :=
  match k with
  | ⟨0, _⟩ => x1 flo n h w | ⟨1, _⟩ => x1 flo n h w
  | ⟨2, _⟩ => IntOp.addi (x1 flo n h w) 1#32 | ⟨3, _⟩ => IntOp.addi (x1 flo n h w) 1#32
def yaS (k : Fin 4) : BitVec 32 :=
  match k with
  | ⟨0, _⟩ => y1 flo n h w | ⟨1, _⟩ => IntOp.addi (y1 flo n h w) 1#32
  | ⟨2, _⟩ => y1 flo n h w | ⟨3, _⟩ => IntOp.addi (y1 flo n h w) 1#32

/-- Converted successor: add one as a number, then convert. -/
def xaC (k : Fin 4) : BitVec 32 :=
  match k with
  | ⟨0, _⟩ => x1 flo n h w | ⟨1, _⟩ => x1 flo n h w
  | ⟨2, _⟩ => Ideal.fptosi 32 (fx flo n h w + one) | ⟨3, _⟩ => Ideal.fptosi 32 (fx flo n h w + one)
def yaC (k : Fin 4) : BitVec 32 :=
  match k with
  | ⟨0, _⟩ => y1 flo n h w | ⟨1, _⟩ => Ideal.fptosi 32 (fy flo n h w + one)
  | ⟨2, _⟩ => y1 flo n h w | ⟨3, _⟩ => Ideal.fptosi 32 (fy flo n h w + one)

/-- Corner k's weight and target at a pixel, with word successors … -/
def wmS (k : Fin 4) : EReal := splatW (xaS flo n h w k) (yaS flo n h w k) h w (wt flo n h w k)
def tgS (k : Fin 4) : BitVec 32 := splatT (xaS flo n h w k) (yaS flo n h w k) n h w
/-- … and with converted successors. -/
def wmC (k : Fin 4) : EReal := splatW (xaC flo n h w k) (yaC flo n h w k) h w (wt flo n h w k)
def tgC (k : Fin 4) : BitVec 32 := splatT (xaC flo n h w k) (yaC flo n h w k) n h w

end Pixel

/-- The weight and target functions with the corner first: word successors … -/
def WmS (flo : SFlo.Idx → EReal) : Fin 4 → Fin 8 → Fin 720 → Fin 1280 → EReal := fun k n h w => wmS flo n h w k
def TgS (flo : SFlo.Idx → EReal) : Fin 4 → Fin 8 → Fin 720 → Fin 1280 → BitVec 32 := fun k n h w => tgS flo n h w k
/-- … and converted successors. -/
def WmC (flo : SFlo.Idx → EReal) : Fin 4 → Fin 8 → Fin 720 → Fin 1280 → EReal := fun k n h w => wmC flo n h w k
def TgC (flo : SFlo.Idx → EReal) : Fin 4 → Fin 8 → Fin 720 → Fin 1280 → BitVec 32 := fun k n h w => tgC flo n h w k

/-! ## Flat pixel numbers -/

/-- Batch, row and column of the flat pixel number e = (n * 720 + h) * 1280 + w. -/
def pn (e : Fin 7372800) : Fin 8 := ⟨e.val / 921600, by have := e.isLt; omega⟩
def ph (e : Fin 7372800) : Fin 720 := ⟨e.val / 1280 % 720, by omega⟩
def pw (e : Fin 7372800) : Fin 1280 := ⟨e.val % 1280, by omega⟩
/-- The flat number of a pixel. -/
def flat (n : Fin 8) (h : Fin 720) (w : Fin 1280) : Fin 7372800 :=
  ⟨(n.val * 720 + h.val) * 1280 + w.val, by have := n.isLt; have := h.isLt; have := w.isLt; omega⟩

/-! ## The two results -/

/-- Corner k's contribution to the first result at (n, c, h, w): the image times the weight, summed over the source
    pixels whose (wrapped) target is this pixel.  The parameters wm and tg are the weight and target functions. -/
def imgPart (wm : Fin 4 → Fin 8 → Fin 720 → Fin 1280 → EReal) (tg : Fin 4 → Fin 8 → Fin 720 → Fin 1280 → BitVec 32)
    (img : SImg.Idx → EReal) (k : Fin 4) (n : Fin 8) (c : Fin 3) (h : Fin 720) (w : Fin 1280) : EReal :=
  ∑ e : Fin 7372800, if (wrapNeg (tg k (pn e) (ph e) (pw e))).toInt = ((flat n h w).val : Int)
    then img (ix4 (pn e) c (ph e) (pw e)) * wm k (pn e) (ph e) (pw e) else 0

/-- Corner k's contribution to the second result: the weights alone. -/
def onePart (wm : Fin 4 → Fin 8 → Fin 720 → Fin 1280 → EReal) (tg : Fin 4 → Fin 8 → Fin 720 → Fin 1280 → BitVec 32)
    (k : Fin 4) (n : Fin 8) (h : Fin 720) (w : Fin 1280) : EReal :=
  ∑ e : Fin 7372800, if (wrapNeg (tg k (pn e) (ph e) (pw e))).toInt = ((flat n h w).val : Int)
    then wm k (pn e) (ph e) (pw e) else 0

/-! ## The stacked intermediate arrays -/

/-- The shape of the stacked values (corner, channel, batch, row, column) and of the stacked targets. -/
abbrev SVals : Shape := ⟨5, ![4, 4, 8, 720, 1280]⟩
abbrev STgt : Shape := ⟨4, ![4, 8, 720, 1280]⟩

/-- The stacked values: channels 0..2 hold the image times corner k's weight, channel 3 the weight alone. -/
def valsS (img : SImg.Idx → EReal) (flo : SFlo.Idx → EReal) (i : SVals.Idx) : EReal :=
  if hc : (i 1).val < 3 then img (ix4 (i 2) (⟨(i 1).val, hc⟩ : Fin 3) (i 3) (i 4)) * wmS flo (i 2) (i 3) (i 4) (i 0)
  else wmS flo (i 2) (i 3) (i 4) (i 0)

/-- The stacked targets. -/
def tgtS (flo : SFlo.Idx → EReal) (i : STgt.Idx) : BitVec 32 := tgS flo (i 1) (i 2) (i 3) (i 0)

/-- Corner and flat pixel number of a position e = k * 7372800 + p in the four stacked copies. -/
def qk (e : Fin 29491200) : Fin 4 := ⟨e.val / 7372800, by have := e.isLt; omega⟩
def qe (e : Fin 29491200) : Fin 7372800 := ⟨e.val % 7372800, by omega⟩

/-- One accumulation over all four stacked copies: channel ch of the stacked values, summed over the positions whose
    (wrapped) stacked target is the pixel (n, h, w). -/
def stackSum (vals : SVals.Idx → EReal) (idx : STgt.Idx → BitVec 32) (ch : Fin 4) (n : Fin 8) (h : Fin 720)
    (w : Fin 1280) : EReal :=
  ∑ e : Fin 29491200,
    if (wrapNeg (idx (ix4 (qk e) (pn (qe e)) (ph (qe e)) (pw (qe e))))).toInt = ((flat n h w).val : Int)
    then vals (ix5 (qk e) ch (pn (qe e)) (ph (qe e)) (pw (qe e))) else 0

end Cert.Warp

end
-- ==== Proof.CornerWords.lean ====
/-
  The two ways of forming the word of fx + 1 give the same corner weights and targets.

  Let f be the floor of an extended real, a its word (conversion truncates toward zero and clamps into the signed
  32-bit range, an infinity going to the nearer end), and b the word of f + 1.  Conversion is a ring map on the
  unclamped range, so b = a + 1 as words whenever neither conversion clamps.  When one clamps, f ≥ 2^31 - 1 and
  a = b = 2^31 - 1, or f < -2^31 and a = b = -2^31.  In the first case the word successor a + 1 wraps to -2^31; adding a
  row or column number below 1280 to either word leaves a coordinate that is negative or at least 2^31 - 1, hence
  outside the image for both.  In the second case both coordinates stay negative.  Outside the image the weight is
  zero and the target is the bare batch offset, whatever the coordinate: so the corner's weight and target agree.
-/
import proofs.«180801_j71141838291751_2_alg».proof.Proof.Spec

noncomputable section

namespace Cert.Warp

open Idealize.ShloMosaic

/-- The word both programs spell for one denotes the number one. -/
theorem one_eq : one = ((1 : ℝ) : EReal) := by
  show Ideal.ofBits .f32 0x3F800000#32 = ((1 : ℝ) : EReal)
  simp [Ideal.ofBits, Ideal.ieee, -EReal.coe_mul]; norm_num

/-- The clamped integer of f + 1 is that of f plus one, unless both sit at the same end of the range. -/
theorem clamp_succ (lo hi : Int) (hlh : lo ≤ hi) (e : EReal) :
    Ideal.toIntClamped lo hi (Ideal.liftRound Int.floor e + one) = Ideal.toIntClamped lo hi (Ideal.liftRound Int.floor e) + 1
      ∨ (Ideal.toIntClamped lo hi (Ideal.liftRound Int.floor e) = hi
          ∧ Ideal.toIntClamped lo hi (Ideal.liftRound Int.floor e + one) = hi)
      ∨ (Ideal.toIntClamped lo hi (Ideal.liftRound Int.floor e) = lo
          ∧ Ideal.toIntClamped lo hi (Ideal.liftRound Int.floor e + one) = lo) := by
  rw [one_eq]
  induction e using EReal.rec with
  | bot =>
    refine Or.inr (Or.inr ⟨?_, ?_⟩)
    · rw [Ideal.liftRound_bot, Ideal.toIntClamped_bot]
    · rw [Ideal.liftRound_bot, EReal.bot_add, Ideal.toIntClamped_bot]
  | coe r =>
    rw [Ideal.liftRound_coe, ← EReal.coe_add]
    have h1 : ((⌊r⌋ : ℤ) : ℝ) + 1 = (((⌊r⌋ + 1 : ℤ)) : ℝ) := by push_cast; ring
    rw [h1, Ideal.toIntClamped_coe, Ideal.toIntClamped_coe]
    simp only [Int.floor_intCast, Int.ceil_intCast, ite_self]
    omega
  | top =>
    refine Or.inr (Or.inl ⟨?_, ?_⟩)
    · rw [Ideal.liftRound_top, Ideal.toIntClamped_top]
    · rw [Ideal.liftRound_top, EReal.top_add_coe, Ideal.toIntClamped_top]

/-- The same for the 32-bit words. -/
theorem word_succ (e : EReal) :
    Ideal.fptosi 32 (Ideal.liftRound Int.floor e + one) = Ideal.fptosi 32 (Ideal.liftRound Int.floor e) + 1#32
      ∨ (Ideal.fptosi 32 (Ideal.liftRound Int.floor e) = 2147483647#32
          ∧ Ideal.fptosi 32 (Ideal.liftRound Int.floor e + one) = 2147483647#32)
      ∨ (Ideal.fptosi 32 (Ideal.liftRound Int.floor e) = 2147483648#32
          ∧ Ideal.fptosi 32 (Ideal.liftRound Int.floor e + one) = 2147483648#32) := by
  unfold Ideal.fptosi
  rcases clamp_succ (-((2 ^ (32 - 1) : Nat) : Int)) (((2 ^ (32 - 1) : Nat) : Int) - 1) (by norm_num) e with h | ⟨h1, h2⟩ | ⟨h1, h2⟩
  · left
    rw [h, BitVec.ofInt_add]
    rfl
  · right; left
    rw [h1, h2]
    exact ⟨by decide, by decide⟩
  · right; right
    rw [h1, h2]
    exact ⟨by decide, by decide⟩

/-- The row test and the column test of a corner. -/
def rowIn (ix : BitVec 32) : BitVec 1 := IntOp.andi (IntOp.cmpi .sge ix 0#32) (IntOp.cmpi .slt ix 720#32)
def colIn (iy : BitVec 32) : BitVec 1 := IntOp.andi (IntOp.cmpi .sge iy 0#32) (IntOp.cmpi .slt iy 1280#32)

/-- A corner is inside when its row and its column are. -/
theorem inside_eq (ix iy : BitVec 32) : inside ix iy = rowIn ix &&& colIn iy := by
  unfold inside rowIn colIn IntOp.andi
  rw [BitVec.and_assoc]

/-- At the upper end of the range, the wrapped successor and the clamped word both give rows outside the image. -/
theorem rows_out_top : ∀ h : Fin 720,
    rowIn (IntOp.addi (IntOp.addi 2147483647#32 1#32) (BitVec.ofNat 32 h.val)) = 0#1
      ∧ rowIn (IntOp.addi 2147483647#32 (BitVec.ofNat 32 h.val)) = 0#1 := by decide +kernel
/-- At the lower end both rows are negative. -/
theorem rows_out_bot : ∀ h : Fin 720,
    rowIn (IntOp.addi (IntOp.addi 2147483648#32 1#32) (BitVec.ofNat 32 h.val)) = 0#1
      ∧ rowIn (IntOp.addi 2147483648#32 (BitVec.ofNat 32 h.val)) = 0#1 := by decide +kernel
/-- The same for columns. -/
theorem cols_out_top : ∀ w : Fin 1280,
    colIn (IntOp.addi (IntOp.addi 2147483647#32 1#32) (BitVec.ofNat 32 w.val)) = 0#1
      ∧ colIn (IntOp.addi 2147483647#32 (BitVec.ofNat 32 w.val)) = 0#1 := by decide +kernel
theorem cols_out_bot : ∀ w : Fin 1280,
    colIn (IntOp.addi (IntOp.addi 2147483648#32 1#32) (BitVec.ofNat 32 w.val)) = 0#1
      ∧ colIn (IntOp.addi 2147483648#32 (BitVec.ofNat 32 w.val)) = 0#1 := by decide +kernel

/-- Rows: the two successor words give the same row, or two rows outside the image. -/
theorem row_pair (e : EReal) (h : Fin 720) :
    IntOp.addi (IntOp.addi (Ideal.fptosi 32 (Ideal.liftRound Int.floor e)) 1#32) (BitVec.ofNat 32 h.val)
        = IntOp.addi (Ideal.fptosi 32 (Ideal.liftRound Int.floor e + one)) (BitVec.ofNat 32 h.val)
      ∨ (rowIn (IntOp.addi (IntOp.addi (Ideal.fptosi 32 (Ideal.liftRound Int.floor e)) 1#32) (BitVec.ofNat 32 h.val)) = 0#1
          ∧ rowIn (IntOp.addi (Ideal.fptosi 32 (Ideal.liftRound Int.floor e + one)) (BitVec.ofNat 32 h.val)) = 0#1) := by
  rcases word_succ e with hs | ⟨h1, h2⟩ | ⟨h1, h2⟩
  · left; rw [hs]; rfl
  · right; rw [h1, h2]; exact rows_out_top h
  · right; rw [h1, h2]; exact rows_out_bot h

/-- Columns likewise. -/
theorem col_pair (e : EReal) (w : Fin 1280) :
    IntOp.addi (IntOp.addi (Ideal.fptosi 32 (Ideal.liftRound Int.floor e)) 1#32) (BitVec.ofNat 32 w.val)
        = IntOp.addi (Ideal.fptosi 32 (Ideal.liftRound Int.floor e + one)) (BitVec.ofNat 32 w.val)
      ∨ (colIn (IntOp.addi (IntOp.addi (Ideal.fptosi 32 (Ideal.liftRound Int.floor e)) 1#32) (BitVec.ofNat 32 w.val)) = 0#1
          ∧ colIn (IntOp.addi (Ideal.fptosi 32 (Ideal.liftRound Int.floor e + one)) (BitVec.ofNat 32 w.val)) = 0#1) := by
  rcases word_succ e with hs | ⟨h1, h2⟩ | ⟨h1, h2⟩
  · left; rw [hs]; rfl
  · right; rw [h1, h2]; exact cols_out_top w
  · right; rw [h1, h2]; exact cols_out_bot w

/-- Two corners whose rows agree or are both outside, and whose columns agree or are both outside, have the same
    weight and the same target. -/
theorem corner_eq (xs xc ys yc : BitVec 32) (hx : xs = xc ∨ (rowIn xs = 0#1 ∧ rowIn xc = 0#1))
    (hy : ys = yc ∨ (colIn ys = 0#1 ∧ colIn yc = 0#1)) (wt : EReal) (off : BitVec 32) :
    cornerW xs ys wt = cornerW xc yc wt ∧ cornerT xs ys off = cornerT xc yc off := by
  have key : (xs = xc ∧ ys = yc) ∨ (inside xs ys = 0#1 ∧ inside xc yc = 0#1) := by
    rcases hx with hx | ⟨hx1, hx2⟩
    · rcases hy with hy | ⟨hy1, hy2⟩
      · exact Or.inl ⟨hx, hy⟩
      · right
        rw [inside_eq, inside_eq, hy1, hy2]
        exact ⟨BitVec.and_zero, BitVec.and_zero⟩
    · right
      rw [inside_eq, inside_eq, hx1, hx2]
      exact ⟨BitVec.zero_and, BitVec.zero_and⟩
  rcases key with ⟨rfl, rfl⟩ | ⟨h1, h2⟩
  · exact ⟨rfl, rfl⟩
  · unfold cornerW cornerT
    rw [h1, h2]
    exact ⟨rfl, rfl⟩

section Pixel
variable (flo : SFlo.Idx → EReal) (n : Fin 8) (h : Fin 720) (w : Fin 1280)

/-- Word successors and converted successors give the same weight and target at every corner of every pixel. -/
theorem splat_eq (k : Fin 4) : wmS flo n h w k = wmC flo n h w k ∧ tgS flo n h w k = tgC flo n h w k := by
  unfold wmS wmC tgS tgC splatW splatT
  match k with
  | ⟨0, _⟩ => exact corner_eq _ _ _ _ (Or.inl rfl) (Or.inl rfl) _ _
  | ⟨1, _⟩ => exact corner_eq _ _ _ _ (Or.inl rfl) (col_pair (yv flo n h w) w) _ _
  | ⟨2, _⟩ => exact corner_eq _ _ _ _ (row_pair (xv flo n h w) h) (Or.inl rfl) _ _
  | ⟨3, _⟩ => exact corner_eq _ _ _ _ (row_pair (xv flo n h w) h) (col_pair (yv flo n h w) w) _ _

end Pixel

/-- The weight and target functions coincide. -/
theorem WmS_eq (flo : SFlo.Idx → EReal) : WmS flo = WmC flo := by
  funext k n h w; exact (splat_eq flo n h w k).1
theorem TgS_eq (flo : SFlo.Idx → EReal) : TgS flo = TgC flo := by
  funext k n h w; exact (splat_eq flo n h w k).2

end Cert.Warp

end
-- ==== Proof.StackSplit.lean ====
/-
  One accumulation over the four stacked copies is the sum of the four corners' accumulations.

  A position of the flattened stack is e = k * 7372800 + p with k the corner and p the flat pixel number, so a sum over
  all positions is a sum over k of sums over p.  Channel c < 3 of the stacked values holds the image times corner k's
  weight, channel 3 the weight alone; the stacked targets hold corner k's target.  Addition of extended reals is
  commutative and associative, so no finiteness is needed.
-/
import proofs.«180801_j71141838291751_2_alg».proof.Proof.Spec

noncomputable section

open scoped BigOperators

namespace Cert.Warp

open Idealize.ShloMosaic Idealize.ShloMosaic.ValueIdx

/-- A sum over the positions of the stack, of a function of (corner, pixel), is the double sum. -/
theorem sum_stack {M : Type*} [AddCommMonoid M] (g : Fin 4 → Fin 7372800 → M) :
    ∑ e : Fin 29491200, g (qk e) (qe e) = ∑ k : Fin 4, ∑ p : Fin 7372800, g k p := by
  rw [← Fintype.sum_prod_type']
  rw [← Equiv.sum_comp (finProdFinEquiv (m := 4) (n := 7372800)) (fun e : Fin 29491200 => g (qk e) (qe e))]
  refine Finset.sum_congr rfl fun x _ => ?_
  have hk : qk (finProdFinEquiv (m := 4) (n := 7372800) x) = x.1 := by
    refine Fin.ext ?_
    show (x.2.val + 7372800 * x.1.val) / 7372800 = x.1.val
    have := x.2.isLt
    omega
  have hp : qe (finProdFinEquiv (m := 4) (n := 7372800) x) = x.2 := by
    refine Fin.ext ?_
    show (x.2.val + 7372800 * x.1.val) % 7372800 = x.2.val
    have := x.2.isLt
    omega
  rw [hk, hp]

/-- The image channels: one accumulation over the stack is the four corners' image parts. -/
theorem stackSum_img (img : SImg.Idx → EReal) (flo : SFlo.Idx → EReal) (n : Fin 8) (c : Fin 3) (h : Fin 720)
    (w : Fin 1280) (hc : c.val < 4) :
    stackSum (valsS img flo) (tgtS flo) ⟨c.val, hc⟩ n h w
      = imgPart (WmS flo) (TgS flo) img 0 n c h w + imgPart (WmS flo) (TgS flo) img 1 n c h w
        + imgPart (WmS flo) (TgS flo) img 2 n c h w + imgPart (WmS flo) (TgS flo) img 3 n c h w := by
  unfold stackSum
  rw [sum_stack (fun k p => if (wrapNeg (tgtS flo (ix4 k (pn p) (ph p) (pw p)))).toInt = ((flat n h w).val : Int)
    then valsS img flo (ix5 k (⟨c.val, hc⟩ : Fin 4) (pn p) (ph p) (pw p)) else 0)]
  rw [Fin.sum_univ_four]
  have hv : ∀ (k : Fin 4) (p : Fin 7372800),
      valsS img flo (ix5 k (⟨c.val, hc⟩ : Fin 4) (pn p) (ph p) (pw p))
        = img (ix4 (pn p) c (ph p) (pw p)) * WmS flo k (pn p) (ph p) (pw p) := by
    intro k p
    unfold valsS
    rw [dif_pos (show ((ix5 k (⟨c.val, hc⟩ : Fin 4) (pn p) (ph p) (pw p) : SVals.Idx) 1).val < 3 from c.isLt)]
    rfl
  simp only [hv]
  rfl

/-- The weight channel: one accumulation over the stack is the four corners' weight parts. -/
theorem stackSum_one (img : SImg.Idx → EReal) (flo : SFlo.Idx → EReal) (n : Fin 8) (h : Fin 720) (w : Fin 1280) :
    stackSum (valsS img flo) (tgtS flo) (3 : Fin 4) n h w
      = onePart (WmS flo) (TgS flo) 0 n h w + onePart (WmS flo) (TgS flo) 1 n h w
        + onePart (WmS flo) (TgS flo) 2 n h w + onePart (WmS flo) (TgS flo) 3 n h w := by
  unfold stackSum
  rw [sum_stack (fun k p => if (wrapNeg (tgtS flo (ix4 k (pn p) (ph p) (pw p)))).toInt = ((flat n h w).val : Int)
    then valsS img flo (ix5 k (3 : Fin 4) (pn p) (ph p) (pw p)) else 0)]
  rw [Fin.sum_univ_four]
  have hv : ∀ (k : Fin 4) (p : Fin 7372800),
      valsS img flo (ix5 k (3 : Fin 4) (pn p) (ph p) (pw p)) = WmS flo k (pn p) (ph p) (pw p) := by
    intro k p
    unfold valsS
    rw [dif_neg (show ¬ ((ix5 k (3 : Fin 4) (pn p) (ph p) (pw p) : SVals.Idx) 1).val < 3 from Nat.lt_irrefl 3)]
    rfl
  simp only [hv]
  rfl

end Cert.Warp

end
-- ==== Proof.Results.lean ====
/-
  The two results as functions of the image and the flow, and the stacked accumulation brought to that form.

  Each result at a pixel is the sum of the four corners' parts, each part added to a zero array first, the four then
  added left to right.  One accumulation over the four stacked copies, with word successors, is the same number: it
  splits into the four corners' parts, and word successors and converted successors give the same weights and targets.
-/
import proofs.«180801_j71141838291751_2_alg».proof.Proof.Spec
import proofs.«180801_j71141838291751_2_alg».proof.Proof.CornerWords
import proofs.«180801_j71141838291751_2_alg».proof.Proof.StackSplit

noncomputable section

namespace Cert.Warp

open Idealize.ShloMosaic Idealize.ShloMosaic.ValueIdx

/-- The first result: the warped image. -/
def out0 (img : SImg.Idx → EReal) (flo : SFlo.Idx → EReal) (i : SImg.Idx) : EReal :=
  (((0 + imgPart (WmC flo) (TgC flo) img 0 (i 0) (i 1) (i 2) (i 3))
      + (0 + imgPart (WmC flo) (TgC flo) img 1 (i 0) (i 1) (i 2) (i 3)))
    + (0 + imgPart (WmC flo) (TgC flo) img 2 (i 0) (i 1) (i 2) (i 3)))
  + (0 + imgPart (WmC flo) (TgC flo) img 3 (i 0) (i 1) (i 2) (i 3))

/-- The second result: the accumulated weights, the same on every channel. -/
def out1 (flo : SFlo.Idx → EReal) (i : SImg.Idx) : EReal :=
  (((0 + onePart (WmC flo) (TgC flo) 0 (i 0) (i 2) (i 3)) + (0 + onePart (WmC flo) (TgC flo) 1 (i 0) (i 2) (i 3)))
    + (0 + onePart (WmC flo) (TgC flo) 2 (i 0) (i 2) (i 3)))
  + (0 + onePart (WmC flo) (TgC flo) 3 (i 0) (i 2) (i 3))

/-- The stacked accumulation of an image channel, added to zero, is the first result. -/
theorem stack_out0 (img : SImg.Idx → EReal) (flo : SFlo.Idx → EReal) (n : Fin 8) (c : Fin 3) (h : Fin 720)
    (w : Fin 1280) (hc : c.val < 4) :
    0 + stackSum (valsS img flo) (tgtS flo) ⟨c.val, hc⟩ n h w = out0 img flo (ix4 n c h w) := by
  rw [stackSum_img, WmS_eq, TgS_eq]
  unfold out0
  simp only [zero_add]

/-- The stacked accumulation of the weight channel, added to zero, is the second result. -/
theorem stack_out1 (img : SImg.Idx → EReal) (flo : SFlo.Idx → EReal) (n : Fin 8) (c : Fin 3) (h : Fin 720)
    (w : Fin 1280) :
    0 + stackSum (valsS img flo) (tgtS flo) (3 : Fin 4) n h w = out1 flo (ix4 n c h w) := by
  rw [stackSum_one, WmS_eq, TgS_eq]
  unfold out1
  simp only [zero_add]

end Cert.Warp

end
-- ==== Proof.KerRegionTile.lean ====
/-
  The kernel's tile arithmetic.

  A grid point (n, ht) of the kernel works on the 80 x 1280 tile of rows ht * 80 .. ht * 80 + 79 of batch n.  It loads
  the two flow channels of the tile, floors them, forms the four bilinear weights and the four corner coordinates as
  words, masks the weights and the row-major targets by the test that the corner lies inside the 720 x 1280 image, and
  stores, per corner, the image tile times the masked weight, the masked weight, and the target plus the batch offset.

  This module reads each of those intermediate tiles at one pixel (r, w) of the tile and identifies it with the
  specification's value at the pixel (n, ht * 80 + r, w): first the layout operations (shape casts that move unit
  axes, the channel broadcast, the two counters, a one-channel load), then the arithmetic, one lemma per value.
-/
import proofs.«180801_j71141838291751_2_alg».proof.Proof.Gen.KernelIdeal.Frame
import proofs.«180801_j71141838291751_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)

namespace Cert.Warp.Ker
open Cert.KernelIdeal Cert.KernelIdeal.Gen

/-! ## Layout operations of the kernel body, read at an index

Every block of the kernel is an 80 x 1280 tile with unit axes in front (and, for the stacked values, one unit axis
for the batch between the channel and the rows).  A shape cast between two such shapes keeps the row-major position,
so it reads the tile entry (r, w) wherever the unit axes sit. -/

section Layout
variable {α : Type}

/-- [1, 1, 80, 1280] viewed as [80, 1280]. -/
theorem cast_11ab_ab (x : (⟨4, ![1, 1, 80, 1280]⟩ : Shape).Idx → α)
    (h : (⟨4, ![1, 1, 80, 1280]⟩ : Shape).ShapeCasts ⟨2, ![80, 1280]⟩) (r : Fin 80) (w : Fin 1280) :
    shapeCast ⟨2, ![80, 1280]⟩ x h (ix2 r w) = x (ix4 0 0 r w) :=
  shapeCast_apply x h _ _ (by
    rw [Shape.rowMajor_val_four, Shape.rowMajor_val_two]
    show ((0 * 1 + 0) * 80 + r.val) * 1280 + w.val = r.val * 1280 + w.val
    omega)

/-- [80, 1280] viewed as [1, 1, 80, 1280]. -/
theorem cast_ab_11ab (x : (⟨2, ![80, 1280]⟩ : Shape).Idx → α)
    (h : (⟨2, ![80, 1280]⟩ : Shape).ShapeCasts ⟨4, ![1, 1, 80, 1280]⟩) (a b : Fin 1) (r : Fin 80) (w : Fin 1280) :
    shapeCast ⟨4, ![1, 1, 80, 1280]⟩ x h (ix4 a b r w) = x (ix2 r w) :=
  shapeCast_apply x h _ _ (by
    rw [Shape.rowMajor_val_four, Shape.rowMajor_val_two]
    show r.val * 1280 + w.val = ((a.val * 1 + b.val) * 80 + r.val) * 1280 + w.val
    have := a.isLt; have := b.isLt
    omega)

/-- [80, 1280] viewed as [1, 80, 1280]. -/
theorem cast_ab_1ab (x : (⟨2, ![80, 1280]⟩ : Shape).Idx → α)
    (h : (⟨2, ![80, 1280]⟩ : Shape).ShapeCasts ⟨3, ![1, 80, 1280]⟩) (a : Fin 1) (r : Fin 80) (w : Fin 1280) :
    shapeCast ⟨3, ![1, 80, 1280]⟩ x h (ix3 a r w) = x (ix2 r w) :=
  shapeCast_apply x h _ _ (by
    rw [Shape.rowMajor_val_three, Shape.rowMajor_val_two]
    show r.val * 1280 + w.val = (a.val * 80 + r.val) * 1280 + w.val
    have := a.isLt
    omega)

/-- [1, 80, 1280] viewed as [1, 1, 1, 80, 1280]. -/
theorem cast_1ab_111ab (x : (⟨3, ![1, 80, 1280]⟩ : Shape).Idx → α)
    (h : (⟨3, ![1, 80, 1280]⟩ : Shape).ShapeCasts ⟨5, ![1, 1, 1, 80, 1280]⟩) (a b c : Fin 1) (r : Fin 80) (w : Fin 1280) :
    shapeCast ⟨5, ![1, 1, 1, 80, 1280]⟩ x h (ix5 a b c r w) = x (ix3 0 r w) :=
  shapeCast_apply x h _ _ (by
    rw [Shape.rowMajor_val_five, Shape.rowMajor_val_three]
    show (0 * 80 + r.val) * 1280 + w.val = (((a.val * 1 + b.val) * 1 + c.val) * 80 + r.val) * 1280 + w.val
    have := a.isLt; have := b.isLt; have := c.isLt
    omega)

/-- [1, 3, 80, 1280] viewed as [3, 80, 1280]. -/
theorem cast_1cab_cab (x : (⟨4, ![1, 3, 80, 1280]⟩ : Shape).Idx → α)
    (h : (⟨4, ![1, 3, 80, 1280]⟩ : Shape).ShapeCasts ⟨3, ![3, 80, 1280]⟩) (ch : Fin 3) (r : Fin 80) (w : Fin 1280) :
    shapeCast ⟨3, ![3, 80, 1280]⟩ x h (ix3 ch r w) = x (ix4 0 ch r w) :=
  shapeCast_apply x h _ _ (by
    rw [Shape.rowMajor_val_four, Shape.rowMajor_val_three]
    show ((0 * 3 + ch.val) * 80 + r.val) * 1280 + w.val = (ch.val * 80 + r.val) * 1280 + w.val
    omega)

/-- [3, 80, 1280] viewed as [1, 3, 1, 80, 1280]. -/
theorem cast_cab_1c1ab (x : (⟨3, ![3, 80, 1280]⟩ : Shape).Idx → α)
    (h : (⟨3, ![3, 80, 1280]⟩ : Shape).ShapeCasts ⟨5, ![1, 3, 1, 80, 1280]⟩) (a : Fin 1) (ch : Fin 3) (z : Fin 1)
    (r : Fin 80) (w : Fin 1280) :
    shapeCast ⟨5, ![1, 3, 1, 80, 1280]⟩ x h (ix5 a ch z r w) = x (ix3 ch r w) :=
  shapeCast_apply x h _ _ (by
    rw [Shape.rowMajor_val_five, Shape.rowMajor_val_three]
    show (ch.val * 80 + r.val) * 1280 + w.val = (((a.val * 3 + ch.val) * 1 + z.val) * 80 + r.val) * 1280 + w.val
    have := a.isLt; have := z.isLt
    omega)

/-- One tile broadcast to the three channels. -/
theorem bcast_1ab_cab (x : (⟨3, ![1, 80, 1280]⟩ : Shape).Idx → α)
    (h : (⟨3, ![1, 80, 1280]⟩ : Shape).Broadcasts ⟨3, ![3, 80, 1280]⟩) (ch : Fin 3) (r : Fin 80) (w : Fin 1280) :
    broadcastTo ⟨3, ![3, 80, 1280]⟩ x h (ix3 ch r w) = x (ix3 0 r w) :=
  broadcastTo_apply x h _ _ (fun a => by
    match a with
    | ⟨0, _⟩ => rfl
    | ⟨1, _⟩ => rfl
    | ⟨2, _⟩ => rfl)

/-- The row counter and the column counter of a tile. -/
theorem iota_rows (h : (⟨2, ![80, 1280]⟩ : Shape).Iotas .tc 32 [0]) (r : Fin 80) (w : Fin 1280) :
    iota .tc ⟨2, ![80, 1280]⟩ 32 [0] h (ix2 r w) = BitVec.ofNat 32 r.val :=
  iota_single_apply .tc _ 32 0 h _
theorem iota_cols (h : (⟨2, ![80, 1280]⟩ : Shape).Iotas .tc 32 [1]) (r : Fin 80) (w : Fin 1280) :
    iota .tc ⟨2, ![80, 1280]⟩ 32 [1] h (ix2 r w) = BitVec.ofNat 32 w.val :=
  iota_single_apply .tc _ 32 1 h _

/-- A load of one channel of a [1, C, 80, 1280] block reads that channel's tile. -/
theorem ld_channel {Val : EltTy → Type} {e : EltTy} {C : Nat} (x : (⟨4, ![1, C, 80, 1280]⟩ : Shape).Idx → Val e) (c : Fin C)
    (inb : ∀ a, (![0, c.val, 0, 0] : Fin 4 → Nat) a + (![1, 1, 80, 1280] : Fin 4 → Nat) a ≤ (⟨4, ![1, C, 80, 1280]⟩ : Shape).size a)
    (a b : Fin 1) (r : Fin 80) (w : Fin 1280) :
    View.ld x (Rect.unit (s := ⟨4, ![1, C, 80, 1280]⟩) ![0, c.val, 0, 0] ![1, 1, 80, 1280] inb) (ix4 a b r w) = x (ix4 0 c r w) := by
  show x _ = x _
  refine congrArg x (funext fun d => Fin.ext ?_)
  have := a.isLt; have := b.isLt
  match d with
  | ⟨0, _⟩ => show 0 + 1 * a.val = 0; omega
  | ⟨1, _⟩ => show c.val + 1 * b.val = c.val; omega
  | ⟨2, _⟩ => show 0 + 1 * r.val = r.val; omega
  | ⟨3, _⟩ => show 0 + 1 * w.val = w.val; omega

end Layout

/-! ## The tile arithmetic at one pixel

A grid point (n, ht) works on rows ht * 80 .. ht * 80 + 79 of batch n.  Below, vy and vx are the two flow tiles the
body loads (channel 0: the shift along the width; channel 1: the shift along the height), (r, w) a pixel of the tile
and h = ht * 80 + r its row in the image.  Each lemma reads one intermediate value of the body at (r, w) as the
specification's value at the pixel (n, h, w). -/

section Tile
variable (i : grid0.Coords) (vy vx : Vec Ideal S1x1x80x1280 .f32) (flo : SFlo.Idx → EReal)
variable (n : Fin 8) (h : Fin 720) (r : Fin 80) (w : Fin 1280)

/-- The row word: the tile's row counter plus the tile's first row. -/
theorem rowWord_at (hh : (i 1).val * 80 + r.val = h.val) : k0_pay7 i (ix2 r w) = BitVec.ofNat 32 h.val := by
  unfold k0_pay7
  show IntOp.addi (iota .tc S80x1280 32 [0] iota_S80x1280_d0_w32 (ix2 r w)) (Scalar.muli (BitVec.ofNat 32 (i 1).val) 80#32) = _
  rw [iota_rows]
  show BitVec.ofNat 32 r.val + BitVec.ofNat 32 (i 1).val * BitVec.ofNat 32 80 = _
  rw [← hh, BitVec.ofNat_add, BitVec.ofNat_mul, BitVec.add_comm]

theorem x_at : k0_pay9 vx (ix2 r w) = vx (ix4 0 0 r w) := by
  unfold k0_pay9; exact cast_11ab_ab _ _ r w
theorem y_at : k0_pay8 vy (ix2 r w) = vy (ix4 0 0 r w) := by
  unfold k0_pay8; exact cast_11ab_ab _ _ r w

variable (hx : vx (ix4 0 0 r w) = xv flo n h w) (hy : vy (ix4 0 0 r w) = yv flo n h w)
include hx in
theorem fx_at : k0_pay10 vx (ix2 r w) = fx flo n h w := by
  unfold k0_pay10
  show Ideal.liftRound Int.floor (k0_pay9 vx (ix2 r w)) = _
  rw [x_at, hx]; rfl
include hy in
theorem fy_at : k0_pay11 vy (ix2 r w) = fy flo n h w := by
  unfold k0_pay11
  show Ideal.liftRound Int.floor (k0_pay8 vy (ix2 r w)) = _
  rw [y_at, hy]; rfl

include hx in
theorem xword_at : k0_pay18 vx (ix2 r w) = x1 flo n h w := by
  unfold k0_pay18
  show Ideal.fptosi 32 (k0_pay10 vx (ix2 r w)) = _
  rw [fx_at vx flo n h r w hx]; rfl
include hy in
theorem yword_at : k0_pay19 vy (ix2 r w) = y1 flo n h w := by
  unfold k0_pay19
  show Ideal.fptosi 32 (k0_pay11 vy (ix2 r w)) = _
  rw [fy_at vy flo n h r w hy]; rfl

end Tile

section Tile2
variable (i : grid0.Coords) (vy vx : Vec Ideal S1x1x80x1280 .f32) (flo : SFlo.Idx → EReal)
variable (n : Fin 8) (h : Fin 720) (r : Fin 80) (w : Fin 1280)
variable (hh : (i 1).val * 80 + r.val = h.val)
variable (hx : vx (ix4 0 0 r w) = xv flo n h w) (hy : vy (ix4 0 0 r w) = yv flo n h w)

/-! The four corner coordinates: the floor's word (or its word successor) plus the pixel's row or column word. -/
include hh hx in
theorem cx0_at : k0_pay20 i vx (ix2 r w) = IntOp.addi (x1 flo n h w) (BitVec.ofNat 32 h.val) := by
  unfold k0_pay20
  show IntOp.addi (k0_pay18 vx (ix2 r w)) (k0_pay7 i (ix2 r w)) = _
  rw [xword_at vx flo n h r w hx, rowWord_at i h r w hh]
include hh hx in
theorem cx1_at : k0_pay21 i vx (ix2 r w) = IntOp.addi (IntOp.addi (x1 flo n h w) 1#32) (BitVec.ofNat 32 h.val) := by
  unfold k0_pay21
  show IntOp.addi (IntOp.addi (k0_pay18 vx (ix2 r w)) 1#32) (k0_pay7 i (ix2 r w)) = _
  rw [xword_at vx flo n h r w hx, rowWord_at i h r w hh]
include hy in
theorem cy0_at : k0_pay22 vy (ix2 r w) = IntOp.addi (y1 flo n h w) (BitVec.ofNat 32 w.val) := by
  unfold k0_pay22
  show IntOp.addi (k0_pay19 vy (ix2 r w)) (iota .tc S80x1280 32 [1] iota_S80x1280_d1_w32 (ix2 r w)) = _
  rw [yword_at vy flo n h r w hy, iota_cols]
include hy in
theorem cy1_at : k0_pay23 vy (ix2 r w) = IntOp.addi (IntOp.addi (y1 flo n h w) 1#32) (BitVec.ofNat 32 w.val) := by
  unfold k0_pay23
  show IntOp.addi (IntOp.addi (k0_pay19 vy (ix2 r w)) 1#32) (iota .tc S80x1280 32 [1] iota_S80x1280_d1_w32 (ix2 r w)) = _
  rw [yword_at vy flo n h r w hy, iota_cols]

/-! The four bilinear weights. -/
include hx hy in
theorem wt0_at : k0_pay14 vy vx (ix2 r w) = wt flo n h w 0 := by
  unfold k0_pay14 k0_pay12 k0_pay13
  show ((k0_pay10 vx (ix2 r w) + one) - k0_pay9 vx (ix2 r w)) * ((k0_pay11 vy (ix2 r w) + one) - k0_pay8 vy (ix2 r w)) = _
  rw [fx_at vx flo n h r w hx, fy_at vy flo n h r w hy, x_at, y_at, hx, hy]; rfl
include hx hy in
theorem wt1_at : k0_pay15 vy vx (ix2 r w) = wt flo n h w 1 := by
  unfold k0_pay15 k0_pay12
  show ((k0_pay10 vx (ix2 r w) + one) - k0_pay9 vx (ix2 r w)) * (k0_pay8 vy (ix2 r w) - k0_pay11 vy (ix2 r w)) = _
  rw [fx_at vx flo n h r w hx, fy_at vy flo n h r w hy, x_at, y_at, hx, hy]; rfl
include hx hy in
theorem wt2_at : k0_pay16 vy vx (ix2 r w) = wt flo n h w 2 := by
  unfold k0_pay16 k0_pay13
  show (k0_pay9 vx (ix2 r w) - k0_pay10 vx (ix2 r w)) * ((k0_pay11 vy (ix2 r w) + one) - k0_pay8 vy (ix2 r w)) = _
  rw [fx_at vx flo n h r w hx, fy_at vy flo n h r w hy, x_at, y_at, hx, hy]; rfl
include hx hy in
theorem wt3_at : k0_pay17 vy vx (ix2 r w) = wt flo n h w 3 := by
  unfold k0_pay17
  show (k0_pay9 vx (ix2 r w) - k0_pay10 vx (ix2 r w)) * (k0_pay8 vy (ix2 r w) - k0_pay11 vy (ix2 r w)) = _
  rw [fx_at vx flo n h r w hx, fy_at vy flo n h r w hy, x_at, y_at, hx, hy]; rfl

end Tile2

section Tile3
variable (i : grid0.Coords) (vy vx : Vec Ideal S1x1x80x1280 .f32) (flo : SFlo.Idx → EReal)
variable (n : Fin 8) (h : Fin 720) (r : Fin 80) (w : Fin 1280)
variable (hn : (i 0).val = n.val) (hh : (i 1).val * 80 + r.val = h.val)
variable (hx : vx (ix4 0 0 r w) = xv flo n h w) (hy : vy (ix4 0 0 r w) = yv flo n h w)

/-- The four target tiles and the four masked weight tiles, as the body chains its intermediate values. -/
abbrev offWord : BitVec 32 := Scalar.muli (BitVec.ofNat 32 (i 0).val) 921600#32
abbrev tgtTile0 : IVec S80x1280 32 :=
  k0_pay34 (offWord i) (k0_pay20 i vx) (k0_pay22 vy) (k0_pay26 (k0_pay22 vy) (k0_pay24 i vx) (k0_pay25 i vx))
abbrev tgtTile1 : IVec S80x1280 32 :=
  k0_pay35 (offWord i) (k0_pay20 i vx) (k0_pay23 vy) (k0_pay27 (k0_pay20 i vx) (k0_pay23 vy))
abbrev tgtTile2 : IVec S80x1280 32 :=
  k0_pay36 (offWord i) (k0_pay21 i vx) (k0_pay22 vy) (k0_pay28 (k0_pay21 i vx) (k0_pay22 vy))
abbrev tgtTile3 : IVec S80x1280 32 :=
  k0_pay37 (offWord i) (k0_pay21 i vx) (k0_pay23 vy) (k0_pay29 (k0_pay21 i vx) (k0_pay23 vy))
abbrev wTile0 : FVec Ideal S80x1280 .f32 :=
  k0_pay30 (k0_pay14 vy vx) (k0_pay22 vy) (k0_pay24 i vx) (k0_pay25 i vx)
abbrev wTile1 : FVec Ideal S80x1280 .f32 := k0_pay31 (k0_pay15 vy vx) (k0_pay20 i vx) (k0_pay23 vy)
abbrev wTile2 : FVec Ideal S80x1280 .f32 := k0_pay32 (k0_pay16 vy vx) (k0_pay28 (k0_pay21 i vx) (k0_pay22 vy))
abbrev wTile3 : FVec Ideal S80x1280 .f32 := k0_pay33 (k0_pay17 vy vx) (k0_pay29 (k0_pay21 i vx) (k0_pay23 vy))

include hn hh hx hy in
theorem tgt0_at : tgtTile0 i vy vx (ix2 r w) = tgS flo n h w 0 := by
  show cornerT (k0_pay20 i vx (ix2 r w)) (k0_pay22 vy (ix2 r w)) (IntOp.muli (BitVec.ofNat 32 (i 0).val) 921600#32) = _
  rw [cx0_at i vx flo n h r w hh hx, cy0_at vy flo n h r w hy, hn]; rfl
include hn hh hx hy in
theorem tgt1_at : tgtTile1 i vy vx (ix2 r w) = tgS flo n h w 1 := by
  show cornerT (k0_pay20 i vx (ix2 r w)) (k0_pay23 vy (ix2 r w)) (IntOp.muli (BitVec.ofNat 32 (i 0).val) 921600#32) = _
  rw [cx0_at i vx flo n h r w hh hx, cy1_at vy flo n h r w hy, hn]; rfl
include hn hh hx hy in
theorem tgt2_at : tgtTile2 i vy vx (ix2 r w) = tgS flo n h w 2 := by
  show cornerT (k0_pay21 i vx (ix2 r w)) (k0_pay22 vy (ix2 r w)) (IntOp.muli (BitVec.ofNat 32 (i 0).val) 921600#32) = _
  rw [cx1_at i vx flo n h r w hh hx, cy0_at vy flo n h r w hy, hn]; rfl
include hn hh hx hy in
theorem tgt3_at : tgtTile3 i vy vx (ix2 r w) = tgS flo n h w 3 := by
  show cornerT (k0_pay21 i vx (ix2 r w)) (k0_pay23 vy (ix2 r w)) (IntOp.muli (BitVec.ofNat 32 (i 0).val) 921600#32) = _
  rw [cx1_at i vx flo n h r w hh hx, cy1_at vy flo n h r w hy, hn]; rfl

/-- The zero the body selects outside the image is the number zero. -/
theorem zero_word : (Scalar.ofBits (F := Ideal) .f32 0x00000000#32 : EReal) = 0 := Ideal.ofBits_zero_f32

include hh hx hy in
theorem w0_at : wTile0 i vy vx (ix2 r w) = wmS flo n h w 0 := by
  show Scalar.select (inside (k0_pay20 i vx (ix2 r w)) (k0_pay22 vy (ix2 r w))) (k0_pay14 vy vx (ix2 r w))
    (Scalar.ofBits (F := Ideal) .f32 0x00000000#32) = _
  rw [cx0_at i vx flo n h r w hh hx, cy0_at vy flo n h r w hy, wt0_at vy vx flo n h r w hx hy, zero_word]; rfl
include hh hx hy in
theorem w1_at : wTile1 i vy vx (ix2 r w) = wmS flo n h w 1 := by
  show Scalar.select (inside (k0_pay20 i vx (ix2 r w)) (k0_pay23 vy (ix2 r w))) (k0_pay15 vy vx (ix2 r w))
    (Scalar.ofBits (F := Ideal) .f32 0x00000000#32) = _
  rw [cx0_at i vx flo n h r w hh hx, cy1_at vy flo n h r w hy, wt1_at vy vx flo n h r w hx hy, zero_word]; rfl
include hh hx hy in
theorem w2_at : wTile2 i vy vx (ix2 r w) = wmS flo n h w 2 := by
  show Scalar.select (inside (k0_pay21 i vx (ix2 r w)) (k0_pay22 vy (ix2 r w))) (k0_pay16 vy vx (ix2 r w))
    (Scalar.ofBits (F := Ideal) .f32 0x00000000#32) = _
  rw [cx1_at i vx flo n h r w hh hx, cy0_at vy flo n h r w hy, wt2_at vy vx flo n h r w hx hy, zero_word]; rfl
include hh hx hy in
theorem w3_at : wTile3 i vy vx (ix2 r w) = wmS flo n h w 3 := by
  show Scalar.select (inside (k0_pay21 i vx (ix2 r w)) (k0_pay23 vy (ix2 r w))) (k0_pay17 vy vx (ix2 r w))
    (Scalar.ofBits (F := Ideal) .f32 0x00000000#32) = _
  rw [cx1_at i vx flo n h r w hh hx, cy1_at vy flo n h r w hy, wt3_at vy vx flo n h r w hx hy, zero_word]; rfl

end Tile3

end Cert.Warp.Ker
end
-- ==== Proof.KerRegionBlocks.lean ====
/-
  What one grid point of the kernel leaves in its two output blocks.

  At the grid point (n, ht) the body stores eight pieces into the stacked-values block [4, 4, 1, 80, 1280] — per corner
  k, the image tile times corner k's masked weight at channels 0..2 and the masked weight alone at channel 3 — and four
  pieces into the stacked-targets block [4, 1, 80, 1280], corner k's target tile at position k.  The pieces tile their
  block, so the block reads, index by index, one function: the specification's stacked values, respectively stacked
  targets, at batch n and row ht * 80 + r.  The hypotheses say that the two input blocks are the image's and the flow's
  tiles at (n, ht); every payload is read at an index by the tile lemmas.
-/
import proofs.«180801_j71141838291751_2_alg».proof.Proof.KerRegionTile

set_option maxRecDepth 16384

noncomputable section
open Idealize.ShloMosaic Idealize.ShloMosaic.TcCoe Idealize.SL.Sem Idealize.ShloMosaic.ValueIdx
open Idealize.ShloMosaic.Pipeline (Dat)

namespace Cert.Warp.Ker
open Cert.KernelIdeal Cert.KernelIdeal.Gen

/-- Row r of the tile of rows ht * 80 .. ht * 80 + 79. -/
def row (ht : Fin 9) (r : Fin 80) : Fin 720 := ⟨ht.val * 80 + r.val, by have := ht.isLt; have := r.isLt; omega⟩

/-- The two flow tiles the body loads from its flow block. -/
abbrev flowY (bf : Vec Ideal S1x2x80x1280 .f32) : Vec Ideal S1x1x80x1280 .f32 :=
  View.ld bf (Rect.unit (s := S1x2x80x1280) ![0, 0, 0, 0] S1x1x80x1280.size inb_S1x2x80x1280_S1x1x80x1280_0_0_0_0)
abbrev flowX (bf : Vec Ideal S1x2x80x1280 .f32) : Vec Ideal S1x1x80x1280 .f32 :=
  View.ld bf (Rect.unit (s := S1x2x80x1280) ![0, 1, 0, 0] S1x1x80x1280.size inb_S1x2x80x1280_S1x1x80x1280_0_1_0_0)

section Block
variable (c : Dev nD) (i : grid0.Coords) (arg2 : Memref sig .tc .vmem S1x3x80x1280 .f32) (harg2 : arg2.IsWhole) (arg3 : Memref sig .tc .vmem S1x2x80x1280 .f32) (harg3 : arg3.IsWhole) (arg4 : Memref sig .tc .vmem S4x4x1x80x1280 .f32) (harg4 : arg4.IsWhole) (arg5 : Memref sig .tc .vmem S4x1x80x1280 .i32) (harg5 : arg5.IsWhole)
variable (bi : Vec Ideal S1x3x80x1280 .f32) (bf : Vec Ideal S1x2x80x1280 .f32)
variable (img : SImg.Idx → EReal) (flo : SFlo.Idx → EReal) (n : Fin 8) (ht : Fin 9)
variable (hn : (i 0).val = n.val) (hht : (i 1).val = ht.val)
variable (hbf : ∀ (ch : Fin 2) (r : Fin 80) (w : Fin 1280), bf (ix4 0 ch r w) = flo (ix4 n ch (row ht r) w))

include hbf in
theorem flowX_at (r : Fin 80) (w : Fin 1280) : flowX bf (ix4 0 0 r w) = xv flo n (row ht r) w :=
  (ld_channel bf 1 _ 0 0 r w).trans (hbf 1 r w)
include hbf in
theorem flowY_at (r : Fin 80) (w : Fin 1280) : flowY bf (ix4 0 0 r w) = yv flo n (row ht r) w :=
  (ld_channel bf 0 _ 0 0 r w).trans (hbf 0 r w)

include hht in
theorem row_val (r : Fin 80) : (i 1).val * 80 + r.val = (row ht r).val := by
  show (i 1).val * 80 + r.val = ht.val * 80 + r.val
  rw [hht]

/-- One stored target piece: a target tile stored at corner k of the stacked block is the specification's target there. -/
theorem tgt_piece (k : Fin 4) (kk : Nat) (hk : kk = k.val) (T : IVec S80x1280 32)
    (hT : ∀ r w, T (ix2 r w) = tgS flo n (row ht r) w k)
    (inb : ∀ a, (![kk, 0, 0, 0] : Fin 4 → Nat) a + (![1, 1, 80, 1280] : Fin 4 → Nat) a ≤ S4x1x80x1280.size a)
    (x : S1x1x80x1280.Idx) :
    shapeCast S1x1x80x1280 T shapeCasts_S80x1280_S1x1x80x1280 x
      = (fun y : S4x1x80x1280.Idx => tgS flo n (row ht (y 2)) (y 3) (y 0))
          ((Rect.unit (s := S4x1x80x1280) ![kk, 0, 0, 0] ![1, 1, 80, 1280] inb).emb x) := by
  obtain ⟨a, b, r, w, rfl⟩ : ∃ (a b : Fin 1) (r : Fin 80) (w : Fin 1280), x = ix4 a b r w := ⟨x 0, x 1, x 2, x 3, eq_ix4 x⟩
  rw [cast_ab_11ab, hT]
  have e0 : ((Rect.unit (s := S4x1x80x1280) ![kk, 0, 0, 0] ![1, 1, 80, 1280] inb).emb (ix4 a b r w) 0 : Fin 4) = k :=
    Fin.ext (by show kk + 1 * a.val = k.val; have := a.isLt; omega)
  have e2 : ((Rect.unit (s := S4x1x80x1280) ![kk, 0, 0, 0] ![1, 1, 80, 1280] inb).emb (ix4 a b r w) 2 : Fin 80) = r :=
    Fin.ext (by show 0 + 1 * r.val = r.val; omega)
  have e3 : ((Rect.unit (s := S4x1x80x1280) ![kk, 0, 0, 0] ![1, 1, 80, 1280] inb).emb (ix4 a b r w) 3 : Fin 1280) = w :=
    Fin.ext (by show 0 + 1 * w.val = w.val; omega)
  show _ = tgS flo n (row ht ((Rect.unit (s := S4x1x80x1280) ![kk, 0, 0, 0] ![1, 1, 80, 1280] inb).emb (ix4 a b r w) 2))
    ((Rect.unit (s := S4x1x80x1280) ![kk, 0, 0, 0] ![1, 1, 80, 1280] inb).emb (ix4 a b r w) 3)
    ((Rect.unit (s := S4x1x80x1280) ![kk, 0, 0, 0] ![1, 1, 80, 1280] inb).emb (ix4 a b r w) 0)
  rw [e0, e2, e3]

include hn hht hbf in
/-- The stacked-targets block a grid point leaves: the specification's targets of its tile. -/
theorem tgtBlock_eq :
    out0_A_3 (F := Ideal) c i arg2 harg2 arg3 harg3 arg4 harg4 arg5 harg5 bi bf
      = fun y => tgS flo n (row ht (y 2)) (y 3) (y 0) := by
  unfold out0_A_3
  rw [View.read_writes_eq_canon _ _ _ (cover0_A_3 c i arg2 harg2 arg3 harg3 arg4 harg4 arg5 harg5 bi bf)]
  funext y
  refine View.canon_apply_of_pieces (fun y : S4x1x80x1280.Idx => tgS flo n (row ht (y 2)) (y 3) (y 0)) _ ?_ y
    (cover0_A_3 c i arg2 harg2 arg3 harg3 arg4 harg4 arg5 harg5 bi bf y)
  unfold kernelRun0_A
  dsimp only
  sl_unfold_words
  simp only [View.readAt_eq_ld, harg3.read_unread]
  intro p hp
  simp only [List.mem_cons, List.not_mem_nil, or_false] at hp
  rcases hp with rfl | rfl | rfl | rfl
  · exact tgt_piece flo n ht 3 3 rfl (tgtTile3 i (flowY bf) (flowX bf))
      (fun r w => tgt3_at i (flowY bf) (flowX bf) flo n (row ht r) r w hn (row_val i ht hht r) (flowX_at bf flo n ht hbf r w) (flowY_at bf flo n ht hbf r w)) inb_S4x1x80x1280_S1x1x80x1280_3_0_0_0
  · exact tgt_piece flo n ht 2 2 rfl (tgtTile2 i (flowY bf) (flowX bf))
      (fun r w => tgt2_at i (flowY bf) (flowX bf) flo n (row ht r) r w hn (row_val i ht hht r) (flowX_at bf flo n ht hbf r w) (flowY_at bf flo n ht hbf r w)) inb_S4x1x80x1280_S1x1x80x1280_2_0_0_0
  · exact tgt_piece flo n ht 1 1 rfl (tgtTile1 i (flowY bf) (flowX bf))
      (fun r w => tgt1_at i (flowY bf) (flowX bf) flo n (row ht r) r w hn (row_val i ht hht r) (flowX_at bf flo n ht hbf r w) (flowY_at bf flo n ht hbf r w)) inb_S4x1x80x1280_S1x1x80x1280_1_0_0_0
  · exact tgt_piece flo n ht 0 0 rfl (tgtTile0 i (flowY bf) (flowX bf))
      (fun r w => tgt0_at i (flowY bf) (flowX bf) flo n (row ht r) r w hn (row_val i ht hht r) (flowX_at bf flo n ht hbf r w) (flowY_at bf flo n ht hbf r w)) inb_S4x1x80x1280_S1x1x80x1280_0_0_0_0

end Block

/-- The image tile the body loads: its whole image block. -/
abbrev imgT (bi : Vec Ideal S1x3x80x1280 .f32) : Vec Ideal S1x3x80x1280 .f32 :=
  View.ld bi (Rect.unit (s := S1x3x80x1280) ![0, 0, 0, 0] S1x3x80x1280.size inb_S1x3x80x1280_S1x3x80x1280_0_0_0_0)

theorem hz4 : (![0, 0, 0, 0] : Fin 4 → Nat) = fun _ => 0 := funext fun a => by fin_cases a <;> rfl

theorem imgT_eq (bi : Vec Ideal S1x3x80x1280 .f32) : imgT bi = bi := View.ld_unit_zero (S := S1x3x80x1280) hz4 _ bi

/-- Image tile times one weight tile, laid out as a [1, 3, 1, 80, 1280] piece: at channel ch and pixel (r, w) the image
    value times the weight. -/
theorem imgw_at (V : FVec Ideal S3x80x1280 .f32) (W : FVec Ideal S80x1280 .f32) (a : Fin 1) (ch : Fin 3) (z : Fin 1)
    (r : Fin 80) (w : Fin 1280) :
    shapeCast S1x3x1x80x1280
        (mulf V (broadcastTo S3x80x1280 (shapeCast S1x80x1280 W shapeCasts_S80x1280_S1x80x1280) broadcasts_S1x80x1280_S3x80x1280))
        shapeCasts_S3x80x1280_S1x3x1x80x1280 (ix5 a ch z r w)
      = V (ix3 ch r w) * W (ix2 r w) := by
  rw [cast_cab_1c1ab]
  show V (ix3 ch r w) * broadcastTo S3x80x1280 (shapeCast S1x80x1280 W shapeCasts_S80x1280_S1x80x1280) broadcasts_S1x80x1280_S3x80x1280 (ix3 ch r w) = _
  rw [bcast_1ab_cab, cast_ab_1ab]

/-- One weight tile laid out as a [1, 1, 1, 80, 1280] piece. -/
theorem w_at (W : FVec Ideal S80x1280 .f32) (a b z : Fin 1) (r : Fin 80) (w : Fin 1280) :
    shapeCast S1x1x1x80x1280 (shapeCast S1x80x1280 W shapeCasts_S80x1280_S1x80x1280) shapeCasts_S1x80x1280_S1x1x1x80x1280
        (ix5 a b z r w) = W (ix2 r w) := by
  rw [cast_1ab_111ab, cast_ab_1ab]

/-- The eight stored payloads at an index: image tile times weight tile, or the weight tile alone. -/
theorem pay39_at (W : FVec Ideal S80x1280 .f32) (B : Vec Ideal S1x3x80x1280 .f32) (a : Fin 1) (ch : Fin 3) (z : Fin 1)
    (r : Fin 80) (w : Fin 1280) : k0_pay39 W B (ix5 a ch z r w) = k0_pay38 B (ix3 ch r w) * W (ix2 r w) := by
  unfold k0_pay39; exact imgw_at (k0_pay38 B) W a ch z r w
theorem pay41_at (W : FVec Ideal S80x1280 .f32) (V : FVec Ideal S3x80x1280 .f32) (a : Fin 1) (ch : Fin 3) (z : Fin 1)
    (r : Fin 80) (w : Fin 1280) : k0_pay41 W V (ix5 a ch z r w) = V (ix3 ch r w) * W (ix2 r w) := by
  unfold k0_pay41; exact imgw_at V W a ch z r w
theorem pay43_at (W : FVec Ideal S80x1280 .f32) (V : FVec Ideal S3x80x1280 .f32) (a : Fin 1) (ch : Fin 3) (z : Fin 1)
    (r : Fin 80) (w : Fin 1280) : k0_pay43 W V (ix5 a ch z r w) = V (ix3 ch r w) * W (ix2 r w) := by
  unfold k0_pay43; exact imgw_at V W a ch z r w
theorem pay1_at (W : FVec Ideal S80x1280 .f32) (V : FVec Ideal S3x80x1280 .f32) (a : Fin 1) (ch : Fin 3) (z : Fin 1)
    (r : Fin 80) (w : Fin 1280) : k0_pay1 (k0_pay45 W V) (ix5 a ch z r w) = V (ix3 ch r w) * W (ix2 r w) := by
  unfold k0_pay1 k0_pay45; exact imgw_at V W a ch z r w
theorem pay40_at (W : FVec Ideal S80x1280 .f32) (a b z : Fin 1) (r : Fin 80) (w : Fin 1280) :
    k0_pay40 W (ix5 a b z r w) = W (ix2 r w) := by unfold k0_pay40; exact w_at W a b z r w
theorem pay42_at (W : FVec Ideal S80x1280 .f32) (a b z : Fin 1) (r : Fin 80) (w : Fin 1280) :
    k0_pay42 W (ix5 a b z r w) = W (ix2 r w) := by unfold k0_pay42; exact w_at W a b z r w
theorem pay44_at (W : FVec Ideal S80x1280 .f32) (a b z : Fin 1) (r : Fin 80) (w : Fin 1280) :
    k0_pay44 W (ix5 a b z r w) = W (ix2 r w) := by unfold k0_pay44; exact w_at W a b z r w
theorem pay2_at (W : FVec Ideal S80x1280 .f32) (a b z : Fin 1) (r : Fin 80) (w : Fin 1280) :
    k0_pay2 W (ix5 a b z r w) = W (ix2 r w) := by unfold k0_pay2; exact w_at W a b z r w

theorem img3_at (bi : Vec Ideal S1x3x80x1280 .f32) (ch : Fin 3) (r : Fin 80) (w : Fin 1280) :
    k0_pay38 (imgT bi) (ix3 ch r w) = bi (ix4 0 ch r w) := by
  unfold k0_pay38
  rw [cast_1cab_cab, imgT_eq]

section Spec
variable (img : SImg.Idx → EReal) (flo : SFlo.Idx → EReal)
/-- The stacked values at an image channel and at the weight channel. -/
theorem valsS_img (k : Fin 4) (ch : Fin 3) (n : Fin 8) (h : Fin 720) (w : Fin 1280) :
    valsS img flo (ix5 k (⟨ch.val, by have := ch.isLt; omega⟩ : Fin 4) n h w) = img (ix4 n ch h w) * wmS flo n h w k := by
  unfold valsS
  rw [dif_pos (show ((ix5 k (⟨ch.val, by have := ch.isLt; omega⟩ : Fin 4) n h w : SVals.Idx) 1).val < 3 from ch.isLt)]
theorem valsS_w (k : Fin 4) (n : Fin 8) (h : Fin 720) (w : Fin 1280) :
    valsS img flo (ix5 k (3 : Fin 4) n h w) = wmS flo n h w k := by
  unfold valsS
  rw [dif_neg (show ¬ ((ix5 k (3 : Fin 4) n h w : SVals.Idx) 1).val < 3 from Nat.lt_irrefl 3)]
end Spec

section Block2
variable (c : Dev nD) (i : grid0.Coords) (arg2 : Memref sig .tc .vmem S1x3x80x1280 .f32) (harg2 : arg2.IsWhole) (arg3 : Memref sig .tc .vmem S1x2x80x1280 .f32) (harg3 : arg3.IsWhole) (arg4 : Memref sig .tc .vmem S4x4x1x80x1280 .f32) (harg4 : arg4.IsWhole) (arg5 : Memref sig .tc .vmem S4x1x80x1280 .i32) (harg5 : arg5.IsWhole)
variable (bi : Vec Ideal S1x3x80x1280 .f32) (bf : Vec Ideal S1x2x80x1280 .f32)
variable (img : SImg.Idx → EReal) (flo : SFlo.Idx → EReal) (n : Fin 8) (ht : Fin 9)
variable (hn : (i 0).val = n.val) (hht : (i 1).val = ht.val)
variable (hbi : ∀ (ch : Fin 3) (r : Fin 80) (w : Fin 1280), bi (ix4 0 ch r w) = img (ix4 n ch (row ht r) w))
variable (hbf : ∀ (ch : Fin 2) (r : Fin 80) (w : Fin 1280), bf (ix4 0 ch r w) = flo (ix4 n ch (row ht r) w))

/-- What the stacked-values block of the tile should hold, as a function of the block's index. -/
abbrev valsBlk : S4x4x1x80x1280.Idx → EReal := fun y => valsS img flo (ix5 (y 0) (y 1) n (row ht (y 3)) (y 4))

/-- A stored image-times-weight piece at corner k. -/
theorem img_piece (k : Fin 4) (kk : Nat) (hk : kk = k.val) (P : FVec Ideal S1x3x1x80x1280 .f32)
    (hP : ∀ (a : Fin 1) (ch : Fin 3) (z : Fin 1) (r : Fin 80) (w : Fin 1280),
      P (ix5 a ch z r w) = img (ix4 n ch (row ht r) w) * wmS flo n (row ht r) w k)
    (inb : ∀ a, (![kk, 0, 0, 0, 0] : Fin 5 → Nat) a + (![1, 3, 1, 80, 1280] : Fin 5 → Nat) a ≤ S4x4x1x80x1280.size a)
    (x : S1x3x1x80x1280.Idx) :
    P x = valsBlk img flo n ht ((Rect.unit (s := S4x4x1x80x1280) ![kk, 0, 0, 0, 0] ![1, 3, 1, 80, 1280] inb).emb x) := by
  obtain ⟨a, ch, z, r, w, rfl⟩ : ∃ (a : Fin 1) (ch : Fin 3) (z : Fin 1) (r : Fin 80) (w : Fin 1280), x = ix5 a ch z r w :=
    ⟨x 0, x 1, x 2, x 3, x 4, eq_ix5 x⟩
  rw [hP]
  have e0 : ((Rect.unit (s := S4x4x1x80x1280) ![kk, 0, 0, 0, 0] ![1, 3, 1, 80, 1280] inb).emb (ix5 a ch z r w) 0 : Fin 4) = k :=
    Fin.ext (by show kk + 1 * a.val = k.val; have := a.isLt; omega)
  have e1 : ((Rect.unit (s := S4x4x1x80x1280) ![kk, 0, 0, 0, 0] ![1, 3, 1, 80, 1280] inb).emb (ix5 a ch z r w) 1 : Fin 4)
      = (⟨ch.val, by have := ch.isLt; omega⟩ : Fin 4) :=
    Fin.ext (by show 0 + 1 * ch.val = ch.val; omega)
  have e3 : ((Rect.unit (s := S4x4x1x80x1280) ![kk, 0, 0, 0, 0] ![1, 3, 1, 80, 1280] inb).emb (ix5 a ch z r w) 3 : Fin 80) = r :=
    Fin.ext (by show 0 + 1 * r.val = r.val; omega)
  have e4 : ((Rect.unit (s := S4x4x1x80x1280) ![kk, 0, 0, 0, 0] ![1, 3, 1, 80, 1280] inb).emb (ix5 a ch z r w) 4 : Fin 1280) = w :=
    Fin.ext (by show 0 + 1 * w.val = w.val; omega)
  show _ = valsS img flo (ix5
    ((Rect.unit (s := S4x4x1x80x1280) ![kk, 0, 0, 0, 0] ![1, 3, 1, 80, 1280] inb).emb (ix5 a ch z r w) 0)
    ((Rect.unit (s := S4x4x1x80x1280) ![kk, 0, 0, 0, 0] ![1, 3, 1, 80, 1280] inb).emb (ix5 a ch z r w) 1) n
    (row ht ((Rect.unit (s := S4x4x1x80x1280) ![kk, 0, 0, 0, 0] ![1, 3, 1, 80, 1280] inb).emb (ix5 a ch z r w) 3))
    ((Rect.unit (s := S4x4x1x80x1280) ![kk, 0, 0, 0, 0] ![1, 3, 1, 80, 1280] inb).emb (ix5 a ch z r w) 4))
  rw [e0, e1, e3, e4, valsS_img]

/-- A stored weight piece at corner k (channel 3 of the stacked values). -/
theorem w_piece (k : Fin 4) (kk : Nat) (hk : kk = k.val) (P : FVec Ideal S1x1x1x80x1280 .f32)
    (hP : ∀ (a b z : Fin 1) (r : Fin 80) (w : Fin 1280), P (ix5 a b z r w) = wmS flo n (row ht r) w k)
    (inb : ∀ a, (![kk, 3, 0, 0, 0] : Fin 5 → Nat) a + (![1, 1, 1, 80, 1280] : Fin 5 → Nat) a ≤ S4x4x1x80x1280.size a)
    (x : S1x1x1x80x1280.Idx) :
    P x = valsBlk img flo n ht ((Rect.unit (s := S4x4x1x80x1280) ![kk, 3, 0, 0, 0] ![1, 1, 1, 80, 1280] inb).emb x) := by
  obtain ⟨a, b, z, r, w, rfl⟩ : ∃ (a b z : Fin 1) (r : Fin 80) (w : Fin 1280), x = ix5 a b z r w :=
    ⟨x 0, x 1, x 2, x 3, x 4, eq_ix5 x⟩
  rw [hP]
  have e0 : ((Rect.unit (s := S4x4x1x80x1280) ![kk, 3, 0, 0, 0] ![1, 1, 1, 80, 1280] inb).emb (ix5 a b z r w) 0 : Fin 4) = k :=
    Fin.ext (by show kk + 1 * a.val = k.val; have := a.isLt; omega)
  have e1 : ((Rect.unit (s := S4x4x1x80x1280) ![kk, 3, 0, 0, 0] ![1, 1, 1, 80, 1280] inb).emb (ix5 a b z r w) 1 : Fin 4) = (3 : Fin 4) :=
    Fin.ext (by show 3 + 1 * b.val = 3; have := b.isLt; omega)
  have e3 : ((Rect.unit (s := S4x4x1x80x1280) ![kk, 3, 0, 0, 0] ![1, 1, 1, 80, 1280] inb).emb (ix5 a b z r w) 3 : Fin 80) = r :=
    Fin.ext (by show 0 + 1 * r.val = r.val; omega)
  have e4 : ((Rect.unit (s := S4x4x1x80x1280) ![kk, 3, 0, 0, 0] ![1, 1, 1, 80, 1280] inb).emb (ix5 a b z r w) 4 : Fin 1280) = w :=
    Fin.ext (by show 0 + 1 * w.val = w.val; omega)
  show _ = valsS img flo (ix5
    ((Rect.unit (s := S4x4x1x80x1280) ![kk, 3, 0, 0, 0] ![1, 1, 1, 80, 1280] inb).emb (ix5 a b z r w) 0)
    ((Rect.unit (s := S4x4x1x80x1280) ![kk, 3, 0, 0, 0] ![1, 1, 1, 80, 1280] inb).emb (ix5 a b z r w) 1) n
    (row ht ((Rect.unit (s := S4x4x1x80x1280) ![kk, 3, 0, 0, 0] ![1, 1, 1, 80, 1280] inb).emb (ix5 a b z r w) 3))
    ((Rect.unit (s := S4x4x1x80x1280) ![kk, 3, 0, 0, 0] ![1, 1, 1, 80, 1280] inb).emb (ix5 a b z r w) 4))
  rw [e0, e1, e3, e4, valsS_w]

include hn hht hbi hbf in
/-- The stacked-values block a grid point leaves: the specification's stacked values of its tile. -/
theorem valsBlock_eq :
    out0_A_2 (F := Ideal) c i arg2 harg2 arg3 harg3 arg4 harg4 arg5 harg5 bi bf = valsBlk img flo n ht := by
  have hW0 : ∀ r w, wTile0 i (flowY bf) (flowX bf) (ix2 r w) = wmS flo n (row ht r) w 0 := fun r w =>
    w0_at i (flowY bf) (flowX bf) flo n (row ht r) r w (row_val i ht hht r) (flowX_at bf flo n ht hbf r w) (flowY_at bf flo n ht hbf r w)
  have hW1 : ∀ r w, wTile1 i (flowY bf) (flowX bf) (ix2 r w) = wmS flo n (row ht r) w 1 := fun r w =>
    w1_at i (flowY bf) (flowX bf) flo n (row ht r) r w (row_val i ht hht r) (flowX_at bf flo n ht hbf r w) (flowY_at bf flo n ht hbf r w)
  have hW2 : ∀ r w, wTile2 i (flowY bf) (flowX bf) (ix2 r w) = wmS flo n (row ht r) w 2 := fun r w =>
    w2_at i (flowY bf) (flowX bf) flo n (row ht r) r w (row_val i ht hht r) (flowX_at bf flo n ht hbf r w) (flowY_at bf flo n ht hbf r w)
  have hW3 : ∀ r w, wTile3 i (flowY bf) (flowX bf) (ix2 r w) = wmS flo n (row ht r) w 3 := fun r w =>
    w3_at i (flowY bf) (flowX bf) flo n (row ht r) r w (row_val i ht hht r) (flowX_at bf flo n ht hbf r w) (flowY_at bf flo n ht hbf r w)
  have hI : ∀ ch r w, k0_pay38 (imgT bi) (ix3 ch r w) = img (ix4 n ch (row ht r) w) := fun ch r w =>
    (img3_at bi ch r w).trans (hbi ch r w)
  unfold out0_A_2
  rw [View.read_writes_eq_canon _ _ _ (cover0_A_2 c i arg2 harg2 arg3 harg3 arg4 harg4 arg5 harg5 bi bf)]
  funext y
  refine View.canon_apply_of_pieces (valsBlk img flo n ht) _ ?_ y
    (cover0_A_2 c i arg2 harg2 arg3 harg3 arg4 harg4 arg5 harg5 bi bf y)
  unfold kernelRun0_A
  dsimp only
  sl_unfold_words
  simp only [View.readAt_eq_ld, harg3.read_unread, harg2.read_unread]
  intro p hp
  simp only [List.mem_cons, List.not_mem_nil, or_false] at hp
  rcases hp with rfl | rfl | rfl | rfl | rfl | rfl | rfl | rfl
  · exact w_piece img flo n ht 3 3 rfl (k0_pay2 (wTile3 i (flowY bf) (flowX bf)))
      (fun a b z r w => (pay2_at _ a b z r w).trans (hW3 r w)) inb_S4x4x1x80x1280_S1x1x1x80x1280_3_3_0_0_0
  · exact img_piece img flo n ht 3 3 rfl (k0_pay1 (k0_pay45 (wTile3 i (flowY bf) (flowX bf)) (k0_pay38 (imgT bi))))
      (fun a ch z r w => (pay1_at _ _ a ch z r w).trans (by rw [hI, hW3])) inb_S4x4x1x80x1280_S1x3x1x80x1280_3_0_0_0_0
  · exact w_piece img flo n ht 2 2 rfl (k0_pay44 (wTile2 i (flowY bf) (flowX bf)))
      (fun a b z r w => (pay44_at _ a b z r w).trans (hW2 r w)) inb_S4x4x1x80x1280_S1x1x1x80x1280_2_3_0_0_0
  · exact img_piece img flo n ht 2 2 rfl (k0_pay43 (wTile2 i (flowY bf) (flowX bf)) (k0_pay38 (imgT bi)))
      (fun a ch z r w => (pay43_at _ _ a ch z r w).trans (by rw [hI, hW2])) inb_S4x4x1x80x1280_S1x3x1x80x1280_2_0_0_0_0
  · exact w_piece img flo n ht 1 1 rfl (k0_pay42 (wTile1 i (flowY bf) (flowX bf)))
      (fun a b z r w => (pay42_at _ a b z r w).trans (hW1 r w)) inb_S4x4x1x80x1280_S1x1x1x80x1280_1_3_0_0_0
  · exact img_piece img flo n ht 1 1 rfl (k0_pay41 (wTile1 i (flowY bf) (flowX bf)) (k0_pay38 (imgT bi)))
      (fun a ch z r w => (pay41_at _ _ a ch z r w).trans (by rw [hI, hW1])) inb_S4x4x1x80x1280_S1x3x1x80x1280_1_0_0_0_0
  · exact w_piece img flo n ht 0 0 rfl (k0_pay40 (wTile0 i (flowY bf) (flowX bf)))
      (fun a b z r w => (pay40_at _ a b z r w).trans (hW0 r w)) inb_S4x4x1x80x1280_S1x1x1x80x1280_0_3_0_0_0
  · exact img_piece img flo n ht 0 0 rfl (k0_pay39 (wTile0 i (flowY bf) (flowX bf)) (imgT bi))
      (fun a ch z r w => (pay39_at _ _ a ch z r w).trans (by rw [hI, hW0])) inb_S4x4x1x80x1280_S1x3x1x80x1280_0_0_0_0_0

end Block2

end Cert.Warp.Ker
end
-- ==== Proof.KerRegionCover.lean ====
/-
  From the kernel call's blocks to its two arrays.

  The kernel call runs over an 8 x 9 grid: point t works on batch n = t / 9 and row tile ht = t % 9, that is on rows
  ht * 80 .. ht * 80 + 79 of batch n.  It reads the image block (n, 0, ht, 0) and the flow block (n, 0, ht, 0) and
  writes back the block (0, 0, n, ht, 0) of the stacked values and the block (0, n, ht, 0) of the stacked targets.
  The blocks written back are the restrictions of ONE function of the image and the flow field each — the
  specification's stacked values and stacked targets —, and the 72 blocks tile each array (the point that covers row h
  of batch n is (n, h / 80)); so after the call the two arrays hold those functions.
-/
import proofs.«180801_j71141838291751_2_alg».proof.Proof.KerRegionBlocks
import Idealize.ShloMosaic.Lib.Pipeline.Value
import Idealize.ShloMosaic.Lib.ValueIdx
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)

namespace Cert.Warp.Ker
open Cert.KernelIdeal Cert.KernelIdeal.Gen

/-! ## The grid and the index maps

The grid is 8 x 9: point t has batch n = t / 9 and row tile ht = t % 9.  Each window's block index is read off the
point: the image and flow blocks are (n, 0, ht, 0), the stacked values' block is (0, 0, n, ht, 0), the stacked
targets' block is (0, n, ht, 0). -/

/-- The printed index maps, decided over the grid. -/
theorem idx_facts : ∀ t : Fin cfg0.N,
    (win0_0.index t (0 : Fin 4) = (grid0.coords t 0).val ∧ win0_0.index t (1 : Fin 4) = 0
      ∧ win0_0.index t (2 : Fin 4) = (grid0.coords t 1).val ∧ win0_0.index t (3 : Fin 4) = 0)
    ∧ (win0_1.index t (0 : Fin 4) = (grid0.coords t 0).val ∧ win0_1.index t (1 : Fin 4) = 0
      ∧ win0_1.index t (2 : Fin 4) = (grid0.coords t 1).val ∧ win0_1.index t (3 : Fin 4) = 0)
    ∧ (win0_2.index t (0 : Fin 5) = 0 ∧ win0_2.index t (1 : Fin 5) = 0
      ∧ win0_2.index t (2 : Fin 5) = (grid0.coords t 0).val ∧ win0_2.index t (3 : Fin 5) = (grid0.coords t 1).val
      ∧ win0_2.index t (4 : Fin 5) = 0)
    ∧ (win0_3.index t (0 : Fin 4) = 0 ∧ win0_3.index t (1 : Fin 4) = (grid0.coords t 0).val
      ∧ win0_3.index t (2 : Fin 4) = (grid0.coords t 1).val ∧ win0_3.index t (3 : Fin 4) = 0) :=
  (by decide +kernel : ∀ t : Fin grid0.N, _)

/-- Every (batch, row tile) is some point's. -/
theorem point_onto : ∀ (n : Fin 8) (ht : Fin 9), ∃ t : Fin cfg0.N,
    (grid0.coords t 0).val = n.val ∧ (grid0.coords t 1).val = ht.val :=
  (by decide +kernel : ∀ (n : Fin 8) (ht : Fin 9), ∃ t : Fin grid0.N,
    (grid0.coords t 0).val = n.val ∧ (grid0.coords t 1).val = ht.val)

section Region
variable (m : (ℓ : Loc nD τ sig) → Buf (Elt Ideal) ℓ) (c : Dev nD)

/-- The image and the flow field as the kernel call finds them. -/
abbrev imgA : SImg.Idx → EReal := V m c main_arg0
abbrev floA : SFlo.Idx → EReal := V m c main_arg1

/-! ## The input blocks -/

/-- The image block of point (n, ht) is rows ht * 80 .. ht * 80 + 79 of batch n. -/
theorem iblk0_at (t : Fin cfg0.N) (n : Fin 8) (ht : Fin 9)
    (hn : (grid0.coords t 0).val = n.val) (hht : (grid0.coords t 1).val = ht.val)
    (ch : Fin 3) (r : Fin 80) (w : Fin 1280) :
    (iblk m c 0 t : Vec Ideal S1x3x80x1280 .f32) (ix4 0 ch r w) = imgA m c (ix4 n ch (row ht r) w) := by
  obtain ⟨⟨a0, a1, a2, a3⟩, -, -, -⟩ := idx_facts t
  unfold iblk
  rw [View.read_apply]
  show V m c main_arg0 _ = V m c main_arg0 _
  congr 1
  funext a
  apply Fin.ext
  match a with
  | ⟨0, _⟩ => show win0_0.index t (0 : Fin 4) * 1 + 1 * 0 = n.val; omega
  | ⟨1, _⟩ => show win0_0.index t (1 : Fin 4) * 3 + 1 * ch.val = ch.val; omega
  | ⟨2, _⟩ => show win0_0.index t (2 : Fin 4) * 80 + 1 * r.val = ht.val * 80 + r.val; omega
  | ⟨3, _⟩ => show win0_0.index t (3 : Fin 4) * 1280 + 1 * w.val = w.val; omega

/-- The flow block of point (n, ht) is rows ht * 80 .. ht * 80 + 79 of batch n. -/
theorem iblk1_at (t : Fin cfg0.N) (n : Fin 8) (ht : Fin 9)
    (hn : (grid0.coords t 0).val = n.val) (hht : (grid0.coords t 1).val = ht.val)
    (ch : Fin 2) (r : Fin 80) (w : Fin 1280) :
    (iblk m c 1 t : Vec Ideal S1x2x80x1280 .f32) (ix4 0 ch r w) = floA m c (ix4 n ch (row ht r) w) := by
  obtain ⟨-, ⟨a0, a1, a2, a3⟩, -, -⟩ := idx_facts t
  unfold iblk
  rw [View.read_apply]
  show V m c main_arg1 _ = V m c main_arg1 _
  congr 1
  funext a
  apply Fin.ext
  match a with
  | ⟨0, _⟩ => show win0_1.index t (0 : Fin 4) * 1 + 1 * 0 = n.val; omega
  | ⟨1, _⟩ => show win0_1.index t (1 : Fin 4) * 2 + 1 * ch.val = ch.val; omega
  | ⟨2, _⟩ => show win0_1.index t (2 : Fin 4) * 80 + 1 * r.val = ht.val * 80 + r.val; omega
  | ⟨3, _⟩ => show win0_1.index t (3 : Fin 4) * 1280 + 1 * w.val = w.val; omega

/-! ## What a point writes back -/

/-- Point t writes back block t of the stacked targets of the flow field. -/
theorem flushed3_eq (t : Fin cfg0.N) :
    (dats (F := Ideal) m 0 c).flushed 3 t
      = ((cfg0.win 3).blk t).view.read (Elt Ideal) (fun i : STgt.Idx => tgtS (floA m c) i) := by
  obtain ⟨-, -, -, ⟨a0, a1, a2, a3⟩⟩ := idx_facts t
  have hb := tgtBlock_eq c (grid0.coords t) (ms0_0 t) (hs0_0 t) (ms0_1 t) (hs0_1 t) (ms0_2 t) (hs0_2 t) (ms0_3 t) (hs0_3 t)
    (iblk m c 0 t) (iblk m c 1 t) (floA m c) (grid0.coords t 0) (grid0.coords t 1) (hn := rfl) (hht := rfl)
    (hbf := fun ch r w => iblk1_at m c t (grid0.coords t 0) (grid0.coords t 1) rfl rfl ch r w)
  show (cfg0.win 3).cut (grid0.coords t) ((dats m 0 c).after 3 t) = _
  rw [after0_3]
  unfold outsAt0
  dsimp only
  refine hb.trans ?_
  funext y
  rw [View.read_apply]
  show tgtS (floA m c) (ix4 (y 0) (grid0.coords t 0) (row (grid0.coords t 1) (y 2)) (y 3)) = tgtS (floA m c) _
  congr 1
  funext a
  apply Fin.ext
  match a with
  | ⟨0, _⟩ => show (y 0).val = win0_3.index t (0 : Fin 4) * 4 + 1 * (y 0).val; omega
  | ⟨1, _⟩ =>
    show (grid0.coords t 0).val = win0_3.index t (1 : Fin 4) * 1 + 1 * (y 1).val
    have : (y 1).val < 1 := (y 1).isLt
    omega
  | ⟨2, _⟩ => show (grid0.coords t 1).val * 80 + (y 2).val = win0_3.index t (2 : Fin 4) * 80 + 1 * (y 2).val; omega
  | ⟨3, _⟩ => show (y 3).val = win0_3.index t (3 : Fin 4) * 1280 + 1 * (y 3).val; omega

/-- Point t writes back block t of the stacked values of the image and the flow field. -/
theorem flushed2_eq (t : Fin cfg0.N) :
    (dats (F := Ideal) m 0 c).flushed 2 t
      = ((cfg0.win 2).blk t).view.read (Elt Ideal) (fun i : SVals.Idx => valsS (imgA m c) (floA m c) i) := by
  obtain ⟨-, -, ⟨a0, a1, a2, a3, a4⟩, -⟩ := idx_facts t
  have hb := valsBlock_eq c (grid0.coords t) (ms0_0 t) (hs0_0 t) (ms0_1 t) (hs0_1 t) (ms0_2 t) (hs0_2 t) (ms0_3 t) (hs0_3 t)
    (iblk m c 0 t) (iblk m c 1 t) (imgA m c) (floA m c) (grid0.coords t 0) (grid0.coords t 1) (hn := rfl) (hht := rfl)
    (hbi := fun ch r w => iblk0_at m c t (grid0.coords t 0) (grid0.coords t 1) rfl rfl ch r w)
    (hbf := fun ch r w => iblk1_at m c t (grid0.coords t 0) (grid0.coords t 1) rfl rfl ch r w)
  show (cfg0.win 2).cut (grid0.coords t) ((dats m 0 c).after 2 t) = _
  rw [after0_2]
  unfold outsAt0
  dsimp only
  refine hb.trans ?_
  funext y
  rw [View.read_apply]
  show valsS (imgA m c) (floA m c) (ix5 (y 0) (y 1) (grid0.coords t 0) (row (grid0.coords t 1) (y 3)) (y 4))
    = valsS (imgA m c) (floA m c) _
  congr 1
  funext a
  apply Fin.ext
  match a with
  | ⟨0, _⟩ => show (y 0).val = win0_2.index t (0 : Fin 5) * 4 + 1 * (y 0).val; omega
  | ⟨1, _⟩ => show (y 1).val = win0_2.index t (1 : Fin 5) * 4 + 1 * (y 1).val; omega
  | ⟨2, _⟩ =>
    show (grid0.coords t 0).val = win0_2.index t (2 : Fin 5) * 1 + 1 * (y 2).val
    have : (y 2).val < 1 := (y 2).isLt
    omega
  | ⟨3, _⟩ => show (grid0.coords t 1).val * 80 + (y 3).val = win0_2.index t (3 : Fin 5) * 80 + 1 * (y 3).val; omega
  | ⟨4, _⟩ => show (y 4).val = win0_2.index t (4 : Fin 5) * 1280 + 1 * (y 4).val; omega

/-! ## The blocks cover the arrays -/

/-- An index of the stacked targets is in point t's block iff each coordinate is in the block's range. -/
theorem mem_blk3 (t : Fin cfg0.N) (i : STgt.Idx) :
    i ∈ ((cfg0.win 3).blk t).view.set ↔ ∀ a : Fin 4, win0_3.index t a * S4x1x80x1280.size a ≤ (i a).val
      ∧ (i a).val < win0_3.index t a * S4x1x80x1280.size a + S4x1x80x1280.size a := by
  show i ∈ ((View.whole main_v0_1).slice (win0_3.rect t)).set ↔ _
  rw [View.set_slice_whole, Rect.mem_set_unit]
  exact Iff.rfl

/-- An index of the stacked values is in point t's block iff each coordinate is in the block's range. -/
theorem mem_blk2 (t : Fin cfg0.N) (i : SVals.Idx) :
    i ∈ ((cfg0.win 2).blk t).view.set ↔ ∀ a : Fin 5, win0_2.index t a * S4x4x1x80x1280.size a ≤ (i a).val
      ∧ (i a).val < win0_2.index t a * S4x4x1x80x1280.size a + S4x4x1x80x1280.size a := by
  show i ∈ ((View.whole main_v0_0).slice (win0_2.rect t)).set ↔ _
  rw [View.set_slice_whole, Rect.mem_set_unit]
  exact Iff.rfl

/-- Every index of the stacked targets is in the block of the point of its batch and row tile. -/
theorem cover3 (i : STgt.Idx) : ∃ t : Fin cfg0.N, (cfg0.win 3).flush t = true ∧ i ∈ ((cfg0.win 3).blk t).view.set := by
  have h0 : (i 0).val < 4 := (i 0).isLt
  have h1 : (i 1).val < 8 := (i 1).isLt
  have h2 : (i 2).val < 720 := (i 2).isLt
  have h3 : (i 3).val < 1280 := (i 3).isLt
  obtain ⟨t, hn, hht⟩ := point_onto ⟨(i 1).val, h1⟩ ⟨(i 2).val / 80, by omega⟩
  obtain ⟨-, -, -, ⟨a0, a1, a2, a3⟩⟩ := idx_facts t
  refine ⟨t, flush0_3 t, ?_⟩
  rw [mem_blk3]
  intro a
  match a with
  | ⟨0, _⟩ => show win0_3.index t (0 : Fin 4) * 4 ≤ (i 0).val ∧ (i 0).val < win0_3.index t (0 : Fin 4) * 4 + 4; omega
  | ⟨1, _⟩ =>
    show win0_3.index t (1 : Fin 4) * 1 ≤ (i 1).val ∧ (i 1).val < win0_3.index t (1 : Fin 4) * 1 + 1
    have hn' : (grid0.coords t 0).val = (i 1).val := hn
    omega
  | ⟨2, _⟩ =>
    show win0_3.index t (2 : Fin 4) * 80 ≤ (i 2).val ∧ (i 2).val < win0_3.index t (2 : Fin 4) * 80 + 80
    have hht' : (grid0.coords t 1).val = (i 2).val / 80 := hht
    omega
  | ⟨3, _⟩ => show win0_3.index t (3 : Fin 4) * 1280 ≤ (i 3).val ∧ (i 3).val < win0_3.index t (3 : Fin 4) * 1280 + 1280; omega

/-- Every index of the stacked values is in the block of the point of its batch and row tile. -/
theorem cover2 (i : SVals.Idx) : ∃ t : Fin cfg0.N, (cfg0.win 2).flush t = true ∧ i ∈ ((cfg0.win 2).blk t).view.set := by
  have h0 : (i 0).val < 4 := (i 0).isLt
  have h1 : (i 1).val < 4 := (i 1).isLt
  have h2 : (i 2).val < 8 := (i 2).isLt
  have h3 : (i 3).val < 720 := (i 3).isLt
  have h4 : (i 4).val < 1280 := (i 4).isLt
  obtain ⟨t, hn, hht⟩ := point_onto ⟨(i 2).val, h2⟩ ⟨(i 3).val / 80, by omega⟩
  obtain ⟨-, -, ⟨a0, a1, a2, a3, a4⟩, -⟩ := idx_facts t
  refine ⟨t, flush0_2 t, ?_⟩
  rw [mem_blk2]
  intro a
  match a with
  | ⟨0, _⟩ => show win0_2.index t (0 : Fin 5) * 4 ≤ (i 0).val ∧ (i 0).val < win0_2.index t (0 : Fin 5) * 4 + 4; omega
  | ⟨1, _⟩ => show win0_2.index t (1 : Fin 5) * 4 ≤ (i 1).val ∧ (i 1).val < win0_2.index t (1 : Fin 5) * 4 + 4; omega
  | ⟨2, _⟩ =>
    show win0_2.index t (2 : Fin 5) * 1 ≤ (i 2).val ∧ (i 2).val < win0_2.index t (2 : Fin 5) * 1 + 1
    have hn' : (grid0.coords t 0).val = (i 2).val := hn
    omega
  | ⟨3, _⟩ =>
    show win0_2.index t (3 : Fin 5) * 80 ≤ (i 3).val ∧ (i 3).val < win0_2.index t (3 : Fin 5) * 80 + 80
    have hht' : (grid0.coords t 1).val = (i 3).val / 80 := hht
    omega
  | ⟨4, _⟩ => show win0_2.index t (4 : Fin 5) * 1280 ≤ (i 4).val ∧ (i 4).val < win0_2.index t (4 : Fin 5) * 1280 + 1280; omega

/-! ## The two arrays after the kernel call -/

/-- The stacked values the kernel call leaves are the specification's, of the image and the flow field it found. -/
theorem vals_final : (dats (F := Ideal) m 0 c).arrAt 2 cfg0.N = fun i => valsS (V m c main_arg0) (V m c main_arg1) i :=
  (dats (F := Ideal) m 0 c).arrAt_eq_of_cover 2 (fun i : SVals.Idx => valsS (imgA m c) (floA m c) i)
    (fun t _ => flushed2_eq m c t) (cover2)

/-- The stacked targets the kernel call leaves are the specification's, of the flow field it found. -/
theorem tgt_final : (dats (F := Ideal) m 0 c).arrAt 3 cfg0.N = fun i => tgtS (V m c main_arg1) i :=
  (dats (F := Ideal) m 0 c).arrAt_eq_of_cover 3 (fun i : STgt.Idx => tgtS (floA m c) i)
    (fun t _ => flushed3_eq m c t) (cover3)

end Region

end Cert.Warp.Ker
end
-- ==== Proof.LibScatterCols.lean ====
/-
  Reading a host accumulating scatter along the SECOND axis of a matrix at an index.

  The operand is a matrix [C, N], the scatter indices are a column [E, 1] of words, the updates are a matrix [C, E]:
  update column e is added, row by row, to the operand's column named by index word e. At the exact (ideal) instance
  element (c, p) of the result is the old element plus the sum over e of the updates (c, e) whose index word, read as
  a signed integer and NOT clamped, is exactly p; an update whose index falls outside [0, N) lands nowhere.
-/
import Idealize.ShloMosaic.PureOps.Ideal
import Idealize.ShloMosaic.Lib.ValueIdx
import Idealize.ShloMosaic.Lib.Pipeline.Value

noncomputable section

open scoped BigOperators

namespace Idealize.ShloMosaic.ScatterColsIdx

open Idealize.ShloMosaic Idealize.ShloMosaic.ValueIdx

/-- The dimension numbers of a column scatter into x : [C, N] at idx : [E, 1] with updates [C, E]: the updates'
    axis 0 is the window axis (it runs over the operand's rows), the operand's axis 1 is the scattered one. -/
abbrev colsScatter (C N E : Nat) (wf : ScatterDims.WF ⟨2, ![C, N]⟩ ⟨2, ![E, 1]⟩ ⟨2, ![C, E]⟩ [0] [1] [1] 1) :
    ScatterDims ⟨2, ![C, N]⟩ ⟨2, ![E, 1]⟩ ⟨2, ![C, E]⟩ where
  updateWindowDims := [0]
  insertedWindowDims := [1]
  scatterDimsToOperandDims := [1]
  indexVectorDim := 1
  wf := wf

/-- Update (c, e) lands on element (c', p) exactly when c = c' and the index word e, read signed, is p. -/
theorem resultIdx_cols_iff {C N E w : Nat}
    (wf : ScatterDims.WF ⟨2, ![C, N]⟩ ⟨2, ![E, 1]⟩ ⟨2, ![C, E]⟩ [0] [1] [1] 1)
    (j : (⟨2, ![C, E]⟩ : Shape).Idx) (idx : IVec ⟨2, ![E, 1]⟩ w) (i : (⟨2, ![C, N]⟩ : Shape).Idx) :
    (colsScatter C N E wf).resultIdx? j idx = some i ↔
      ((j 0).val = (i 0).val ∧ (idx (ix2 (j 1) (0 : Fin 1))).toInt = ((i 1).val : Int)) := by
  have hst0 : (colsScatter C N E wf).start j idx 0 + ((colsScatter C N E wf).window j 0 : Int)
      = ((j 0).val : Int) := by
    have hw : (colsScatter C N E wf).window j 0 = (j 0).val := by
      unfold ScatterDims.window
      rw [dif_pos (by simp [ScatterDims.sKept, Shape.kept])]
      rfl
    have hs : (colsScatter C N E wf).start j idx 0 = 0 := by
      unfold ScatterDims.start
      rw [dif_neg (fun h => absurd (congrArg Fin.val (List.mem_singleton.mp h)) (by simp))]
    rw [hw, hs]; simp
  have hst1 : (colsScatter C N E wf).start j idx 1 + ((colsScatter C N E wf).window j 1 : Int)
      = (idx (ix2 (j 1) (0 : Fin 1))).toInt := by
    have hw : (colsScatter C N E wf).window j 1 = 0 := by
      unfold ScatterDims.window
      rw [dif_neg (by simp [ScatterDims.sKept, Shape.kept])]
    have hs : (colsScatter C N E wf).start j idx 1 = (idx (ix2 (j 1) (0 : Fin 1))).toInt := by
      unfold ScatterDims.start
      rw [dif_pos (show (1 : Fin 2) ∈ (colsScatter C N E wf).scatterDimsToOperandDims from List.mem_singleton.mpr rfl)]
      have hsi : (colsScatter C N E wf).siIdx j ⟨List.idxOf (1 : Fin 2) (colsScatter C N E wf).scatterDimsToOperandDims,
          List.idxOf_lt_length_iff.2 (List.mem_singleton.mpr rfl)⟩ = ix2 (j 1) (0 : Fin 1) := by
        funext b; refine Fin.ext ?_
        match b with
        | ⟨0, _⟩ => rfl
        | ⟨1, _⟩ => rfl
      rw [hsi]
      rfl
    rw [hw, hs]; simp
  have hj0 : (j 0).val < C := (j 0).isLt
  unfold ScatterDims.resultIdx?
  by_cases h : ∀ a, 0 ≤ (colsScatter C N E wf).start j idx a + ((colsScatter C N E wf).window j a : Int) ∧
      (colsScatter C N E wf).start j idx a + ((colsScatter C N E wf).window j a : Int) < ((⟨2, ![C, N]⟩ : Shape).size a : Int)
  · rw [dif_pos h]
    constructor
    · intro e
      have e0 : ((colsScatter C N E wf).start j idx 0 + ((colsScatter C N E wf).window j 0 : Int)).toNat = (i 0).val :=
        congrArg (fun f : (⟨2, ![C, N]⟩ : Shape).Idx => (f 0).val) (Option.some.inj e)
      have e1 : ((colsScatter C N E wf).start j idx 1 + ((colsScatter C N E wf).window j 1 : Int)).toNat = (i 1).val :=
        congrArg (fun f : (⟨2, ![C, N]⟩ : Shape).Idx => (f 1).val) (Option.some.inj e)
      have h1 := (h 1).1
      rw [hst0] at e0
      rw [hst1] at e1 h1
      constructor
      · omega
      · omega
    · intro e
      refine congrArg some ?_
      funext a
      refine Fin.ext ?_
      match a with
      | ⟨0, _⟩ =>
        show ((colsScatter C N E wf).start j idx 0 + ((colsScatter C N E wf).window j 0 : Int)).toNat = (i 0).val
        rw [hst0, ← e.1]; simp
      | ⟨1, _⟩ =>
        show ((colsScatter C N E wf).start j idx 1 + ((colsScatter C N E wf).window j 1 : Int)).toNat = (i 1).val
        rw [hst1, e.2]; simp
  · rw [dif_neg h]
    constructor
    · intro e; cases e
    · intro e
      exfalso; apply h
      intro a
      match a with
      | ⟨0, _⟩ =>
        show 0 ≤ (colsScatter C N E wf).start j idx 0 + ((colsScatter C N E wf).window j 0 : Int) ∧
          (colsScatter C N E wf).start j idx 0 + ((colsScatter C N E wf).window j 0 : Int) < ((⟨2, ![C, N]⟩ : Shape).size 0 : Int)
        rw [hst0]
        exact ⟨by positivity, by exact_mod_cast hj0⟩
      | ⟨1, _⟩ =>
        show 0 ≤ (colsScatter C N E wf).start j idx 1 + ((colsScatter C N E wf).window j 1 : Int) ∧
          (colsScatter C N E wf).start j idx 1 + ((colsScatter C N E wf).window j 1 : Int) < ((⟨2, ![C, N]⟩ : Shape).size 1 : Int)
        rw [hst1, e.2]
        exact ⟨by positivity, by exact_mod_cast (i 1).isLt⟩

/-- At the exact instance element (c, p) of the column scatter is the old element plus the sum over e of the
    updates (c, e) whose index word is p. -/
theorem scatterAdd_cols_apply {C N E w : Nat}
    (wf : ScatterDims.WF ⟨2, ![C, N]⟩ ⟨2, ![E, 1]⟩ ⟨2, ![C, E]⟩ [0] [1] [1] 1)
    (x : FVec Ideal ⟨2, ![C, N]⟩ .f32) (idx : IVec ⟨2, ![E, 1]⟩ w) (upd : FVec Ideal ⟨2, ![C, E]⟩ .f32)
    (i : (⟨2, ![C, N]⟩ : Shape).Idx) :
    Host.scatterAdd (F := Ideal) (colsScatter C N E wf) x idx upd i
      = x i + ∑ e : Fin E, if (idx (ix2 e (0 : Fin 1))).toInt = ((i 1).val : Int) then upd (ix2 (i 0) e) else 0 := by
  show x i + ∑ j ∈ Finset.univ.filter (fun j => (colsScatter C N E wf).resultIdx? j idx = some i), upd j = _
  refine congrArg (x i + ·) ?_
  rw [Finset.sum_filter, sum_idx2]
  have key : ∀ i0 : Fin C, i0 = i 0 →
      (∑ c : Fin C, ∑ e : Fin E,
        if (colsScatter C N E wf).resultIdx? (ix2 c e) idx = some i then upd (ix2 c e) else 0)
      = ∑ e : Fin E, if (idx (ix2 e (0 : Fin 1))).toInt = ((i 1).val : Int) then upd (ix2 i0 e) else 0 := by
    intro i0 hi0
    have hrow : ∀ c : Fin C, (∑ e : Fin E,
        if (colsScatter C N E wf).resultIdx? (ix2 c e) idx = some i then upd (ix2 c e) else 0)
        = if c = i0 then (∑ e : Fin E, if (idx (ix2 e (0 : Fin 1))).toInt = ((i 1).val : Int) then upd (ix2 c e) else 0)
          else 0 := by
      intro c
      by_cases hc : c = i0
      · rw [if_pos hc]
        refine Finset.sum_congr rfl fun e _ => ?_
        refine if_congr ((resultIdx_cols_iff wf (ix2 c e) idx i).trans ?_) rfl rfl
        exact ⟨fun h => h.2, fun h => ⟨congrArg Fin.val (hc.trans hi0), h⟩⟩
      · rw [if_neg hc]
        refine Finset.sum_eq_zero fun e _ => ?_
        rw [if_neg]
        intro h
        refine hc (Fin.ext ?_)
        rw [hi0]
        exact ((resultIdx_cols_iff wf (ix2 c e) idx i).mp h).1
    rw [Finset.sum_congr rfl fun c _ => hrow c]
    rw [Finset.sum_ite_eq' Finset.univ i0]
    rw [if_pos (Finset.mem_univ _)]
  exact key (i 0) rfl

end Idealize.ShloMosaic.ScatterColsIdx

end
-- ==== Proof.KerTail.lean ====
/-
  The host operations that follow the kernel call, as one pure function of the two stacked arrays, and that function
  read at an index.

  The stacked targets [4, 8, 720, 1280] are flattened to [29491200]; a negative word wraps around the flat result once.
  The stacked values [corner, channel, batch, row, column] are transposed to channel-first and flattened to
  [4, 29491200].  One column scatter-add into zeros [4, 7372800] then leaves, at channel c and flat pixel p, the sum
  over all positions e of the flattened axis whose wrapped target is p of the value of channel c at e.  The first
  result is channels 0..2 of that array reshaped and transposed to batch-first; the second result is channel 3,
  repeated over the three image channels.  A position e of the flattened axis is corner e / 7372800 and flat pixel
  e % 7372800.
-/
import proofs.«180801_j71141838291751_2_alg».proof.Proof.Gen.KernelIdeal.Frame
import proofs.«180801_j71141838291751_2_alg».proof.Proof.Spec
import proofs.«180801_j71141838291751_2_alg».proof.Proof.LibScatterCols
import Idealize.ShloMosaic.PureOps.Ideal.Laws

noncomputable section

open scoped BigOperators

namespace Cert.Warp.Ker

open Idealize.ShloMosaic Idealize.ShloMosaic.ValueIdx Idealize.ShloMosaic.ScatterColsIdx
open Cert.KernelIdeal Cert.KernelIdeal.Facts₀

/-! ## The tail as a pure function -/

/-- The stacked targets flattened. -/
def flatT (idx : STgt.Idx → BitVec 32) : IVec S29491200 32 :=
  shapeCast S29491200 idx shapeCasts_S4x8x720x1280_S29491200

/-- The flattened targets with negative words wrapped around the flat result once. -/
def wrapped (idx : STgt.Idx → BitVec 32) : IVec S29491200 32 :=
  select (cmpi CmpIPredicate.slt (flatT idx) (broadcastInDim S29491200 ![] bcast_S_S29491200 (constantI S_ 32 0#32)))
    (addi (flatT idx) (broadcastInDim S29491200 ![] bcast_S_S29491200 (constantI S_ 32 7372800#32)))
    (flatT idx)

/-- The stacked values, channel first, the other four axes flattened. -/
def flatV (vals : SVals.Idx → EReal) : FVec Ideal S4x29491200 .f32 :=
  shapeCast S4x29491200
    (transpose S4x4x8x720x1280 [1, 0, 2, 3, 4] vals transposes_S4x4x8x720x1280_S4x4x8x720x1280_1_0_2_3_4)
    shapeCasts_S4x4x8x720x1280_S4x29491200

/-- The column scatter-add of the flattened values into zeros at the wrapped targets. -/
def scat (vals : SVals.Idx → EReal) (idx : STgt.Idx → BitVec 32) : FVec Ideal S4x7372800 .f32 :=
  Host.scatterAdd (F := Ideal) scatter_S4x7372800_S29491200x1_S4x29491200_0_1_1_1
    (broadcastInDim S4x7372800 ![] bcast_S_S4x7372800 (constant (F := Ideal) S_ .f32 0x00000000#32))
    (broadcastInDim S29491200x1 ![0] bcast_S29491200_S29491200x1_0 (wrapped idx))
    (flatV vals)

/-- The first result: channels 0..2, reshaped and transposed to batch first. -/
def out0 (vals : SVals.Idx → EReal) (idx : STgt.Idx → BitVec 32) : FVec Ideal S8x3x720x1280 .f32 :=
  transpose S8x3x720x1280 [1, 0, 2, 3]
    (shapeCast S3x8x720x1280
      (extractStridedSlice S3x7372800 ![0, 0] (scat vals idx) slices_S4x7372800_S3x7372800_0_0)
      shapeCasts_S3x7372800_S3x8x720x1280)
    transposes_S3x8x720x1280_S8x3x720x1280_1_0_2_3

/-- The second result: channel 3, reshaped, repeated over the three image channels. -/
def out1 (vals : SVals.Idx → EReal) (idx : STgt.Idx → BitVec 32) : FVec Ideal S8x3x720x1280 .f32 :=
  broadcastInDim S8x3x720x1280 ![0, 1, 2, 3] bcast_S8x1x720x1280_S8x3x720x1280_0_1_2_3
    (shapeCast S8x1x720x1280
      (shapeCast S7372800
        (extractStridedSlice S1x7372800 ![3, 0] (scat vals idx) slices_S4x7372800_S1x7372800_3_0)
        shapeCasts_S1x7372800_S7372800)
      shapeCasts_S7372800_S8x1x720x1280)

/-! ## The function read at an index -/

/-- The flattened targets at position e: corner e / 7372800, flat pixel e % 7372800. -/
theorem flatT_apply (idx : STgt.Idx → BitVec 32) (e : Fin 29491200) :
    flatT idx (ix1 e) = idx (ix4 (qk e) (pn (qe e)) (ph (qe e)) (pw (qe e))) := by
  unfold flatT
  refine shapeCast_apply idx _ (ix1 e) _ ?_
  rw [Shape.rowMajor_val_four, Shape.rowMajor_val_one]
  have := e.isLt
  exact (by omega : ((e.val / 7372800 * 8 + e.val % 7372800 / 921600) * 720 + e.val % 7372800 / 1280 % 720) * 1280
    + e.val % 7372800 % 1280 = e.val)

/-- The wrapped flattened targets at position e. -/
theorem wrapped_apply (idx : STgt.Idx → BitVec 32) (e : Fin 29491200) :
    wrapped idx (ix1 e) = wrapNeg (idx (ix4 (qk e) (pn (qe e)) (ph (qe e)) (pw (qe e)))) := by
  rw [← flatT_apply idx e]
  rfl

/-- The index column at row e. -/
theorem idxCol_apply (idx : STgt.Idx → BitVec 32) (e : Fin 29491200) :
    broadcastInDim S29491200x1 ![0] bcast_S29491200_S29491200x1_0 (wrapped idx) (ix2 e (0 : Fin 1))
      = wrapNeg (idx (ix4 (qk e) (pn (qe e)) (ph (qe e)) (pw (qe e)))) := by
  refine (broadcastInDim_apply _ _ (wrapped idx) (ix2 e (0 : Fin 1)) (ix1 e) ?_).trans (wrapped_apply idx e)
  intro a
  match a with
  | ⟨0, _⟩ => rfl

/-- The flattened values at channel c and position e. -/
theorem flatV_apply (vals : SVals.Idx → EReal) (c : Fin 4) (e : Fin 29491200) :
    flatV vals (ix2 c e) = vals (ix5 (qk e) c (pn (qe e)) (ph (qe e)) (pw (qe e))) := by
  unfold flatV
  refine (shapeCast_apply _ _ (ix2 c e) (ix5 c (qk e) (pn (qe e)) (ph (qe e)) (pw (qe e))) ?_).trans ?_
  · rw [Shape.rowMajor_val_five, Shape.rowMajor_val_two]
    have := e.isLt
    have := c.isLt
    exact (by omega : (((c.val * 4 + e.val / 7372800) * 8 + e.val % 7372800 / 921600) * 720
      + e.val % 7372800 / 1280 % 720) * 1280 + e.val % 7372800 % 1280 = c.val * 29491200 + e.val)
  · refine transpose_apply _ vals _ _ (ix5 (qk e) c (pn (qe e)) (ph (qe e)) (pw (qe e))) ?_
    intro b
    match b with
    | ⟨0, _⟩ => rfl
    | ⟨1, _⟩ => rfl
    | ⟨2, _⟩ => rfl
    | ⟨3, _⟩ => rfl
    | ⟨4, _⟩ => rfl

/-- The scattered array at channel c and flat pixel p: the sum over the positions whose wrapped target is p. -/
theorem scat_apply (vals : SVals.Idx → EReal) (idx : STgt.Idx → BitVec 32) (c : Fin 4) (p : Fin 7372800) :
    scat vals idx (ix2 c p) = 0 + ∑ e : Fin 29491200,
      if (wrapNeg (idx (ix4 (qk e) (pn (qe e)) (ph (qe e)) (pw (qe e))))).toInt = (p.val : Int)
      then vals (ix5 (qk e) c (pn (qe e)) (ph (qe e)) (pw (qe e))) else 0 := by
  unfold scat
  refine (scatterAdd_cols_apply (C := 4) (N := 7372800) (E := 29491200)
    scatter_S4x7372800_S29491200x1_S4x29491200_0_1_1_1_wf _ _ _ (ix2 c p)).trans ?_
  refine congrArg₂ (· + ·) ?_ (Finset.sum_congr rfl fun e _ => ?_)
  · exact Ideal.ofBits_zero_f32
  · show (if (broadcastInDim S29491200x1 ![0] bcast_S29491200_S29491200x1_0 (wrapped idx) (ix2 e (0 : Fin 1))).toInt
        = (p.val : Int) then flatV vals (ix2 c e) else 0) = _
    rw [idxCol_apply, flatV_apply]

/-- The first result at (n, ch, h, w). -/
theorem out0_apply (vals : SVals.Idx → EReal) (idx : STgt.Idx → BitVec 32)
    (n : Fin 8) (ch : Fin 3) (h : Fin 720) (w : Fin 1280) :
    out0 vals idx (ix4 n ch h w) = 0 + stackSum vals idx ⟨ch.val, by have := ch.isLt; omega⟩ n h w := by
  unfold out0
  refine (transpose_apply _ _ _ (ix4 n ch h w) (ix4 ch n h w) ?_).trans ?_
  · intro b
    match b with
    | ⟨0, _⟩ => rfl
    | ⟨1, _⟩ => rfl
    | ⟨2, _⟩ => rfl
    | ⟨3, _⟩ => rfl
  refine (shapeCast_apply _ _ (ix4 ch n h w) (ix2 ch (flat n h w)) ?_).trans ?_
  · rw [Shape.rowMajor_val_two, Shape.rowMajor_val_four]
    exact (by omega : ch.val * 7372800 + ((n.val * 720 + h.val) * 1280 + w.val)
      = ((ch.val * 8 + n.val) * 720 + h.val) * 1280 + w.val)
  refine (extractStridedSlice_apply _ _ _ (ix2 ch (flat n h w))
    (ix2 (⟨ch.val, by have := ch.isLt; omega⟩ : Fin 4) (flat n h w)) ?_).trans ?_
  · intro a
    match a with
    | ⟨0, _⟩ => exact (Nat.zero_add _).symm
    | ⟨1, _⟩ => exact (Nat.zero_add _).symm
  exact scat_apply vals idx _ _

/-- The second result at (n, ch, h, w). -/
theorem out1_apply (vals : SVals.Idx → EReal) (idx : STgt.Idx → BitVec 32)
    (n : Fin 8) (ch : Fin 3) (h : Fin 720) (w : Fin 1280) :
    out1 vals idx (ix4 n ch h w) = 0 + stackSum vals idx (3 : Fin 4) n h w := by
  unfold out1
  refine (broadcastInDim_apply _ _ _ (ix4 n ch h w) (ix4 n (0 : Fin 1) h w) ?_).trans ?_
  · intro a
    match a with
    | ⟨0, _⟩ => rfl
    | ⟨1, _⟩ => rfl
    | ⟨2, _⟩ => rfl
    | ⟨3, _⟩ => rfl
  refine (shapeCast_apply _ _ (ix4 n (0 : Fin 1) h w) (ix1 (flat n h w)) ?_).trans ?_
  · rw [Shape.rowMajor_val_one, Shape.rowMajor_val_four]
    exact (by omega : (n.val * 720 + h.val) * 1280 + w.val = ((n.val * 1 + 0) * 720 + h.val) * 1280 + w.val)
  refine (shapeCast_apply _ _ (ix1 (flat n h w)) (ix2 (0 : Fin 1) (flat n h w)) ?_).trans ?_
  · rw [Shape.rowMajor_val_two, Shape.rowMajor_val_one]
    exact (by omega : 0 * 7372800 + ((n.val * 720 + h.val) * 1280 + w.val) = (n.val * 720 + h.val) * 1280 + w.val)
  refine (extractStridedSlice_apply _ _ _ (ix2 (0 : Fin 1) (flat n h w)) (ix2 (3 : Fin 4) (flat n h w)) ?_).trans ?_
  · intro a
    match a with
    | ⟨0, _⟩ => rfl
    | ⟨1, _⟩ => exact (Nat.zero_add _).symm
  exact scat_apply vals idx _ _

/-! ## The run: the operations after the kernel call compute that function -/

open Cert.KernelIdeal.Gen

/-- From any buffer contents, the first result buffer after the host operations is out0 of the two stacked arrays. -/
theorem after_v14 (W : Valuation τ sig (Elt Ideal)) :
    StableHlo.after (hostOps1 (F := Ideal)) W (Proc.devRef .tc main_v14)
      = out0 (W (Proc.devRef .tc main_v0_0)) (W (Proc.devRef .tc main_v0_1)) := by
  open StableHlo in after_results
  rfl

/-- From any buffer contents, the second result buffer after the host operations is out1 of the two stacked arrays. -/
theorem after_v18 (W : Valuation τ sig (Elt Ideal)) :
    StableHlo.after (hostOps1 (F := Ideal)) W (Proc.devRef .tc main_v18)
      = out1 (W (Proc.devRef .tc main_v0_0)) (W (Proc.devRef .tc main_v0_1)) := by
  open StableHlo in after_results
  rfl

/-! ## The two results of the kernel program -/

section Results
variable (m : (ℓ : Loc nD τ sig) → Buf (Elt Ideal) ℓ) (c : Dev nD)

/-- The buffer contents the host operations start from: the kernel call's arrays as it leaves them. -/
abbrev W0 : Valuation τ sig (Elt Ideal) :=
  Pipeline.withArrays (cfgs 0).spec c (V0 m c) fun w => (dats (F := Ideal) m 0 c).arrAt w (cfgs 0).N

/-- The first result of the kernel program is the accumulation of channels 0..2 of the stacked values. -/
theorem tail_out0 (vals : SVals.Idx → EReal) (idx : STgt.Idx → BitVec 32)
    (hv : (dats (F := Ideal) m 0 c).arrAt 2 cfg0.N = vals) (hi : (dats (F := Ideal) m 0 c).arrAt 3 cfg0.N = idx)
    (n : Fin 8) (ch : Fin 3) (h : Fin 720) (w : Fin 1280) :
    Pipeline.afterTail₀ cfgs (dats (F := Ideal) m) 0 (V0 m) [hostOps1] c main_v14 (ix4 n ch h w)
      = 0 + stackSum vals idx ⟨ch.val, by have := ch.isLt; omega⟩ n h w := by
  have h2 : W0 m c (Proc.devRef .tc main_v0_0) = vals :=
    (Pipeline.withArrays_arr spec0 launch0.win.arr_inj c _ _ 2).trans hv
  have h3 : W0 m c (Proc.devRef .tc main_v0_1) = idx :=
    (Pipeline.withArrays_arr spec0 launch0.win.arr_inj c _ _ 3).trans hi
  unfold Pipeline.afterTail₀
  show StableHlo.after hostOps1 (W0 m c) (Proc.devRef .tc main_v14) (ix4 n ch h w) = _
  rw [after_v14, h2, h3]
  exact out0_apply vals idx n ch h w

/-- The second result of the kernel program is the accumulation of channel 3 of the stacked values. -/
theorem tail_out1 (vals : SVals.Idx → EReal) (idx : STgt.Idx → BitVec 32)
    (hv : (dats (F := Ideal) m 0 c).arrAt 2 cfg0.N = vals) (hi : (dats (F := Ideal) m 0 c).arrAt 3 cfg0.N = idx)
    (n : Fin 8) (ch : Fin 3) (h : Fin 720) (w : Fin 1280) :
    Pipeline.afterTail₀ cfgs (dats (F := Ideal) m) 0 (V0 m) [hostOps1] c main_v18 (ix4 n ch h w)
      = 0 + stackSum vals idx (3 : Fin 4) n h w := by
  have h2 : W0 m c (Proc.devRef .tc main_v0_0) = vals :=
    (Pipeline.withArrays_arr spec0 launch0.win.arr_inj c _ _ 2).trans hv
  have h3 : W0 m c (Proc.devRef .tc main_v0_1) = idx :=
    (Pipeline.withArrays_arr spec0 launch0.win.arr_inj c _ _ 3).trans hi
  unfold Pipeline.afterTail₀
  show StableHlo.after hostOps1 (W0 m c) (Proc.devRef .tc main_v18) (ix4 n ch h w) = _
  rw [after_v18, h2, h3]
  exact out1_apply vals idx n ch h w

end Results

end Cert.Warp.Ker

end
-- ==== Proof.LibGatherScatter.lean ====
/-
  Reading a host gather and a host accumulating scatter at an index, for the two index layouts that `x[idx]` and
  `segment_sum` lower to when the operand is a flat array [N] or a column [N, 1] and the indices are a column [E, 1].

  * A gather along axis 0 reads the operand at the start index, taken as a signed integer and clamped into [0, N - 1].
  * An accumulating scatter at the exact (ideal) instance leaves at element `i` the old element plus the sum of the
    updates whose index word, read as a signed integer and NOT clamped, is exactly `i`; an update whose index falls
    outside [0, N) lands nowhere.
  * A sum over a concatenated range [0, E + N) splits as the sum over [0, E) plus the sum over the shifted [0, N).
-/
import Idealize.ShloMosaic.PureOps.Ideal
import Idealize.ShloMosaic.Lib.ValueIdx
import Idealize.ShloMosaic.Lib.Pipeline.Value

noncomputable section

open scoped BigOperators

namespace Idealize.ShloMosaic.GatherScatterIdx

open Idealize.ShloMosaic Idealize.ShloMosaic.ValueIdx

/-! ## Rank-1 index sets and sums over them -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a column index set [n, 1] is the sum over the row coordinate. -/
theorem sum_idxCol {M : Type*} [AddCommMonoid M] {n : Nat} (f : (⟨2, ![n, 1]⟩ : Shape).Idx → M) :
    ∑ i, f i = ∑ a : Fin n, f (ix2 a (0 : Fin 1)) := by
  rw [sum_idx2]
  refine Finset.sum_congr rfl fun a _ => ?_
  exact Fin.sum_univ_one _

/-- A sum over [0, T) with T = E + N is the sum over [0, E) plus the sum over E + [0, N). -/
theorem sum_fin_split {M : Type*} [AddCommMonoid M] {E N T : Nat} (hT : E + N = T) (f : Fin T → M) :
    ∑ t, f t = (∑ e : Fin E, f ⟨e.val, by omega⟩) + ∑ n : Fin N, f ⟨E + n.val, by omega⟩ := by
  subst hT
  rw [Fin.sum_univ_add]
  rfl

/-! ## The gather of a flat array at a column of indices -/

section Gather
variable {α : Type}

/-- The dimension numbers of `x[idx]` for `x : [N]`, `idx : [E, 1]`, result `[E]`. -/
abbrev rowGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gather is the operand at index word `idx[e, 0]`, read signed and clamped into [0, N - 1]. -/
theorem gather_row_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (rowGather N E wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (rowGather N E wf).start j idx 0 + (rowGather N E wf).batchCoord j 0 + (rowGather N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather N E wf).startIndexMap from List.mem_singleton.mpr rfl)]
  have hsi : (rowGather N E wf).siIdx j ⟨List.idxOf (0 : Fin 1) (rowGather N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The dimension numbers of `x[idx]` for a column `x : [N, 1]`, `idx : [E, 1]`, result `[E, 1]`. -/
abbrev colGather (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Row `e` of the gathered column is the operand's row at index word `idx[e, 0]`, read signed and clamped. -/
theorem gather_col_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (j : (⟨2, ![E, 1]⟩ : Shape).Idx) :
    Host.gather (colGather N E wf) x idx j
      = x (ix2 (⟨min (idx (ix2 (j 0) (0 : Fin 1))).toInt.toNat (N - 1), by omega⟩ : Fin N) (0 : Fin 1)) := by
  unfold Host.gather
  congr 1
  funext a
  match a with
  | ⟨0, _⟩ =>
    refine Fin.ext ?_
    show (colGather N E wf).start j idx 0 + (colGather N E wf).batchCoord j 0 + (colGather N E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colGather N E wf).startIndexMap from List.mem_singleton.mpr rfl)]
    have hsi : (colGather N E wf).siIdx j ⟨List.idxOf (0 : Fin 2) (colGather N E wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show (_ : Fin 1) = _
    exact Subsingleton.elim _ _

end Gather

/-! ## The accumulating scatter into a flat array, and into a column, at a column of indices -/

section Scatter

/-- The dimension numbers of `segment_sum` into `x : [N]` at `idx : [E, 1]` with updates `[E]`. -/
abbrev rowScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on element `i` exactly when its index word, read signed, is `i`. -/
theorem resultIdx_row_iff {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (i : (⟨1, ![N]⟩ : Shape).Idx) :
    (rowScatter N E wf).resultIdx? j idx = some i ↔ (idx (ix2 (j 0) (0 : Fin 1))).toInt = ((i 0).val : Int) := by
  have hst : ∀ a, (rowScatter N E wf).start j idx a + ((rowScatter N E wf).window j a : Int)
      = (idx (ix2 (j 0) (0 : Fin 1))).toInt := by
    intro a
    obtain rfl : a = 0 := Subsingleton.elim _ _
    have hw : (rowScatter N E wf).window j 0 = 0 := by
      unfold ScatterDims.window
      rw [dif_neg (by simp [ScatterDims.sKept, Shape.kept])]
    have hs : (rowScatter N E wf).start j idx 0 = (idx (ix2 (j 0) (0 : Fin 1))).toInt := by
      unfold ScatterDims.start
      rw [dif_pos (show (0 : Fin 1) ∈ (rowScatter N E wf).scatterDimsToOperandDims from List.mem_singleton.mpr rfl)]
      have hsi : (rowScatter N E wf).siIdx j ⟨List.idxOf (0 : Fin 1) (rowScatter N E wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    rw [hw, hs]; simp
  unfold ScatterDims.resultIdx?
  by_cases h : ∀ a, 0 ≤ (rowScatter N E wf).start j idx a + ((rowScatter N E wf).window j a : Int) ∧
      (rowScatter N E wf).start j idx a + ((rowScatter N E wf).window j a : Int) < ((⟨1, ![N]⟩ : Shape).size a : Int)
  · rw [dif_pos h]
    constructor
    · intro e
      have e0 : ((rowScatter N E wf).start j idx 0 + ((rowScatter N E wf).window j 0 : Int)).toNat = (i 0).val :=
        congrArg (fun f : (⟨1, ![N]⟩ : Shape).Idx => (f 0).val) (Option.some.inj e)
      have h0 := (h 0).1
      rw [hst 0] at e0 h0
      omega
    · intro e
      refine congrArg some ?_
      funext a
      obtain rfl : a = 0 := Subsingleton.elim _ _
      refine Fin.ext ?_
      show ((rowScatter N E wf).start j idx 0 + ((rowScatter N E wf).window j 0 : Int)).toNat = (i 0).val
      rw [hst 0, e]; simp
  · rw [dif_neg h]
    constructor
    · intro e; cases e
    · intro e
      exfalso; apply h
      intro a
      rw [hst a, e]
      obtain rfl : a = 0 := Subsingleton.elim _ _
      exact ⟨by positivity, by exact_mod_cast (i 0).isLt⟩

/-- At the exact instance element `i` of the scatter is the old element plus the sum of the updates whose index word
    is `i`. -/
theorem scatterAdd_row_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (i : (⟨1, ![N]⟩ : Shape).Idx) :
    Host.scatterAdd (F := Ideal) (rowScatter N E wf) x idx upd i
      = x i + ∑ e : Fin E, if (idx (ix2 e (0 : Fin 1))).toInt = ((i 0).val : Int) then upd (ix1 e) else 0 := by
  show x i + ∑ j ∈ Finset.univ.filter (fun j => (rowScatter N E wf).resultIdx? j idx = some i), upd j = _
  refine congrArg (x i + ·) ?_
  rw [Finset.sum_filter, sum_idx1]
  refine Finset.sum_congr rfl fun e _ => ?_
  exact if_congr (resultIdx_row_iff wf (ix1 e) idx i) rfl rfl

/-- The dimension numbers of `segment_sum` into a column `x : [N, 1]` at `idx : [E, 1]` with updates `[E, 1]`. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Update row `e` lands on row `i` exactly when its index word, read signed, is `i`. -/
theorem resultIdx_col_iff {N E w : Nat} (wf : ScatterDims.WF ⟨2, ![N, 1]⟩ ⟨2, ![E, 1]⟩ ⟨2, ![E, 1]⟩ [1] [0] [0] 1)
    (j : (⟨2, ![E, 1]⟩ : Shape).Idx) (idx : IVec ⟨2, ![E, 1]⟩ w) (i : (⟨2, ![N, 1]⟩ : Shape).Idx) :
    (colScatter N E wf).resultIdx? j idx = some i ↔ (idx (ix2 (j 0) (0 : Fin 1))).toInt = ((i 0).val : Int) := by
  have hst0 : (colScatter N E wf).start j idx 0 + ((colScatter N E wf).window j 0 : Int)
      = (idx (ix2 (j 0) (0 : Fin 1))).toInt := by
    have hw : (colScatter N E wf).window j 0 = 0 := by
      unfold ScatterDims.window
      rw [dif_neg (by simp [ScatterDims.sKept, Shape.kept])]
    have hs : (colScatter N E wf).start j idx 0 = (idx (ix2 (j 0) (0 : Fin 1))).toInt := by
      unfold ScatterDims.start
      rw [dif_pos (show (0 : Fin 2) ∈ (colScatter N E wf).scatterDimsToOperandDims from List.mem_singleton.mpr rfl)]
      have hsi : (colScatter N E wf).siIdx j ⟨List.idxOf (0 : Fin 2) (colScatter N E wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    rw [hw, hs]; simp
  have hst1 : (colScatter N E wf).start j idx 1 + ((colScatter N E wf).window j 1 : Int) = 0 := by
    have hw : (colScatter N E wf).window j 1 = 0 := by
      unfold ScatterDims.window
      rw [dif_pos (by simp [ScatterDims.sKept, Shape.kept])]
      have := (j 1).isLt
      show (j 1).val = 0
      have h1 : (j 1).val < 1 := this
      omega
    have hs : (colScatter N E wf).start j idx 1 = 0 := by
      unfold ScatterDims.start
      rw [dif_neg (fun h => absurd (congrArg Fin.val (List.mem_singleton.mp h)) (by simp))]
    rw [hw, hs]; simp
  have hi1 : (i 1).val = 0 := by
    have h1 : (i 1).val < 1 := (i 1).isLt
    omega
  unfold ScatterDims.resultIdx?
  by_cases h : ∀ a, 0 ≤ (colScatter N E wf).start j idx a + ((colScatter N E wf).window j a : Int) ∧
      (colScatter N E wf).start j idx a + ((colScatter N E wf).window j a : Int) < ((⟨2, ![N, 1]⟩ : Shape).size a : Int)
  · rw [dif_pos h]
    constructor
    · intro e
      have e0 : ((colScatter N E wf).start j idx 0 + ((colScatter N E wf).window j 0 : Int)).toNat = (i 0).val :=
        congrArg (fun f : (⟨2, ![N, 1]⟩ : Shape).Idx => (f 0).val) (Option.some.inj e)
      have h0 := (h 0).1
      rw [hst0] at e0 h0
      omega
    · intro e
      refine congrArg some ?_
      funext a
      refine Fin.ext ?_
      match a with
      | ⟨0, _⟩ =>
        show ((colScatter N E wf).start j idx 0 + ((colScatter N E wf).window j 0 : Int)).toNat = (i 0).val
        rw [hst0, e]; simp
      | ⟨1, _⟩ =>
        show ((colScatter N E wf).start j idx 1 + ((colScatter N E wf).window j 1 : Int)).toNat = (i 1).val
        rw [hst1, hi1]; rfl
  · rw [dif_neg h]
    constructor
    · intro e; cases e
    · intro e
      exfalso; apply h
      intro a
      match a with
      | ⟨0, _⟩ =>
        show 0 ≤ (colScatter N E wf).start j idx 0 + ((colScatter N E wf).window j 0 : Int) ∧
          (colScatter N E wf).start j idx 0 + ((colScatter N E wf).window j 0 : Int) < ((⟨2, ![N, 1]⟩ : Shape).size 0 : Int)
        rw [hst0, e]
        exact ⟨by positivity, by exact_mod_cast (i 0).isLt⟩
      | ⟨1, _⟩ =>
        show 0 ≤ (colScatter N E wf).start j idx 1 + ((colScatter N E wf).window j 1 : Int) ∧
          (colScatter N E wf).start j idx 1 + ((colScatter N E wf).window j 1 : Int) < ((⟨2, ![N, 1]⟩ : Shape).size 1 : Int)
        rw [hst1]
        exact ⟨le_refl _, Int.natCast_pos.mpr Nat.one_pos⟩

/-- At the exact instance row `i` of the scattered column is the old row plus the sum of the update rows whose index
    word is `i`. -/
theorem scatterAdd_col_apply {N E w : Nat} (wf : ScatterDims.WF ⟨2, ![N, 1]⟩ ⟨2, ![E, 1]⟩ ⟨2, ![E, 1]⟩ [1] [0] [0] 1)
    (x : FVec Ideal ⟨2, ![N, 1]⟩ .f32) (idx : IVec ⟨2, ![E, 1]⟩ w) (upd : FVec Ideal ⟨2, ![E, 1]⟩ .f32)
    (i : (⟨2, ![N, 1]⟩ : Shape).Idx) :
    Host.scatterAdd (F := Ideal) (colScatter N E wf) x idx upd i
      = x i + ∑ e : Fin E, if (idx (ix2 e (0 : Fin 1))).toInt = ((i 0).val : Int) then upd (ix2 e (0 : Fin 1)) else 0 := by
  show x i + ∑ j ∈ Finset.univ.filter (fun j => (colScatter N E wf).resultIdx? j idx = some i), upd j = _
  refine congrArg (x i + ·) ?_
  rw [Finset.sum_filter, sum_idxCol]
  refine Finset.sum_congr rfl fun e _ => ?_
  exact if_congr (resultIdx_col_iff wf (ix2 e (0 : Fin 1)) idx i) rfl rfl

end Scatter

end Idealize.ShloMosaic.GatherScatterIdx

end
-- ==== Proof.RefWarp.lean ====
/-
  The reference program read at an index.

  Part 1 reads it at a pixel: the two shifts, their floors and successors and the four bilinear weights are the
  specification's.  Part 2 reads the four corner blocks at a pixel: the row and column words, the inside test, and then
  each corner's weight array and target array are the specification's, with converted successors.  Part 3 reads each
  block's flat arrays: its image scatter and its weight scatter, read at a pixel, are zero plus the specification's
  sums over the source pixels.  Part 4 adds the four corners in the program's order: the two results.
-/
import proofs.«180801_j71141838291751_2_alg».proof.Proof.RefRead
import proofs.«180801_j71141838291751_2_alg».proof.Proof.Spec
import proofs.«180801_j71141838291751_2_alg».proof.Proof.LibGatherScatter
import proofs.«180801_j71141838291751_2_alg».proof.Proof.LibScatterCols
import Idealize.ShloMosaic.PureOps.Ideal.Laws

noncomputable section

namespace Cert.Warp.Ref

open Idealize.ShloMosaic Idealize.ShloMosaic.ValueIdx Cert.ReferenceIdeal Cert.ReferenceIdeal.Gen Cert.ReferenceIdeal.Read Cert.Warp
open scoped BigOperators

/-! # Part 1: a pixel's shifts, floors and weights -/

section Pixel
variable (flo : SFlo.Idx → EReal) (n : Fin 8) (h : Fin 720) (w : Fin 1280)

/-- Pixel (n, h, w) of the [8, 720, 1280] view of channel 1 is element (n, 1, h, w) of the flow field. -/
theorem idx_x : idx_main_v2 (idx_main_v3 (ix3 n h w)) = ix4 n (1 : Fin 2) h w := by
  funext a
  refine Fin.ext ?_
  have hn := n.isLt; have hh := h.isLt; have hw := w.isLt
  match a with
  | ⟨0, _⟩ => show ((n.val * 720 + h.val) * 1280 + w.val) / 921600 = n.val; omega
  | ⟨1, _⟩ => rfl
  | ⟨2, _⟩ => show ((n.val * 720 + h.val) * 1280 + w.val) / 1280 % 720 = h.val; omega
  | ⟨3, _⟩ => show ((n.val * 720 + h.val) * 1280 + w.val) % 1280 = w.val; omega

/-- … and of channel 0 is element (n, 0, h, w). -/
theorem idx_y : idx_main_v0 (idx_main_v1 (ix3 n h w)) = ix4 n (0 : Fin 2) h w := by
  funext a
  refine Fin.ext ?_
  have hn := n.isLt; have hh := h.isLt; have hw := w.isLt
  match a with
  | ⟨0, _⟩ => show ((n.val * 720 + h.val) * 1280 + w.val) / 921600 = n.val; omega
  | ⟨1, _⟩ => rfl
  | ⟨2, _⟩ => show ((n.val * 720 + h.val) * 1280 + w.val) / 1280 % 720 = h.val; omega
  | ⟨3, _⟩ => show ((n.val * 720 + h.val) * 1280 + w.val) % 1280 = w.val; omega

/-- The shift along the height axis. -/
theorem v3_at : val_main_v3 (F := Ideal) flo (ix3 n h w) = xv flo n h w := by
  rewrite [val_main_v3_apply, val_main_v2_apply, idx_x]; rfl

/-- The shift along the width axis. -/
theorem v1_at : val_main_v1 (F := Ideal) flo (ix3 n h w) = yv flo n h w := by
  rewrite [val_main_v1_apply, val_main_v0_apply, idx_y]; rfl

/-- Their floors. -/
theorem v4_at : val_main_v4 (F := Ideal) flo (ix3 n h w) = fx flo n h w := by
  rewrite [val_main_v4_apply, v3_at]; rfl
theorem v7_at : val_main_v7 (F := Ideal) flo (ix3 n h w) = fy flo n h w := by
  rewrite [val_main_v7_apply, v1_at]; rfl

/-- The floors plus one. -/
theorem v6_at : val_main_v6 (F := Ideal) flo (ix3 n h w) = fx flo n h w + one := by
  rewrite [val_main_v6_apply, v4_at, val_main_v5_apply]; rfl
theorem v9_at : val_main_v9 (F := Ideal) flo (ix3 n h w) = fy flo n h w + one := by
  rewrite [val_main_v9_apply, v7_at, val_main_v8_apply]; rfl

/-- The four bilinear weights. -/
theorem v12_at : val_main_v12 (F := Ideal) flo (ix3 n h w) = wt flo n h w 0 := by
  rewrite [val_main_v12_apply, val_main_v10_apply, val_main_v11_apply, v6_at, v9_at, v3_at, v1_at]; rfl
theorem v15_at : val_main_v15 (F := Ideal) flo (ix3 n h w) = wt flo n h w 1 := by
  rewrite [val_main_v15_apply, val_main_v13_apply, val_main_v14_apply, v6_at, v7_at, v3_at, v1_at]; rfl
theorem v18_at : val_main_v18 (F := Ideal) flo (ix3 n h w) = wt flo n h w 2 := by
  rewrite [val_main_v18_apply, val_main_v16_apply, val_main_v17_apply, v4_at, v9_at, v3_at, v1_at]; rfl
theorem v21_at : val_main_v21 (F := Ideal) flo (ix3 n h w) = wt flo n h w 3 := by
  rewrite [val_main_v21_apply, val_main_v19_apply, val_main_v20_apply, v4_at, v7_at, v3_at, v1_at]; rfl

end Pixel

/-! # Part 2: the four corner blocks at a pixel -/

section Corners
variable (flo : SFlo.Idx → EReal) (n : Fin 8) (h : Fin 720) (w : Fin 1280)

/-! ## Corner 0 -/

/-- The row word of corner 0 at a pixel. -/
theorem b0_row : val_main_v27 (F := Ideal) flo (ix3 n h w) = IntOp.addi (xaC flo n h w 0) (BitVec.ofNat 32 h.val) := by
  rewrite [val_main_v27_apply, val_main_v22_apply, v4_at, val_main_v26_apply, val_main_v25_apply, val_main_v24_apply,
    val_main_v23_apply]
  rfl

/-- The column word of corner 0 at a pixel. -/
theorem b0_col : val_main_v33 (F := Ideal) flo (ix3 n h w) = IntOp.addi (yaC flo n h w 0) (BitVec.ofNat 32 w.val) := by
  rewrite [val_main_v33_apply, val_main_v28_apply, v7_at, val_main_v32_apply, val_main_v31_apply, val_main_v30_apply,
    val_main_v29_apply]
  rfl

/-- The inside test of corner 0. -/
theorem b0_mask : val_main_v44 (F := Ideal) flo (ix3 n h w)
    = inside (IntOp.addi (xaC flo n h w 0) (BitVec.ofNat 32 h.val)) (IntOp.addi (yaC flo n h w 0) (BitVec.ofNat 32 w.val)) := by
  rewrite [val_main_v44_apply, val_main_v41_apply, val_main_v38_apply, val_main_v35_apply, val_main_v37_apply,
    val_main_v40_apply, val_main_v43_apply, b0_row, b0_col, val_main_v34_apply, val_main_v36_apply,
    val_main_v39_apply, val_main_v42_apply]
  rfl

/-- The weight array of corner 0 is the specification's (converted successors). -/
theorem b0_wm : val_main_v45 (F := Ideal) flo (ix3 n h w) = WmC flo 0 n h w := by
  rewrite [val_main_v45_apply, b0_mask, v12_at, val_main_call0_v1_apply, val_main_call0_v0_apply, val_main_cst_4_apply,
    Ideal.ofBits_def, Ideal.ofBits_zero_f32]
  rfl

/-- The target array of corner 0 is the specification's. -/
theorem b0_tg : val_main_v55 (F := Ideal) flo (ix3 n h w) = TgC flo 0 n h w := by
  rewrite [val_main_v55_apply, val_main_v49_apply, b0_mask, val_main_v48_apply, val_main_v47_apply, b0_row, b0_col,
    val_main_v46_apply, val_main_call1_v1_apply, val_main_v54_apply, val_main_v53_apply, val_main_v52_apply,
    val_main_v50_apply, val_main_v51_apply]
  rfl

/-! ## Corner 1 -/

/-- The row word of corner 1 at a pixel. -/
theorem b1_row : val_main_v88 (F := Ideal) flo (ix3 n h w) = IntOp.addi (xaC flo n h w 1) (BitVec.ofNat 32 h.val) := by
  rewrite [val_main_v88_apply, val_main_v83_apply, v4_at, val_main_v87_apply, val_main_v86_apply, val_main_v85_apply,
    val_main_v84_apply]
  rfl

/-- The column word of corner 1 at a pixel. -/
theorem b1_col : val_main_v94 (F := Ideal) flo (ix3 n h w) = IntOp.addi (yaC flo n h w 1) (BitVec.ofNat 32 w.val) := by
  rewrite [val_main_v94_apply, val_main_v89_apply, v9_at, val_main_v93_apply, val_main_v92_apply, val_main_v91_apply,
    val_main_v90_apply]
  rfl

/-- The inside test of corner 1. -/
theorem b1_mask : val_main_v105 (F := Ideal) flo (ix3 n h w)
    = inside (IntOp.addi (xaC flo n h w 1) (BitVec.ofNat 32 h.val)) (IntOp.addi (yaC flo n h w 1) (BitVec.ofNat 32 w.val)) := by
  rewrite [val_main_v105_apply, val_main_v102_apply, val_main_v99_apply, val_main_v96_apply, val_main_v98_apply,
    val_main_v101_apply, val_main_v104_apply, b1_row, b1_col, val_main_v95_apply, val_main_v97_apply,
    val_main_v100_apply, val_main_v103_apply]
  rfl

/-- The weight array of corner 1 is the specification's (converted successors). -/
theorem b1_wm : val_main_v106 (F := Ideal) flo (ix3 n h w) = WmC flo 1 n h w := by
  rewrite [val_main_v106_apply, b1_mask, v15_at, val_main_call2_v1_apply, val_main_call2_v0_apply, val_main_cst_18_apply,
    Ideal.ofBits_def, Ideal.ofBits_zero_f32]
  rfl

/-- The target array of corner 1 is the specification's. -/
theorem b1_tg : val_main_v116 (F := Ideal) flo (ix3 n h w) = TgC flo 1 n h w := by
  rewrite [val_main_v116_apply, val_main_v110_apply, b1_mask, val_main_v109_apply, val_main_v108_apply, b1_row, b1_col,
    val_main_v107_apply, val_main_call3_v1_apply, val_main_v115_apply, val_main_v114_apply, val_main_v113_apply,
    val_main_v111_apply, val_main_v112_apply]
  rfl

/-! ## Corner 2 -/

/-- The row word of corner 2 at a pixel. -/
theorem b2_row : val_main_v149 (F := Ideal) flo (ix3 n h w) = IntOp.addi (xaC flo n h w 2) (BitVec.ofNat 32 h.val) := by
  rewrite [val_main_v149_apply, val_main_v144_apply, v6_at, val_main_v148_apply, val_main_v147_apply, val_main_v146_apply,
    val_main_v145_apply]
  rfl

/-- The column word of corner 2 at a pixel. -/
theorem b2_col : val_main_v155 (F := Ideal) flo (ix3 n h w) = IntOp.addi (yaC flo n h w 2) (BitVec.ofNat 32 w.val) := by
  rewrite [val_main_v155_apply, val_main_v150_apply, v7_at, val_main_v154_apply, val_main_v153_apply, val_main_v152_apply,
    val_main_v151_apply]
  rfl

/-- The inside test of corner 2. -/
theorem b2_mask : val_main_v166 (F := Ideal) flo (ix3 n h w)
    = inside (IntOp.addi (xaC flo n h w 2) (BitVec.ofNat 32 h.val)) (IntOp.addi (yaC flo n h w 2) (BitVec.ofNat 32 w.val)) := by
  rewrite [val_main_v166_apply, val_main_v163_apply, val_main_v160_apply, val_main_v157_apply, val_main_v159_apply,
    val_main_v162_apply, val_main_v165_apply, b2_row, b2_col, val_main_v156_apply, val_main_v158_apply,
    val_main_v161_apply, val_main_v164_apply]
  rfl

/-- The weight array of corner 2 is the specification's (converted successors). -/
theorem b2_wm : val_main_v167 (F := Ideal) flo (ix3 n h w) = WmC flo 2 n h w := by
  rewrite [val_main_v167_apply, b2_mask, v18_at, val_main_call4_v1_apply, val_main_call4_v0_apply, val_main_cst_32_apply,
    Ideal.ofBits_def, Ideal.ofBits_zero_f32]
  rfl

/-- The target array of corner 2 is the specification's. -/
theorem b2_tg : val_main_v177 (F := Ideal) flo (ix3 n h w) = TgC flo 2 n h w := by
  rewrite [val_main_v177_apply, val_main_v171_apply, b2_mask, val_main_v170_apply, val_main_v169_apply, b2_row, b2_col,
    val_main_v168_apply, val_main_call5_v1_apply, val_main_v176_apply, val_main_v175_apply, val_main_v174_apply,
    val_main_v172_apply, val_main_v173_apply]
  rfl

/-! ## Corner 3 -/

/-- The row word of corner 3 at a pixel. -/
theorem b3_row : val_main_v210 (F := Ideal) flo (ix3 n h w) = IntOp.addi (xaC flo n h w 3) (BitVec.ofNat 32 h.val) := by
  rewrite [val_main_v210_apply, val_main_v205_apply, v6_at, val_main_v209_apply, val_main_v208_apply, val_main_v207_apply,
    val_main_v206_apply]
  rfl

/-- The column word of corner 3 at a pixel. -/
theorem b3_col : val_main_v216 (F := Ideal) flo (ix3 n h w) = IntOp.addi (yaC flo n h w 3) (BitVec.ofNat 32 w.val) := by
  rewrite [val_main_v216_apply, val_main_v211_apply, v9_at, val_main_v215_apply, val_main_v214_apply, val_main_v213_apply,
    val_main_v212_apply]
  rfl

/-- The inside test of corner 3. -/
theorem b3_mask : val_main_v227 (F := Ideal) flo (ix3 n h w)
    = inside (IntOp.addi (xaC flo n h w 3) (BitVec.ofNat 32 h.val)) (IntOp.addi (yaC flo n h w 3) (BitVec.ofNat 32 w.val)) := by
  rewrite [val_main_v227_apply, val_main_v224_apply, val_main_v221_apply, val_main_v218_apply, val_main_v220_apply,
    val_main_v223_apply, val_main_v226_apply, b3_row, b3_col, val_main_v217_apply, val_main_v219_apply,
    val_main_v222_apply, val_main_v225_apply]
  rfl

/-- The weight array of corner 3 is the specification's (converted successors). -/
theorem b3_wm : val_main_v228 (F := Ideal) flo (ix3 n h w) = WmC flo 3 n h w := by
  rewrite [val_main_v228_apply, b3_mask, v21_at, val_main_call6_v1_apply, val_main_call6_v0_apply, val_main_cst_46_apply,
    Ideal.ofBits_def, Ideal.ofBits_zero_f32]
  rfl

/-- The target array of corner 3 is the specification's. -/
theorem b3_tg : val_main_v238 (F := Ideal) flo (ix3 n h w) = TgC flo 3 n h w := by
  rewrite [val_main_v238_apply, val_main_v232_apply, b3_mask, val_main_v231_apply, val_main_v230_apply, b3_row, b3_col,
    val_main_v229_apply, val_main_call7_v1_apply, val_main_v237_apply, val_main_v236_apply, val_main_v235_apply,
    val_main_v233_apply, val_main_v234_apply]
  rfl

end Corners

/-! # Part 3: the four corner blocks' scatters -/

section Scatters
variable (img : SImg.Idx → EReal) (flo : SFlo.Idx → EReal)

/-! ## Corner 0 -/

/-- Position e of the flat target array is the pixel (pn e, ph e, pw e). -/
theorem b0_tgflat (e : Fin 7372800) :
    val_main_v56 (F := Ideal) flo (ix1 e) = TgC flo 0 (pn e) (ph e) (pw e) := by
  rw [val_main_v56_apply]
  have hi : idx_main_v56 (ix1 e) = ix3 (pn e) (ph e) (pw e) := by
    funext a; match a with | ⟨0, _⟩ => rfl | ⟨1, _⟩ => rfl | ⟨2, _⟩ => rfl
  rw [hi, b0_tg]

/-- The index column of the image scatter: the wrapped target. -/
theorem b0_idxcol (e : Fin 7372800) :
    val_main_v68 (F := Ideal) flo (ix2 e (0 : Fin 1)) = wrapNeg (TgC flo 0 (pn e) (ph e) (pw e)) := by
  rw [val_main_v68_apply]
  have hi : idx_main_v68 (ix2 e (0 : Fin 1)) = ix1 e := by
    funext a; match a with | ⟨0, _⟩ => rfl
  rewrite [hi, val_main_v67_apply, val_main_v64_apply, val_main_v66_apply, b0_tgflat, val_main_v63_apply,
    val_main_v65_apply]
  rfl

/-- The index column of the weight scatter: the same wrapped target. -/
theorem b0_idxrow (e : Fin 7372800) :
    val_main_v77 (F := Ideal) flo (ix2 e (0 : Fin 1)) = wrapNeg (TgC flo 0 (pn e) (ph e) (pw e)) := by
  rw [val_main_v77_apply]
  have hi : idx_main_v77 (ix2 e (0 : Fin 1)) = ix1 e := by
    funext a; match a with | ⟨0, _⟩ => rfl
  rewrite [hi, val_main_v76_apply, val_main_v73_apply, val_main_v75_apply, b0_tgflat, val_main_v72_apply,
    val_main_v74_apply]
  rfl

/-- The updates of the image scatter: channel c of the image times the weight, at the pixel of position e. -/
theorem b0_updcol (c : Fin 3) (e : Fin 7372800) :
    val_main_v61 (F := Ideal) img flo (ix2 c e)
      = img (ix4 (pn e) c (ph e) (pw e)) * WmC flo 0 (pn e) (ph e) (pw e) := by
  rw [val_main_v61_apply, val_main_v60_apply, val_main_v59_apply, val_main_v58_apply, val_main_v57_apply]
  have h1 : idx_main_v60 (idx_main_v61 (ix2 c e)) = ix4 (pn e) c (ph e) (pw e) := by
    funext a
    refine Fin.ext ?_
    have hc := c.isLt; have he := e.isLt
    match a with
    | ⟨0, _⟩ => show (c.val * 7372800 + e.val) / 921600 % 8 = e.val / 921600; omega
    | ⟨1, _⟩ => show (c.val * 7372800 + e.val) / 7372800 = c.val; omega
    | ⟨2, _⟩ => show (c.val * 7372800 + e.val) / 1280 % 720 = e.val / 1280 % 720; omega
    | ⟨3, _⟩ => show (c.val * 7372800 + e.val) % 1280 = e.val % 1280; omega
  have h2 : idx_main_v57 (idx_main_v58 (ix4 (pn e) c (ph e) (pw e))) = ix3 (pn e) (ph e) (pw e) := by
    funext a; match a with | ⟨0, _⟩ => rfl | ⟨1, _⟩ => rfl | ⟨2, _⟩ => rfl
  rewrite [h1, h2, b0_wm]
  rfl

/-- The updates of the weight scatter: the weight at the pixel of position e. -/
theorem b0_updrow (e : Fin 7372800) :
    val_main_v71 (F := Ideal) flo (ix1 e) = WmC flo 0 (pn e) (ph e) (pw e) := by
  rw [val_main_v71_apply]
  have hi : idx_main_v71 (ix1 e) = ix3 (pn e) (ph e) (pw e) := by
    funext a; match a with | ⟨0, _⟩ => rfl | ⟨1, _⟩ => rfl | ⟨2, _⟩ => rfl
  rw [hi, b0_wm]

/-- Both scatters start from zero. -/
theorem b0_zcol (i : S3x7372800.Idx) : val_main_v62 (F := Ideal) i = 0 := by
  rw [val_main_v62_apply, val_main_cst_8_apply, Ideal.ofBits_def, Ideal.ofBits_zero_f32]
theorem b0_zrow (i : S7372800.Idx) : val_main_v70 (F := Ideal) i = 0 := by
  rw [val_main_v70_apply, val_main_cst_11_apply, Ideal.ofBits_def, Ideal.ofBits_zero_f32]

/-- Corner 0's image result at (n, c, h, w): zero plus the specification's sum. -/
theorem b0_img (n : Fin 8) (c : Fin 3) (h : Fin 720) (w : Fin 1280) :
    val_main_v80 (F := Ideal) img flo (ix4 n c h w) = 0 + imgPart (WmC flo) (TgC flo) img 0 n c h w := by
  rw [val_main_v80_apply, val_main_v79_apply]
  have hi : idx_main_v79 (idx_main_v80 (ix4 n c h w)) = ix2 c (flat n h w) := by
    funext a
    refine Fin.ext ?_
    have hn := n.isLt; have hc := c.isLt; have hh := h.isLt; have hw := w.isLt
    match a with
    | ⟨0, _⟩ => show (((c.val * 8 + n.val) * 720 + h.val) * 1280 + w.val) / 7372800 = c.val; omega
    | ⟨1, _⟩ =>
      show (((c.val * 8 + n.val) * 720 + h.val) * 1280 + w.val) % 7372800 = (n.val * 720 + h.val) * 1280 + w.val
      omega
  rw [hi]
  unfold val_main_v69
  have hc : scatter_S3x7372800_S7372800x1_S3x7372800_0_1_1_1
      = ScatterColsIdx.colsScatter 3 7372800 7372800 Facts₀.scatter_S3x7372800_S7372800x1_S3x7372800_0_1_1_1_wf := rfl
  rw [hc, ScatterColsIdx.scatterAdd_cols_apply]
  rw [b0_zcol]
  refine congrArg (fun s => (0 : EReal) + s) ?_
  unfold imgPart
  refine Finset.sum_congr rfl fun e _ => ?_
  rewrite [b0_idxcol, b0_updcol]
  rfl

/-- Corner 0's weight result at (n, c, h, w): zero plus the specification's sum (the same for every channel c). -/
theorem b0_one (n : Fin 8) (c : Fin 3) (h : Fin 720) (w : Fin 1280) :
    val_main_v82 (F := Ideal) flo (ix4 n c h w) = 0 + onePart (WmC flo) (TgC flo) 0 n h w := by
  rw [val_main_v82_apply, val_main_v81_apply]
  have hi : idx_main_v81 (idx_main_v82 (ix4 n c h w)) = ix1 (flat n h w) := by
    funext a
    refine Fin.ext ?_
    match a with
    | ⟨0, _⟩ =>
      show ((n.val * 1 + 0) * 720 + h.val) * 1280 + w.val = (n.val * 720 + h.val) * 1280 + w.val
      omega
  rw [hi]
  unfold val_main_v78
  have hd : scatter_S7372800_S7372800x1_S7372800_n_0_0_1
      = GatherScatterIdx.rowScatter 7372800 7372800 Facts₀.scatter_S7372800_S7372800x1_S7372800_n_0_0_1_wf := rfl
  rw [hd, GatherScatterIdx.scatterAdd_row_apply, b0_zrow]
  refine congrArg (fun s => (0 : EReal) + s) ?_
  unfold onePart
  refine Finset.sum_congr rfl fun e _ => ?_
  rewrite [b0_idxrow, b0_updrow]
  rfl

/-! ## Corner 1 -/

/-- Position e of the flat target array is the pixel (pn e, ph e, pw e). -/
theorem b1_tgflat (e : Fin 7372800) :
    val_main_v117 (F := Ideal) flo (ix1 e) = TgC flo 1 (pn e) (ph e) (pw e) := by
  rw [val_main_v117_apply]
  have hi : idx_main_v117 (ix1 e) = ix3 (pn e) (ph e) (pw e) := by
    funext a; match a with | ⟨0, _⟩ => rfl | ⟨1, _⟩ => rfl | ⟨2, _⟩ => rfl
  rw [hi, b1_tg]

/-- The index column of the image scatter: the wrapped target. -/
theorem b1_idxcol (e : Fin 7372800) :
    val_main_v129 (F := Ideal) flo (ix2 e (0 : Fin 1)) = wrapNeg (TgC flo 1 (pn e) (ph e) (pw e)) := by
  rw [val_main_v129_apply]
  have hi : idx_main_v129 (ix2 e (0 : Fin 1)) = ix1 e := by
    funext a; match a with | ⟨0, _⟩ => rfl
  rewrite [hi, val_main_v128_apply, val_main_v125_apply, val_main_v127_apply, b1_tgflat, val_main_v124_apply,
    val_main_v126_apply]
  rfl

/-- The index column of the weight scatter: the same wrapped target. -/
theorem b1_idxrow (e : Fin 7372800) :
    val_main_v138 (F := Ideal) flo (ix2 e (0 : Fin 1)) = wrapNeg (TgC flo 1 (pn e) (ph e) (pw e)) := by
  rw [val_main_v138_apply]
  have hi : idx_main_v138 (ix2 e (0 : Fin 1)) = ix1 e := by
    funext a; match a with | ⟨0, _⟩ => rfl
  rewrite [hi, val_main_v137_apply, val_main_v134_apply, val_main_v136_apply, b1_tgflat, val_main_v133_apply,
    val_main_v135_apply]
  rfl

/-- The updates of the image scatter: channel c of the image times the weight, at the pixel of position e. -/
theorem b1_updcol (c : Fin 3) (e : Fin 7372800) :
    val_main_v122 (F := Ideal) img flo (ix2 c e)
      = img (ix4 (pn e) c (ph e) (pw e)) * WmC flo 1 (pn e) (ph e) (pw e) := by
  rw [val_main_v122_apply, val_main_v121_apply, val_main_v120_apply, val_main_v119_apply, val_main_v118_apply]
  have h1 : idx_main_v121 (idx_main_v122 (ix2 c e)) = ix4 (pn e) c (ph e) (pw e) := by
    funext a
    refine Fin.ext ?_
    have hc := c.isLt; have he := e.isLt
    match a with
    | ⟨0, _⟩ => show (c.val * 7372800 + e.val) / 921600 % 8 = e.val / 921600; omega
    | ⟨1, _⟩ => show (c.val * 7372800 + e.val) / 7372800 = c.val; omega
    | ⟨2, _⟩ => show (c.val * 7372800 + e.val) / 1280 % 720 = e.val / 1280 % 720; omega
    | ⟨3, _⟩ => show (c.val * 7372800 + e.val) % 1280 = e.val % 1280; omega
  have h2 : idx_main_v118 (idx_main_v119 (ix4 (pn e) c (ph e) (pw e))) = ix3 (pn e) (ph e) (pw e) := by
    funext a; match a with | ⟨0, _⟩ => rfl | ⟨1, _⟩ => rfl | ⟨2, _⟩ => rfl
  rewrite [h1, h2, b1_wm]
  rfl

/-- The updates of the weight scatter: the weight at the pixel of position e. -/
theorem b1_updrow (e : Fin 7372800) :
    val_main_v132 (F := Ideal) flo (ix1 e) = WmC flo 1 (pn e) (ph e) (pw e) := by
  rw [val_main_v132_apply]
  have hi : idx_main_v132 (ix1 e) = ix3 (pn e) (ph e) (pw e) := by
    funext a; match a with | ⟨0, _⟩ => rfl | ⟨1, _⟩ => rfl | ⟨2, _⟩ => rfl
  rw [hi, b1_wm]

/-- Both scatters start from zero. -/
theorem b1_zcol (i : S3x7372800.Idx) : val_main_v123 (F := Ideal) i = 0 := by
  rw [val_main_v123_apply, val_main_cst_22_apply, Ideal.ofBits_def, Ideal.ofBits_zero_f32]
theorem b1_zrow (i : S7372800.Idx) : val_main_v131 (F := Ideal) i = 0 := by
  rw [val_main_v131_apply, val_main_cst_25_apply, Ideal.ofBits_def, Ideal.ofBits_zero_f32]

/-- Corner 1's image result at (n, c, h, w): zero plus the specification's sum. -/
theorem b1_img (n : Fin 8) (c : Fin 3) (h : Fin 720) (w : Fin 1280) :
    val_main_v141 (F := Ideal) img flo (ix4 n c h w) = 0 + imgPart (WmC flo) (TgC flo) img 1 n c h w := by
  rw [val_main_v141_apply, val_main_v140_apply]
  have hi : idx_main_v140 (idx_main_v141 (ix4 n c h w)) = ix2 c (flat n h w) := by
    funext a
    refine Fin.ext ?_
    have hn := n.isLt; have hc := c.isLt; have hh := h.isLt; have hw := w.isLt
    match a with
    | ⟨0, _⟩ => show (((c.val * 8 + n.val) * 720 + h.val) * 1280 + w.val) / 7372800 = c.val; omega
    | ⟨1, _⟩ =>
      show (((c.val * 8 + n.val) * 720 + h.val) * 1280 + w.val) % 7372800 = (n.val * 720 + h.val) * 1280 + w.val
      omega
  rw [hi]
  unfold val_main_v130
  have hc : scatter_S3x7372800_S7372800x1_S3x7372800_0_1_1_1
      = ScatterColsIdx.colsScatter 3 7372800 7372800 Facts₀.scatter_S3x7372800_S7372800x1_S3x7372800_0_1_1_1_wf := rfl
  rw [hc, ScatterColsIdx.scatterAdd_cols_apply]
  rw [b1_zcol]
  refine congrArg (fun s => (0 : EReal) + s) ?_
  unfold imgPart
  refine Finset.sum_congr rfl fun e _ => ?_
  rewrite [b1_idxcol, b1_updcol]
  rfl

/-- Corner 1's weight result at (n, c, h, w): zero plus the specification's sum (the same for every channel c). -/
theorem b1_one (n : Fin 8) (c : Fin 3) (h : Fin 720) (w : Fin 1280) :
    val_main_v143 (F := Ideal) flo (ix4 n c h w) = 0 + onePart (WmC flo) (TgC flo) 1 n h w := by
  rw [val_main_v143_apply, val_main_v142_apply]
  have hi : idx_main_v142 (idx_main_v143 (ix4 n c h w)) = ix1 (flat n h w) := by
    funext a
    refine Fin.ext ?_
    match a with
    | ⟨0, _⟩ =>
      show ((n.val * 1 + 0) * 720 + h.val) * 1280 + w.val = (n.val * 720 + h.val) * 1280 + w.val
      omega
  rw [hi]
  unfold val_main_v139
  have hd : scatter_S7372800_S7372800x1_S7372800_n_0_0_1
      = GatherScatterIdx.rowScatter 7372800 7372800 Facts₀.scatter_S7372800_S7372800x1_S7372800_n_0_0_1_wf := rfl
  rw [hd, GatherScatterIdx.scatterAdd_row_apply, b1_zrow]
  refine congrArg (fun s => (0 : EReal) + s) ?_
  unfold onePart
  refine Finset.sum_congr rfl fun e _ => ?_
  rewrite [b1_idxrow, b1_updrow]
  rfl

/-! ## Corner 2 -/

/-- Position e of the flat target array is the pixel (pn e, ph e, pw e). -/
theorem b2_tgflat (e : Fin 7372800) :
    val_main_v178 (F := Ideal) flo (ix1 e) = TgC flo 2 (pn e) (ph e) (pw e) := by
  rw [val_main_v178_apply]
  have hi : idx_main_v178 (ix1 e) = ix3 (pn e) (ph e) (pw e) := by
    funext a; match a with | ⟨0, _⟩ => rfl | ⟨1, _⟩ => rfl | ⟨2, _⟩ => rfl
  rw [hi, b2_tg]

/-- The index column of the image scatter: the wrapped target. -/
theorem b2_idxcol (e : Fin 7372800) :
    val_main_v190 (F := Ideal) flo (ix2 e (0 : Fin 1)) = wrapNeg (TgC flo 2 (pn e) (ph e) (pw e)) := by
  rw [val_main_v190_apply]
  have hi : idx_main_v190 (ix2 e (0 : Fin 1)) = ix1 e := by
    funext a; match a with | ⟨0, _⟩ => rfl
  rewrite [hi, val_main_v189_apply, val_main_v186_apply, val_main_v188_apply, b2_tgflat, val_main_v185_apply,
    val_main_v187_apply]
  rfl

/-- The index column of the weight scatter: the same wrapped target. -/
theorem b2_idxrow (e : Fin 7372800) :
    val_main_v199 (F := Ideal) flo (ix2 e (0 : Fin 1)) = wrapNeg (TgC flo 2 (pn e) (ph e) (pw e)) := by
  rw [val_main_v199_apply]
  have hi : idx_main_v199 (ix2 e (0 : Fin 1)) = ix1 e := by
    funext a; match a with | ⟨0, _⟩ => rfl
  rewrite [hi, val_main_v198_apply, val_main_v195_apply, val_main_v197_apply, b2_tgflat, val_main_v194_apply,
    val_main_v196_apply]
  rfl

/-- The updates of the image scatter: channel c of the image times the weight, at the pixel of position e. -/
theorem b2_updcol (c : Fin 3) (e : Fin 7372800) :
    val_main_v183 (F := Ideal) img flo (ix2 c e)
      = img (ix4 (pn e) c (ph e) (pw e)) * WmC flo 2 (pn e) (ph e) (pw e) := by
  rw [val_main_v183_apply, val_main_v182_apply, val_main_v181_apply, val_main_v180_apply, val_main_v179_apply]
  have h1 : idx_main_v182 (idx_main_v183 (ix2 c e)) = ix4 (pn e) c (ph e) (pw e) := by
    funext a
    refine Fin.ext ?_
    have hc := c.isLt; have he := e.isLt
    match a with
    | ⟨0, _⟩ => show (c.val * 7372800 + e.val) / 921600 % 8 = e.val / 921600; omega
    | ⟨1, _⟩ => show (c.val * 7372800 + e.val) / 7372800 = c.val; omega
    | ⟨2, _⟩ => show (c.val * 7372800 + e.val) / 1280 % 720 = e.val / 1280 % 720; omega
    | ⟨3, _⟩ => show (c.val * 7372800 + e.val) % 1280 = e.val % 1280; omega
  have h2 : idx_main_v179 (idx_main_v180 (ix4 (pn e) c (ph e) (pw e))) = ix3 (pn e) (ph e) (pw e) := by
    funext a; match a with | ⟨0, _⟩ => rfl | ⟨1, _⟩ => rfl | ⟨2, _⟩ => rfl
  rewrite [h1, h2, b2_wm]
  rfl

/-- The updates of the weight scatter: the weight at the pixel of position e. -/
theorem b2_updrow (e : Fin 7372800) :
    val_main_v193 (F := Ideal) flo (ix1 e) = WmC flo 2 (pn e) (ph e) (pw e) := by
  rw [val_main_v193_apply]
  have hi : idx_main_v193 (ix1 e) = ix3 (pn e) (ph e) (pw e) := by
    funext a; match a with | ⟨0, _⟩ => rfl | ⟨1, _⟩ => rfl | ⟨2, _⟩ => rfl
  rw [hi, b2_wm]

/-- Both scatters start from zero. -/
theorem b2_zcol (i : S3x7372800.Idx) : val_main_v184 (F := Ideal) i = 0 := by
  rw [val_main_v184_apply, val_main_cst_36_apply, Ideal.ofBits_def, Ideal.ofBits_zero_f32]
theorem b2_zrow (i : S7372800.Idx) : val_main_v192 (F := Ideal) i = 0 := by
  rw [val_main_v192_apply, val_main_cst_39_apply, Ideal.ofBits_def, Ideal.ofBits_zero_f32]

/-- Corner 2's image result at (n, c, h, w): zero plus the specification's sum. -/
theorem b2_img (n : Fin 8) (c : Fin 3) (h : Fin 720) (w : Fin 1280) :
    val_main_v202 (F := Ideal) img flo (ix4 n c h w) = 0 + imgPart (WmC flo) (TgC flo) img 2 n c h w := by
  rw [val_main_v202_apply, val_main_v201_apply]
  have hi : idx_main_v201 (idx_main_v202 (ix4 n c h w)) = ix2 c (flat n h w) := by
    funext a
    refine Fin.ext ?_
    have hn := n.isLt; have hc := c.isLt; have hh := h.isLt; have hw := w.isLt
    match a with
    | ⟨0, _⟩ => show (((c.val * 8 + n.val) * 720 + h.val) * 1280 + w.val) / 7372800 = c.val; omega
    | ⟨1, _⟩ =>
      show (((c.val * 8 + n.val) * 720 + h.val) * 1280 + w.val) % 7372800 = (n.val * 720 + h.val) * 1280 + w.val
      omega
  rw [hi]
  unfold val_main_v191
  have hc : scatter_S3x7372800_S7372800x1_S3x7372800_0_1_1_1
      = ScatterColsIdx.colsScatter 3 7372800 7372800 Facts₀.scatter_S3x7372800_S7372800x1_S3x7372800_0_1_1_1_wf := rfl
  rw [hc, ScatterColsIdx.scatterAdd_cols_apply]
  rw [b2_zcol]
  refine congrArg (fun s => (0 : EReal) + s) ?_
  unfold imgPart
  refine Finset.sum_congr rfl fun e _ => ?_
  rewrite [b2_idxcol, b2_updcol]
  rfl

/-- Corner 2's weight result at (n, c, h, w): zero plus the specification's sum (the same for every channel c). -/
theorem b2_one (n : Fin 8) (c : Fin 3) (h : Fin 720) (w : Fin 1280) :
    val_main_v204 (F := Ideal) flo (ix4 n c h w) = 0 + onePart (WmC flo) (TgC flo) 2 n h w := by
  rw [val_main_v204_apply, val_main_v203_apply]
  have hi : idx_main_v203 (idx_main_v204 (ix4 n c h w)) = ix1 (flat n h w) := by
    funext a
    refine Fin.ext ?_
    match a with
    | ⟨0, _⟩ =>
      show ((n.val * 1 + 0) * 720 + h.val) * 1280 + w.val = (n.val * 720 + h.val) * 1280 + w.val
      omega
  rw [hi]
  unfold val_main_v200
  have hd : scatter_S7372800_S7372800x1_S7372800_n_0_0_1
      = GatherScatterIdx.rowScatter 7372800 7372800 Facts₀.scatter_S7372800_S7372800x1_S7372800_n_0_0_1_wf := rfl
  rw [hd, GatherScatterIdx.scatterAdd_row_apply, b2_zrow]
  refine congrArg (fun s => (0 : EReal) + s) ?_
  unfold onePart
  refine Finset.sum_congr rfl fun e _ => ?_
  rewrite [b2_idxrow, b2_updrow]
  rfl

/-! ## Corner 3 -/

/-- Position e of the flat target array is the pixel (pn e, ph e, pw e). -/
theorem b3_tgflat (e : Fin 7372800) :
    val_main_v239 (F := Ideal) flo (ix1 e) = TgC flo 3 (pn e) (ph e) (pw e) := by
  rw [val_main_v239_apply]
  have hi : idx_main_v239 (ix1 e) = ix3 (pn e) (ph e) (pw e) := by
    funext a; match a with | ⟨0, _⟩ => rfl | ⟨1, _⟩ => rfl | ⟨2, _⟩ => rfl
  rw [hi, b3_tg]

/-- The index column of the image scatter: the wrapped target. -/
theorem b3_idxcol (e : Fin 7372800) :
    val_main_v251 (F := Ideal) flo (ix2 e (0 : Fin 1)) = wrapNeg (TgC flo 3 (pn e) (ph e) (pw e)) := by
  rw [val_main_v251_apply]
  have hi : idx_main_v251 (ix2 e (0 : Fin 1)) = ix1 e := by
    funext a; match a with | ⟨0, _⟩ => rfl
  rewrite [hi, val_main_v250_apply, val_main_v247_apply, val_main_v249_apply, b3_tgflat, val_main_v246_apply,
    val_main_v248_apply]
  rfl

/-- The index column of the weight scatter: the same wrapped target. -/
theorem b3_idxrow (e : Fin 7372800) :
    val_main_v260 (F := Ideal) flo (ix2 e (0 : Fin 1)) = wrapNeg (TgC flo 3 (pn e) (ph e) (pw e)) := by
  rw [val_main_v260_apply]
  have hi : idx_main_v260 (ix2 e (0 : Fin 1)) = ix1 e := by
    funext a; match a with | ⟨0, _⟩ => rfl
  rewrite [hi, val_main_v259_apply, val_main_v256_apply, val_main_v258_apply, b3_tgflat, val_main_v255_apply,
    val_main_v257_apply]
  rfl

/-- The updates of the image scatter: channel c of the image times the weight, at the pixel of position e. -/
theorem b3_updcol (c : Fin 3) (e : Fin 7372800) :
    val_main_v244 (F := Ideal) img flo (ix2 c e)
      = img (ix4 (pn e) c (ph e) (pw e)) * WmC flo 3 (pn e) (ph e) (pw e) := by
  rw [val_main_v244_apply, val_main_v243_apply, val_main_v242_apply, val_main_v241_apply, val_main_v240_apply]
  have h1 : idx_main_v243 (idx_main_v244 (ix2 c e)) = ix4 (pn e) c (ph e) (pw e) := by
    funext a
    refine Fin.ext ?_
    have hc := c.isLt; have he := e.isLt
    match a with
    | ⟨0, _⟩ => show (c.val * 7372800 + e.val) / 921600 % 8 = e.val / 921600; omega
    | ⟨1, _⟩ => show (c.val * 7372800 + e.val) / 7372800 = c.val; omega
    | ⟨2, _⟩ => show (c.val * 7372800 + e.val) / 1280 % 720 = e.val / 1280 % 720; omega
    | ⟨3, _⟩ => show (c.val * 7372800 + e.val) % 1280 = e.val % 1280; omega
  have h2 : idx_main_v240 (idx_main_v241 (ix4 (pn e) c (ph e) (pw e))) = ix3 (pn e) (ph e) (pw e) := by
    funext a; match a with | ⟨0, _⟩ => rfl | ⟨1, _⟩ => rfl | ⟨2, _⟩ => rfl
  rewrite [h1, h2, b3_wm]
  rfl

/-- The updates of the weight scatter: the weight at the pixel of position e. -/
theorem b3_updrow (e : Fin 7372800) :
    val_main_v254 (F := Ideal) flo (ix1 e) = WmC flo 3 (pn e) (ph e) (pw e) := by
  rw [val_main_v254_apply]
  have hi : idx_main_v254 (ix1 e) = ix3 (pn e) (ph e) (pw e) := by
    funext a; match a with | ⟨0, _⟩ => rfl | ⟨1, _⟩ => rfl | ⟨2, _⟩ => rfl
  rw [hi, b3_wm]

/-- Both scatters start from zero. -/
theorem b3_zcol (i : S3x7372800.Idx) : val_main_v245 (F := Ideal) i = 0 := by
  rw [val_main_v245_apply, val_main_cst_50_apply, Ideal.ofBits_def, Ideal.ofBits_zero_f32]
theorem b3_zrow (i : S7372800.Idx) : val_main_v253 (F := Ideal) i = 0 := by
  rw [val_main_v253_apply, val_main_cst_53_apply, Ideal.ofBits_def, Ideal.ofBits_zero_f32]

/-- Corner 3's image result at (n, c, h, w): zero plus the specification's sum. -/
theorem b3_img (n : Fin 8) (c : Fin 3) (h : Fin 720) (w : Fin 1280) :
    val_main_v263 (F := Ideal) img flo (ix4 n c h w) = 0 + imgPart (WmC flo) (TgC flo) img 3 n c h w := by
  rw [val_main_v263_apply, val_main_v262_apply]
  have hi : idx_main_v262 (idx_main_v263 (ix4 n c h w)) = ix2 c (flat n h w) := by
    funext a
    refine Fin.ext ?_
    have hn := n.isLt; have hc := c.isLt; have hh := h.isLt; have hw := w.isLt
    match a with
    | ⟨0, _⟩ => show (((c.val * 8 + n.val) * 720 + h.val) * 1280 + w.val) / 7372800 = c.val; omega
    | ⟨1, _⟩ =>
      show (((c.val * 8 + n.val) * 720 + h.val) * 1280 + w.val) % 7372800 = (n.val * 720 + h.val) * 1280 + w.val
      omega
  rw [hi]
  unfold val_main_v252
  have hc : scatter_S3x7372800_S7372800x1_S3x7372800_0_1_1_1
      = ScatterColsIdx.colsScatter 3 7372800 7372800 Facts₀.scatter_S3x7372800_S7372800x1_S3x7372800_0_1_1_1_wf := rfl
  rw [hc, ScatterColsIdx.scatterAdd_cols_apply]
  rw [b3_zcol]
  refine congrArg (fun s => (0 : EReal) + s) ?_
  unfold imgPart
  refine Finset.sum_congr rfl fun e _ => ?_
  rewrite [b3_idxcol, b3_updcol]
  rfl

/-- Corner 3's weight result at (n, c, h, w): zero plus the specification's sum (the same for every channel c). -/
theorem b3_one (n : Fin 8) (c : Fin 3) (h : Fin 720) (w : Fin 1280) :
    val_main_v265 (F := Ideal) flo (ix4 n c h w) = 0 + onePart (WmC flo) (TgC flo) 3 n h w := by
  rw [val_main_v265_apply, val_main_v264_apply]
  have hi : idx_main_v264 (idx_main_v265 (ix4 n c h w)) = ix1 (flat n h w) := by
    funext a
    refine Fin.ext ?_
    match a with
    | ⟨0, _⟩ =>
      show ((n.val * 1 + 0) * 720 + h.val) * 1280 + w.val = (n.val * 720 + h.val) * 1280 + w.val
      omega
  rw [hi]
  unfold val_main_v261
  have hd : scatter_S7372800_S7372800x1_S7372800_n_0_0_1
      = GatherScatterIdx.rowScatter 7372800 7372800 Facts₀.scatter_S7372800_S7372800x1_S7372800_n_0_0_1_wf := rfl
  rw [hd, GatherScatterIdx.scatterAdd_row_apply, b3_zrow]
  refine congrArg (fun s => (0 : EReal) + s) ?_
  unfold onePart
  refine Finset.sum_congr rfl fun e _ => ?_
  rewrite [b3_idxrow, b3_updrow]
  rfl

end Scatters

/-! # Part 4: the two results -/

section Results
variable (img : SImg.Idx → EReal) (flo : SFlo.Idx → EReal) (n : Fin 8) (c : Fin 3) (h : Fin 720) (w : Fin 1280)

/-- The first result: the image splatted onto the four corners. -/
theorem ref_out0 :
    Cert.ReferenceIdeal.Read.val_main_v268 (F := Ideal) img flo (ix4 n c h w)
      = (((0 + imgPart (WmC flo) (TgC flo) img 0 n c h w) + (0 + imgPart (WmC flo) (TgC flo) img 1 n c h w))
          + (0 + imgPart (WmC flo) (TgC flo) img 2 n c h w)) + (0 + imgPart (WmC flo) (TgC flo) img 3 n c h w) := by
  rewrite [val_main_v268_apply, val_main_v267_apply, val_main_v266_apply, b0_img, b1_img, b2_img, b3_img]
  rfl

/-- The second result: the weights splatted onto the four corners (the same for every channel). -/
theorem ref_out1 :
    Cert.ReferenceIdeal.Read.val_main_v271 (F := Ideal) flo (ix4 n c h w)
      = (((0 + onePart (WmC flo) (TgC flo) 0 n h w) + (0 + onePart (WmC flo) (TgC flo) 1 n h w))
          + (0 + onePart (WmC flo) (TgC flo) 2 n h w)) + (0 + onePart (WmC flo) (TgC flo) 3 n h w) := by
  rewrite [val_main_v271_apply, val_main_v270_apply, val_main_v269_apply, b0_one, b1_one, b2_one, b3_one]
  rfl

end Results

end Cert.Warp.Ref

end
-- ==== Proof.lean ====
/-
  Forward bilinear warp: a tiled kernel that stacks the four corners' weighted values and targets and accumulates
  them in ONE scatter-add, against a reference that accumulates each corner separately and adds the four results.

  Both programs compute, at every pixel p and channel c, the sum over the four corners k and over all source pixels q
  whose corner k lands on p of image(q, c) times corner k's bilinear weight at q (first result), and of the weight alone
  (second result).  They differ in three ways, none of which changes the extended-real value:
    * the kernel forms the word of floor(x) + 1 by converting floor(x) and adding one as a word, the reference by adding
      one as a number and converting; the words differ only where a conversion clamps, and there the corner is outside
      the image for both, so weight and target agree (Proof/CornerWords.lean);
    * the kernel accumulates the four stacked corners at once, the reference one corner at a time into zero arrays that
      it then adds; sums of extended reals may be regrouped freely (Proof/StackSplit.lean, Proof/Results.lean);
    * the kernel works on 80-row tiles of each batch, which only changes how the stacked arrays are filled
      (Proof/KerRegionTile.lean, KerRegionBlocks.lean, KerRegionCover.lean), and reads the accumulated array back through
      slices, reshapes and transposes (Proof/KerTail.lean); the reference's chain of host operations is read at an index
      in Proof/RefWarp.lean.
  Neither side needs the inputs to be finite: only commutativity and associativity of addition are used.
-/
import proofs.«180801_j71141838291751_2_alg».proof.Defs
import proofs.«180801_j71141838291751_2_alg».proof.Proof.Gen.Kernel
import proofs.«180801_j71141838291751_2_alg».proof.Proof.Gen.Kernel.Frame
import proofs.«180801_j71141838291751_2_alg».proof.Proof.Gen.KernelIdeal
import proofs.«180801_j71141838291751_2_alg».proof.Proof.Gen.KernelIdeal.Frame
import proofs.«180801_j71141838291751_2_alg».proof.Proof.Gen.ReferenceIdeal
import proofs.«180801_j71141838291751_2_alg».proof.Proof.Gen.Pre_finite_inputs
import proofs.«180801_j71141838291751_2_alg».proof.Proof.RefRun
import proofs.«180801_j71141838291751_2_alg».proof.Proof.RefRead
import proofs.«180801_j71141838291751_2_alg».proof.Proof.Results
import proofs.«180801_j71141838291751_2_alg».proof.Proof.KerRegionCover
import proofs.«180801_j71141838291751_2_alg».proof.Proof.KerTail
import proofs.«180801_j71141838291751_2_alg».proof.Proof.RefWarp
import Idealize.ShloMosaic.Adequacy
import Idealize.ShloMosaic.Init

noncomputable section

namespace Cert.Proof

open Idealize.ShloMosaic Idealize.ShloMosaic.TcCoe Idealize.SL.Sem Idealize.ShloMosaic.ValueIdx Cert.Warp

/-! ## The three frames and the idealization -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The ideal pass rewrote nothing. -/
theorem preserves : Cert.preserves_Kernel_KernelIdeal := trivial

/-! ## The kernel program's results -/

section KernelSide
open Cert.KernelIdeal Cert.KernelIdeal.Gen

/-- The kernel program ends with the warped image and the accumulated weights of its argument arrays. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14)
          = out0 (m ((c.tc : Thread nD τ).loc main_arg0)) (m ((c.tc : Thread nD τ).loc main_arg1))
      ∧ r.2.mem ((c.tc : Thread nD τ).loc main_v18) = out1 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_, ?_⟩) (run_main (F := Ideal) m ρ)
  · refine ((h c).2 main_v14 (by decide)).trans (funext fun (i : SImg.Idx) => ?_)
    obtain ⟨n, ch, h', w, rfl⟩ : ∃ (n : Fin 8) (ch : Fin 3) (h' : Fin 720) (w : Fin 1280), i = ix4 n ch h' w :=
      ⟨i 0, i 1, i 2, i 3, eq_ix4 i⟩
    exact (Cert.Warp.Ker.tail_out0 m c _ _ (Cert.Warp.Ker.vals_final m c) (Cert.Warp.Ker.tgt_final m c) n ch h' w).trans
      (stack_out0 _ _ n ch h' w _)
  · refine ((h c).2 main_v18 (by decide)).trans (funext fun (i : SImg.Idx) => ?_)
    obtain ⟨n, ch, h', w, rfl⟩ : ∃ (n : Fin 8) (ch : Fin 3) (h' : Fin 720) (w : Fin 1280), i = ix4 n ch h' w :=
      ⟨i 0, i 1, i 2, i 3, eq_ix4 i⟩
    exact (Cert.Warp.Ker.tail_out1 m c _ _ (Cert.Warp.Ker.vals_final m c) (Cert.Warp.Ker.tgt_final m c) n ch h' w).trans
      (stack_out1 (m ((c.tc : Thread nD τ).loc main_arg0)) _ n ch h' w)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end KernelSide

/-! ## The reference's results -/

section ReferenceSide
open Cert.ReferenceIdeal Cert.ReferenceIdeal.Gen

/-- The reference ends with the same two functions of its argument arrays. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v268)
          = out0 (m ((c.tc : Thread nD τ).loc main_arg0)) (m ((c.tc : Thread nD τ).loc main_arg1))
      ∧ r.2.mem ((c.tc : Thread nD τ).loc main_v271) = out1 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, (h c).2.2.1, (h c).2.2.2⟩)
    (Cert.ReferenceIdeal.Value.run (F := Ideal) m ρ)
  · refine ((h c).1.trans (Cert.ReferenceIdeal.Read.val_main_v268_eq m c)).trans (funext fun (i : SImg.Idx) => ?_)
    obtain ⟨n, ch, h', w, rfl⟩ : ∃ (n : Fin 8) (ch : Fin 3) (h' : Fin 720) (w : Fin 1280), i = ix4 n ch h' w :=
      ⟨i 0, i 1, i 2, i 3, eq_ix4 i⟩
    exact Cert.Warp.Ref.ref_out0 _ _ n ch h' w
  · refine ((h c).2.1.trans (Cert.ReferenceIdeal.Read.val_main_v271_eq m c)).trans (funext fun (i : SImg.Idx) => ?_)
    obtain ⟨n, ch, h', w, rfl⟩ : ∃ (n : Fin 8) (ch : Fin 3) (h' : Fin 720) (w : Fin 1280), i = ix4 n ch h' w :=
      ⟨i 0, i 1, i 2, i 3, eq_ix4 i⟩
    exact Cert.Warp.Ref.ref_out1 _ n ch h' w

end ReferenceSide

/-! ## The claims -/

/-- From memories agreeing on the image and the flow, both programs end with the same two arrays. -/
theorem algebraic : Cert.algebraic_KernelIdeal_ReferenceIdeal := by
  intro m ρ m' ρ' _ hagree
  refine ⟨fun c => out0 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => out1 (m ((c.tc : Thread Cert.KernelIdeal.nD Cert.KernelIdeal.τ).loc Cert.KernelIdeal.main_arg1)),
    kernel_run m ρ, ?_⟩
  refine (θ_run Cert.ReferenceIdeal.defs _ _).mono (fun r h c => ?_) (reference_run m' ρ')
  have hc := h c
  exact ⟨hc.1.trans (by rw [(hagree c).1, (hagree c).2]), hc.2.1.trans (by rw [(hagree c).2]), hc.2.2.1, hc.2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
